-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S16x3x512x512 : Shape := ⟨4, ![16, 3, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x3x512x512 : S_.BroadcastsInDim S16x3x512x512 (![] : Fin 0 → Fin S16x3x512x512.rank)
  reducesTo_S16x3x512x512_S_d0_1_2_3 : S16x3x512x512.ReducesTo [0, 1, 2, 3] S_

variable [Facts]

def fn_part1 {F : FTy → Type} [FloatOps F] (main_v13 : IVec S_ 1) (main_v16 : IVec S16x3x512x512 1) : IVec S_ 1 :=
  let main_c_5 : IVec S_ 1 := constantI S_ 1 1#1
  let main_v17 : IVec S_ 1 := (fun x v => Host.reduce IntOp.andi x v reducesTo_S16x3x512x512_S_d0_1_2_3 h_S_) main_v16 main_c_5
  let main_v18 : IVec S_ 1 := andi main_v13 main_v17
  main_v18

def fn {F : FTy → Type} [FloatOps F] (main_arg0 : FVec F S16x1x512x512 .f32) (main_arg1 : FVec F S16x1x512x512 .f32) (main_arg2 : FVec F S16x3x512x512 .f32) (main_arg3 : FVec F S16x3x512x512 .f32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x3x512x512 .f32 := Host.absf main_arg2
  let main_cst_2 : FVec F S_ .f32 := constant S_ .f32 0x7F800000#32
  let main_v10 : FVec F S16x3x512x512 .f32 := broadcastInDim S16x3x512x512 ![] bcast_S_S16x3x512x512 main_cst_2
  let main_v11 : IVec S16x3x512x512 1 := cmpf .olt main_v9 main_v10
  let main_c_3 : IVec S_ 1 := constantI S_ 1 1#1
  let main_v12 : IVec S_ 1 := (fun x v => Host.reduce IntOp.andi x v reducesTo_S16x3x512x512_S_d0_1_2_3 h_S_) main_v11 main_c_3
  let main_v13 : IVec S_ 1 := andi main_v8 main_v12
  let main_v14 : FVec F S16x3x512x512 .f32 := Host.absf main_arg3
  let main_cst_4 : FVec F S_ .f32 := constant S_ .f32 0x7F800000#32
  let main_v15 : FVec F S16x3x512x512 .f32 := broadcastInDim S16x3x512x512 ![] bcast_S_S16x3x512x512 main_cst_4
  let main_v16 : IVec S16x3x512x512 1 := cmpf .olt main_v14 main_v15
  fn_part1 (F := F) main_v13 main_v16
-- ==== Kernel.lean ====
abbrev S16x1x512x512 : Shape := ⟨4, ![16, 1, 512, 512]⟩
abbrev S16x3x512x512 : Shape := ⟨4, ![16, 3, 512, 512]⟩
abbrev S16x512x512 : Shape := ⟨3, ![16, 512, 512]⟩
abbrev S1x128 : Shape := ⟨2, ![1, 128]⟩
abbrev S4x512x512 : Shape := ⟨3, ![4, 512, 512]⟩
abbrev S1x4x512x512 : Shape := ⟨4, ![1, 4, 512, 512]⟩
abbrev S1 : Shape := ⟨1, ![1]⟩
abbrev S1x1x1x1 : Shape := ⟨4, ![1, 1, 1, 1]⟩
abbrev S_ : Shape := ⟨0, ![]⟩
abbrev S1x1 : Shape := ⟨2, ![1, 1]⟩
abbrev S48x512x512 : Shape := ⟨3, ![48, 512, 512]⟩

abbrev nBuf : Space → Nat
  | .hbm => 73
  | .vmem => 22
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x3x512x512, .f32⟩
  | .hbm, ⟨3, _⟩ => ⟨S16x3x512x512, .f32⟩
  | .hbm, ⟨4, _⟩ => ⟨S16x512x512, .f32⟩
  | .hbm, ⟨5, _⟩ => ⟨S16x512x512, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .i1⟩
  | .hbm, ⟨10, _⟩ => ⟨S1x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .i1⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S48x512x512, .f32⟩
  | .hbm, ⟨38, _⟩ => ⟨S48x512x512, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .i1⟩
  | .hbm, ⟨43, _⟩ => ⟨S1x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .i1⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S1x128, .f32⟩
  | .local _ .vmem, ⟨5, _⟩ => ⟨S4x512x512, .f32⟩
  | .local _ .vmem, ⟨6, _⟩ => ⟨S4x512x512, .f32⟩
  | .local _ .vmem, ⟨7, _⟩ => ⟨S4x512x512, .f32⟩
  | .local _ .vmem, ⟨8, _⟩ => ⟨S4x512x512, .f32⟩
  | .local _ .vmem, ⟨9, _⟩ => ⟨S1x128, .f32⟩
  | .local _ .vmem, ⟨10, _⟩ => ⟨S1x1, .f32⟩
  | .local _ .vmem, ⟨11, _⟩ => ⟨S4x512x512, .f32⟩
  | .local _ .vmem, ⟨12, _⟩ => ⟨S4x512x512, .f32⟩
  | .local _ .vmem, ⟨13, _⟩ => ⟨S4x512x512, .f32⟩
  | .local _ .vmem, ⟨14, _⟩ => ⟨S4x512x512, .f32⟩
  | .local _ .vmem, ⟨15, _⟩ => ⟨S1x128, .f32⟩
  | .local _ .vmem, ⟨16, _⟩ => ⟨S4x512x512, .f32⟩
  | .local _ .vmem, ⟨17, _⟩ => ⟨S4x512x512, .f32⟩
  | .local _ .vmem, ⟨18, _⟩ => ⟨S4x512x512, .f32⟩
  | .local _ .vmem, ⟨19, _⟩ => ⟨S4x512x512, .f32⟩
  | .local _ .vmem, ⟨20, _⟩ => ⟨S1x128, .f32⟩
  | .local _ .vmem, ⟨21, _⟩ => ⟨S1x1, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_cst_12 : Ref sig .tc := ⟨.hbm, 52, rfl⟩
abbrev main_v33 : Ref sig .tc := ⟨.hbm, 53, rfl⟩
abbrev main_v34 : Ref sig .tc := ⟨.hbm, 54, rfl⟩
abbrev main_cst_13 : Ref sig .tc := ⟨.hbm, 55, rfl⟩
abbrev main_v35 : Ref sig .tc := ⟨.hbm, 56, rfl⟩
abbrev main_v36 : Ref sig .tc := ⟨.hbm, 57, rfl⟩
abbrev main_cst_14 : Ref sig .tc := ⟨.hbm, 58, rfl⟩
abbrev main_call1_v0 : Ref sig .tc := ⟨.hbm, 59, rfl⟩
abbrev main_call1_v1 : Ref sig .tc := ⟨.hbm, 60, rfl⟩
abbrev main_v37 : Ref sig .tc := ⟨.hbm, 61, rfl⟩
abbrev main_cst_15 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_16 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![12], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![12], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  shapeCasts_S16x1x512x512_S16x512x512 : S16x1x512x512.ShapeCasts S16x512x512
  inb_S1x128_S1x128_0_0 : ∀ a, (![0, 0] : Fin 2 → Nat) a + S1x128.size a ≤ S1x128.size a
  h_S1x128 : 0 < S1x128.numel
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  iota_S1x128_d1_w32 : S1x128.Iotas .tc 32 [1]
  natLt_1_32 : 1 < 32
  shapeCasts_S4x512x512_S1x4x512x512 : S4x512x512.ShapeCasts S1x4x512x512
  reduces_S1x4x512x512_S1 : S1x4x512x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x128_S1x128 : S1x128.ShapeCasts S1x128
  bcast_S_S1x128 : S_.BroadcastsInDim S1x128 (![] : Fin 0 → Fin S1x128.rank)
  reducesTo_S1x128_S_d0_1 : S1x128.ReducesTo [0, 1] S_
  h_S_ : 0 < S_.numel
  inb_S1x1_S1x1_0_0 : ∀ a, (![0, 0] : Fin 2 → Nat) a + S1x1.size a ≤ S1x1.size a
  h_S1x1 : 0 < S1x1.numel
  inb_S1x128_S1x1_0_0 : ∀ a, (![0, 0] : Fin 2 → Nat) a + S1x1.size a ≤ S1x128.size a
  inpos_S1x1_p0_0 : ∀ a, (![0, 0] : Fin 2 → Nat) a < S1x1.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  shapeCasts_S1x1_S1x1 : S1x1.ShapeCasts S1x1
  shapeCasts_S1x1_S_ : S1x1.ShapeCasts S_
  shapeCasts_S16x3x512x512_S48x512x512 : S16x3x512x512.ShapeCasts S48x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S16x512x512.size a
  hwx0_0 : ∀ i : grid0.Coords, EltTy.bits .f32 = 32 ∨ (Rect.block (s := S16x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S16x512x512.size a
  hwx0_1 : ∀ i : grid0.Coords, EltTy.bits .f32 = 32 ∨ (Rect.block (s := S16x512x512) S4x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x512.size a ≤ S16x512x512.size a
  hwx1_0 : ∀ i : grid1.Coords, EltTy.bits .f32 = 32 ∨ (Rect.block (s := S16x512x512) S4x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x512.size a ≤ S16x512x512.size a
  hwx1_1 : ∀ i : grid1.Coords, EltTy.bits .f32 = 32 ∨ (Rect.block (s := S16x512x512) S4x512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x512x512.size a ≤ S48x512x512.size a
  hwx2_0 : ∀ i : grid2.Coords, EltTy.bits .f32 = 32 ∨ (Rect.block (s := S48x512x512) S4x512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x512x512.size a ≤ S48x512x512.size a
  hwx2_1 : ∀ i : grid2.Coords, EltTy.bits .f32 = 32 ∨ (Rect.block (s := S48x512x512) S4x512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x512x512.size a ≤ S48x512x512.size a
  hwx3_0 : ∀ i : grid3.Coords, EltTy.bits .f32 = 32 ∨ (Rect.block (s := S48x512x512) S4x512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4x512x512.size a ≤ S48x512x512.size a
  hwx3_1 : ∀ i : grid3.Coords, EltTy.bits .f32 = 32 ∨ (Rect.block (s := S48x512x512) S4x512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S4x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S4x512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S4x512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x1x512x512 : Shape := ⟨4, ![16, 1, 512, 512]⟩
abbrev S16x3x512x512 : Shape := ⟨4, ![16, 3, 512, 512]⟩
abbrev S_ : Shape := ⟨0, ![]⟩
abbrev S4194304 : Shape := ⟨1, ![4194304]⟩
abbrev S10 : Shape := ⟨1, ![10]⟩
abbrev S4194304x1 : Shape := ⟨2, ![4194304, 1]⟩
abbrev S16x1x512x512x1 : Shape := ⟨5, ![16, 1, 512, 512, 1]⟩
abbrev S12582912 : Shape := ⟨1, ![12582912]⟩
abbrev S12582912x1 : Shape := ⟨2, ![12582912, 1]⟩
abbrev S16x3x512x512x1 : Shape := ⟨5, ![16, 3, 512, 512, 1]⟩

abbrev nBuf : Space → Nat
  | .hbm => 147
  | .vmem => 0
  | .smem => 0
  | _ => 0

abbrev hbmTy0_0 (i : Nat) : BufTy := match i % 128 with
  | 0 => ⟨S16x1x512x512, .f32⟩
  | 1 => ⟨S16x1x512x512, .f32⟩
  | 2 => ⟨S16x3x512x512, .f32⟩
  | 3 => ⟨S16x3x512x512, .f32⟩
  | 4 => ⟨S16x1x512x512, .f32⟩
  | 5 => ⟨S16x1x512x512, .f32⟩
  | 6 => ⟨S_, .f32⟩
  | 7 => ⟨S16x1x512x512, .f32⟩
  | 8 => ⟨S16x1x512x512, .f32⟩
  | 9 => ⟨S16x1x512x512, .i32⟩
  | 10 => ⟨S_, .i32⟩
  | 11 => ⟨S16x1x512x512, .i32⟩
  | 12 => ⟨S16x1x512x512, .i32⟩
  | 13 => ⟨S_, .f32⟩
  | 14 => ⟨S16x1x512x512, .f32⟩
  | 15 => ⟨S16x1x512x512, .i1⟩
  | 16 => ⟨S16x1x512x512, .f32⟩
  | 17 => ⟨S4194304, .f32⟩
  | 18 => ⟨S4194304, .i32⟩
  | 19 => ⟨S_, .f32⟩
  | 20 => ⟨S10, .f32⟩
  | 21 => ⟨S4194304x1, .i32⟩
  | 22 => ⟨S10, .f32⟩
  | 23 => ⟨S_, .f32⟩
  | 24 => ⟨S10, .f32⟩
  | 25 => ⟨S10, .i1⟩
  | 26 => ⟨S10, .i32⟩
  | 27 => ⟨S_, .i32⟩
  | 28 => ⟨S_, .i32⟩
  | 29 => ⟨S_, .f32⟩
  | 30 => ⟨S_, .f32⟩
  | 31 => ⟨S10, .f32⟩
  | 32 => ⟨S10, .f32⟩
  | 33 => ⟨S_, .f32⟩
  | 34 => ⟨S10, .f32⟩
  | 35 => ⟨S10, .i1⟩
  | 36 => ⟨S_, .f32⟩
  | 37 => ⟨S10, .f32⟩
  | 38 => ⟨S10, .f32⟩
  | 39 => ⟨S_, .f32⟩
  | 40 => ⟨S10, .f32⟩
  | 41 => ⟨S10, .f32⟩
  | 42 => ⟨S_, .f32⟩
  | 43 => ⟨S_, .f32⟩
  | 44 => ⟨S10, .f32⟩
  | 45 => ⟨S10, .f32⟩
  | 46 => ⟨S_, .f32⟩
  | 47 => ⟨S_, .f32⟩
  | 48 => ⟨S10, .f32⟩
  | 49 => ⟨S10, .f32⟩
  | 50 => ⟨S_, .i32⟩
  | 51 => ⟨S16x1x512x512, .i32⟩
  | 52 => ⟨S16x1x512x512, .i1⟩
  | 53 => ⟨S_, .i32⟩
  | 54 => ⟨S16x1x512x512, .i32⟩
  | 55 => ⟨S16x1x512x512, .i32⟩
  | 56 => ⟨S16x1x512x512, .i32⟩
  | 57 => ⟨S16x1x512x512x1, .i32⟩
  | 58 => ⟨S16x1x512x512, .f32⟩
  | 59 => ⟨S_, .f32⟩
  | 60 => ⟨S_, .f32⟩
  | 61 => ⟨S16x1x512x512, .f32⟩
  | 62 => ⟨S16x1x512x512, .f32⟩
  | 63 => ⟨S16x1x512x512, .f32⟩
  | 64 => ⟨S16x1x512x512, .f32⟩
  | 65 => ⟨S16x1x512x512, .f32⟩
  | 66 => ⟨S_, .f32⟩
  | 67 => ⟨S16x1x512x512, .f32⟩
  | 68 => ⟨S16x1x512x512, .f32⟩
  | 69 => ⟨S16x1x512x512, .f32⟩
  | 70 => ⟨S_, .f32⟩
  | 71 => ⟨S_, .f32⟩
  | 72 => ⟨S_, .f32⟩
  | 73 => ⟨S_, .f32⟩
  | 74 => ⟨S16x3x512x512, .f32⟩
  | 75 => ⟨S16x3x512x512, .f32⟩
  | 76 => ⟨S_, .f32⟩
  | 77 => ⟨S16x3x512x512, .f32⟩
  | 78 => ⟨S16x3x512x512, .f32⟩
  | 79 => ⟨S16x3x512x512, .i32⟩
  | 80 => ⟨S_, .i32⟩
  | 81 => ⟨S16x3x512x512, .i32⟩
  | 82 => ⟨S16x3x512x512, .i32⟩
  | 83 => ⟨S_, .f32⟩
  | 84 => ⟨S16x3x512x512, .f32⟩
  | 85 => ⟨S16x3x512x512, .i1⟩
  | 86 => ⟨S16x3x512x512, .f32⟩
  | 87 => ⟨S12582912, .f32⟩
  | 88 => ⟨S12582912, .i32⟩
  | 89 => ⟨S_, .f32⟩
  | 90 => ⟨S10, .f32⟩
  | 91 => ⟨S12582912x1, .i32⟩
  | 92 => ⟨S10, .f32⟩
  | 93 => ⟨S_, .f32⟩
  | 94 => ⟨S10, .f32⟩
  | 95 => ⟨S10, .i1⟩
  | 96 => ⟨S10, .i32⟩
  | 97 => ⟨S_, .i32⟩
  | 98 => ⟨S_, .i32⟩
  | 99 => ⟨S_, .f32⟩
  | 100 => ⟨S_, .f32⟩
  | 101 => ⟨S10, .f32⟩
  | 102 => ⟨S10, .f32⟩
  | 103 => ⟨S_, .f32⟩
  | 104 => ⟨S10, .f32⟩
  | 105 => ⟨S10, .i1⟩
  | 106 => ⟨S_, .f32⟩
  | 107 => ⟨S10, .f32⟩
  | 108 => ⟨S10, .f32⟩
  | 109 => ⟨S_, .f32⟩
  | 110 => ⟨S10, .f32⟩
  | 111 => ⟨S10, .f32⟩
  | 112 => ⟨S_, .f32⟩
  | 113 => ⟨S_, .f32⟩
  | 114 => ⟨S10, .f32⟩
  | 115 => ⟨S10, .f32⟩
  | 116 => ⟨S_, .f32⟩
  | 117 => ⟨S_, .f32⟩
  | 118 => ⟨S10, .f32⟩
  | 119 => ⟨S10, .f32⟩
  | 120 => ⟨S_, .i32⟩
  | 121 => ⟨S16x3x512x512, .i32⟩
  | 122 => ⟨S16x3x512x512, .i1⟩
  | 123 => ⟨S_, .i32⟩
  | 124 => ⟨S16x3x512x512, .i32⟩
  | 125 => ⟨S16x3x512x512, .i32⟩
  | 126 => ⟨S16x3x512x512, .i32⟩
  | 127 => ⟨S16x3x512x512x1, .i32⟩
  | _ => ⟨S16x1x512x512, .f32⟩

abbrev hbmTy0_1 (i : Nat) : BufTy := match i % 128 with
  | 0 => ⟨S16x3x512x512, .f32⟩
  | 1 => ⟨S_, .f32⟩
  | 2 => ⟨S_, .f32⟩
  | 3 => ⟨S16x3x512x512, .f32⟩
  | 4 => ⟨S16x3x512x512, .f32⟩
  | 5 => ⟨S16x3x512x512, .f32⟩
  | 6 => ⟨S16x3x512x512, .f32⟩
  | 7 => ⟨S16x3x512x512, .f32⟩
  | 8 => ⟨S_, .f32⟩
  | 9 => ⟨S16x3x512x512, .f32⟩
  | 10 => ⟨S16x3x512x512, .f32⟩
  | 11 => ⟨S16x3x512x512, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_10 : Ref sig .tc := ⟨.hbm, 50, rfl⟩
abbrev main_v32 : Ref sig .tc := ⟨.hbm, 51, rfl⟩
abbrev main_v33 : Ref sig .tc := ⟨.hbm, 52, rfl⟩
abbrev main_c_11 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_16 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_19 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_20 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_21 : Ref sig .tc := ⟨.hbm, 97, rfl⟩
abbrev main_v66 : Ref sig .tc := ⟨.hbm, 98, rfl⟩
abbrev main_v67 : Ref sig .tc := ⟨.hbm, 99, rfl⟩
abbrev main_cst_22 : Ref sig .tc := ⟨.hbm, 100, rfl⟩
abbrev main_v68 : Ref sig .tc := ⟨.hbm, 101, rfl⟩
abbrev main_v69 : Ref sig .tc := ⟨.hbm, 102, rfl⟩
abbrev main_cst_23 : Ref sig .tc := ⟨.hbm, 103, rfl⟩
abbrev main_v70 : Ref sig .tc := ⟨.hbm, 104, rfl⟩
abbrev main_v71 : Ref sig .tc := ⟨.hbm, 105, rfl⟩
abbrev main_cst_24 : Ref sig .tc := ⟨.hbm, 106, rfl⟩
abbrev main_v72 : Ref sig .tc := ⟨.hbm, 107, rfl⟩
abbrev main_v73 : Ref sig .tc := ⟨.hbm, 108, rfl⟩
abbrev main_cst_25 : Ref sig .tc := ⟨.hbm, 109, rfl⟩
abbrev main_v74 : Ref sig .tc := ⟨.hbm, 110, rfl⟩
abbrev main_v75 : Ref sig .tc := ⟨.hbm, 111, rfl⟩
abbrev main_cst_26 : Ref sig .tc := ⟨.hbm, 112, rfl⟩
abbrev main_call2_v0 : Ref sig .tc := ⟨.hbm, 113, rfl⟩
abbrev main_call2_v1 : Ref sig .tc := ⟨.hbm, 114, rfl⟩
abbrev main_v76 : Ref sig .tc := ⟨.hbm, 115, rfl⟩
abbrev main_cst_27 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_28 : Ref sig .tc := ⟨.hbm, 120, rfl⟩
abbrev main_v80 : Ref sig .tc := ⟨.hbm, 121, rfl⟩
abbrev main_v81 : Ref sig .tc := ⟨.hbm, 122, rfl⟩
abbrev main_c_29 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_30 : Ref sig .tc := ⟨.hbm, 129, rfl⟩
abbrev main_call3_v0 : Ref sig .tc := ⟨.hbm, 130, rfl⟩
abbrev main_call3_v1 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_31 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_32 : Ref sig .tc := ⟨.hbm, 140, rfl⟩
abbrev main_v94 : Ref sig .tc := ⟨.hbm, 141, rfl⟩
abbrev main_cst_33 : Ref sig .tc := ⟨.hbm, 142, rfl⟩
abbrev main_v95 : Ref sig .tc := ⟨.hbm, 143, rfl⟩
abbrev main_v96 : Ref sig .tc := ⟨.hbm, 144, rfl⟩
abbrev main_cst_34 : Ref sig .tc := ⟨.hbm, 145, rfl⟩
abbrev main_v97 : Ref sig .tc := ⟨.hbm, 146, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  shapeCasts_S16x1x512x512_S4194304 : S16x1x512x512.ShapeCasts S4194304
  bcast_S_S10 : S_.BroadcastsInDim S10 (![] : Fin 0 → Fin S10.rank)
  bcast_S4194304_S4194304x1_0 : S4194304.BroadcastsInDim S4194304x1 (![0] : Fin 1 → Fin S4194304x1.rank)
  natLt_1_32 : 1 < 32
  reducesTo_S10_S_d0 : S10.ReducesTo [0] S_
  h_S_ : 0 < S_.numel
  bcast_S16x1x512x512_S16x1x512x512x1_0_1_2_3 : S16x1x512x512.BroadcastsInDim S16x1x512x512x1 (![0, 1, 2, 3] : Fin 4 → Fin S16x1x512x512x1.rank)
  reducesTo_S16x1x512x512_S_d0_1_2_3 : S16x1x512x512.ReducesTo [0, 1, 2, 3] S_
  bcast_S_S16x3x512x512 : S_.BroadcastsInDim S16x3x512x512 (![] : Fin 0 → Fin S16x3x512x512.rank)
  shapeCasts_S16x3x512x512_S12582912 : S16x3x512x512.ShapeCasts S12582912
  bcast_S12582912_S12582912x1_0 : S12582912.BroadcastsInDim S12582912x1 (![0] : Fin 1 → Fin S12582912x1.rank)
  bcast_S16x3x512x512_S16x3x512x512x1_0_1_2_3 : S16x3x512x512.BroadcastsInDim S16x3x512x512x1 (![0, 1, 2, 3] : Fin 4 → Fin S16x3x512x512x1.rank)
  reducesTo_S16x3x512x512_S_d0_1_2_3 : S16x3x512x512.ReducesTo [0, 1, 2, 3] S_
  scatter_S10_S4194304x1_S4194304_n_0_0_1_wf : ScatterDims.WF S10 S4194304x1 S4194304 [] [0] [0] 1
  gather_S10_S16x1x512x512x1_S16x1x512x512_n_0_n_n_0_4_1_wf : GatherDims.WF S10 S16x1x512x512x1 S16x1x512x512 [] [0] [] [0] [] 4 ![1]
  scatter_S10_S12582912x1_S12582912_n_0_0_1_wf : ScatterDims.WF S10 S12582912x1 S12582912 [] [0] [0] 1
  gather_S10_S16x3x512x512x1_S16x3x512x512_n_0_n_n_0_4_1_wf : GatherDims.WF S10 S16x3x512x512x1 S16x3x512x512 [] [0] [] [0] [] 4 ![1]

variable [Facts₀]

def scatter_S10_S4194304x1_S4194304_n_0_0_1 : ScatterDims S10 S4194304x1 S4194304 where
  updateWindowDims := []
  insertedWindowDims := [0]
  scatterDimsToOperandDims := [0]
  indexVectorDim := 1
  wf := scatter_S10_S4194304x1_S4194304_n_0_0_1_wf
def gather_S10_S16x1x512x512x1_S16x1x512x512_n_0_n_n_0_4_1 : GatherDims S10 S16x1x512x512x1 S16x1x512x512 where
  offsetDims := []
  collapsedSliceDims := [0]
  operandBatchingDims := []
  startIndicesBatchingDims := []
  startIndexMap := [0]
  indexVectorDim := 4
  sliceSizes := ![1]
  wf := gather_S10_S16x1x512x512x1_S16x1x512x512_n_0_n_n_0_4_1_wf
def scatter_S10_S12582912x1_S12582912_n_0_0_1 : ScatterDims S10 S12582912x1 S12582912 where
  updateWindowDims := []
  insertedWindowDims := [0]
  scatterDimsToOperandDims := [0]
  indexVectorDim := 1
  wf := scatter_S10_S12582912x1_S12582912_n_0_0_1_wf
def gather_S10_S16x3x512x512x1_S16x3x512x512_n_0_n_n_0_4_1 : GatherDims S10 S16x3x512x512x1 S16x3x512x512 where
  offsetDims := []
  collapsedSliceDims := [0]
  operandBatchingDims := []
  startIndicesBatchingDims := []
  startIndexMap := [0]
  indexVectorDim := 4
  sliceSizes := ![1]
  wf := gather_S10_S16x3x512x512x1_S16x3x512x512_n_0_n_n_0_4_1_wf

class Facts : Prop extends Facts₀ where

variable [Facts]
-- ==== Proof.KernelRun.lean ====
/-
  The idealized kernel's run, with every result named.

  @main is thirteen segments: host lines, the histogram kernel over the first pair of arrays, host lines (the ten
  weights), the loss kernel over the same pair, host lines, and the same again for the second pair. Running them in
  order from the launch memory, every weakly fair execution terminates without a fault, and each buffer that lives
  for the whole program ends holding what the fold of the segments leaves in it: a host line's result is the
  operation applied to its operands' contents, a kernel's output array is what its write-backs leave. This module
  states that run with the final contents of EVERY such buffer (the fold after the last segment), from which the
  three results and the four arguments are read.

  The launch theorem's obligations: what the launch hands out (launch_gives), the thread state the first segment
  starts from, the segments' states chaining, and the last state read against a final memory (last_state_read).
-/
import proofs.«176825_j1932735283876_1_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the four pipelines' staging cells. -/
abbrev launchElt : UR sig nD τ := initOf (Pipeline.cells cfgs cellOf_inj) (Pipeline.launchToks cfgs cellOf_inj)

/-- The state the first segment starts from: every whole-program buffer at its launch contents, the generator
    register at some state, nothing owed. -/
abbrev firstState (c : Dev nD) : sProp 𝕄 :=
  iprop(StableHlo.held (c : Thread nD τ) (Pipeline.ucRefs τ sig) (W0 m ρ c) ∗ R c)

/-- The launch hands out the pipelines' ghost state; no core needs anything more. -/
theorem launch_gives : (ownU (launchElt) : sProp 𝕄)
    ⊢ |={Set.univ}=> iprop(BI.own (emb₁ launchElt) ∗ bigSep Finset.univ fun _ : Dev nD => (BI.emp : sProp 𝕄)) := by
  iintro Hown
  imodintro
  isplitl [Hown]
  · iapply (show (ownU launchElt : sProp 𝕄) ⊢ BI.own (emb₁ launchElt) from .rfl)
    iexact Hown
  · iapply (show (BI.emp : sProp 𝕄) ⊢ bigSep Finset.univ (fun _ : Dev nD => (BI.emp : sProp 𝕄)) from by
      rw [BI.bigSep_emp_const])
    iempintro

/-- The last segment's state, read against a final memory: every whole-program buffer holds the fold's contents. -/
theorem last_state_read (c : Dev nD) (s' : Phys nD τ sig (Elt F)) :
    iprop(Tₙ m ρ c ∗ SI s') ⊢ |={Set.univ}=>
      iprop(⌜∀ b ∈ Pipeline.ucRefs τ sig, s'.mem.mem (((c : Thread nD τ)).1, b) = W13 m ρ c b⌝ ∗ SI s') := by
  iintro ⟨⟨Hheld, -⟩, Hstate⟩
  unfold StableHlo.held
  imodintro
  iapply (pointsTo_read_all (Pipeline.ucRefs τ sig) (fun b => (((c : Thread nD τ)).1, b)) (W13 m ρ c) s')
  isplitl [Hheld] <;> iassumption

set_option backward.isDefEq.respectTransparency.types false in
/-- Every weakly fair execution of @main terminates, nothing faulting, and in the final state every buffer that
    lives for the whole program holds the fold's contents after the last segment. Each segment's end state is by
    definition the next one's start state, so the chain is thirteen identities and, at the end, a regrouping. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by
      simp only [segs, Pipeline.Seg.pipes_host, Pipeline.Seg.pipes_region, Pipeline.Seg.pipes_nil]
      decide)
    (O₀ := 0) (hL := fun _ _ => rfl) (G := fun _ => iprop(emp)) (u₀ := launchElt)
    (hu₀ := launch_gives)
    (T₀ := firstState m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        iintro ⟨Hheld, Hreg, Howes⟩
        isplitl [Hheld Hreg]
        · isplitl [Hheld]
          · iexact Hheld
          · iexact Hreg
        · iexact Howes⟩)
    (hinit := by
      -- what the launch deals a core makes the first state: its buffers are the launch memory's, its generator
      -- register is at the launch value, and it owes nothing
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      · iexists ∅
        iexact Howes)
    (QY := fun c s => ∀ b ∈ Pipeline.ucRefs τ sig, s.mem (((c : Thread nD τ)).1, b) = W13 m ρ c b)
    (hfin := last_state_read m ρ)
    (hQ := fun s h c => h c)

end Cert.KernelIdeal.Value

end
-- ==== Proof.Spec.lean ====
/-
  The function both programs compute, stated once over an arbitrary finite index type of elements.

  For two arrays p, q (prediction and target) over the same elements e:
    the gap            g e = |p e − q e|
    its bin            k e = min (trunc (10 · g e)) 9            (a 32-bit word)
    in range           g e < 1 + 1e-6
    the histogram      count b = Σ_e [k e = b and g e in range]  (b = 0 … 9)
    the bins in use    n = Σ_b [count b > 0]
    a bin's weight     pb b = (if count b > 0 then 2^18 / max (0.9 · count b) 1e-30 else 0) / max n 1
    an element's       w e = if in range then pb (k e) else 0
    the loss           (Σ_e sqrt ((w e · g e) · g e + 1e-12)) / (number of elements).
  Every sum is a plain finite sum of extended reals, so it is invariant under any re-indexing of the
  elements (total_comp_equiv): a reshape, or a cut into blocks, changes nothing.
-/
import Idealize.ShloMosaic.PureOps
import Idealize.ShloMosaic.PureOps.Ideal
import Idealize.ShloMosaic.PureOps.Ideal.Laws
import Idealize.ShloMosaic.Lib.ValueIdx

noncomputable section

namespace Cert.BinLoss

open Idealize.ShloMosaic

/-- An ideal f32: an extended real. -/
abbrev R : Type := Ideal .f32

/-- A float literal, by its word. -/
def lit (w : BitVec 32) : R := FloatOps.ofBits .f32 w

/-- |p − q|. -/
def gap (p q : R) : R := FloatOps.absf (FloatOps.subf p q)

/-- min (trunc (10 g)) 9, as a 32-bit word. -/
def bin (g : R) : BitVec 32 := IntOp.minsi (FloatOps.fptosi 32 (FloatOps.mulf g (lit 0x41200000#32))) 9#32

/-- g < 1 + 1e-6. -/
def inRange (g : R) : BitVec 1 := FloatOps.cmpf .olt g (lit 0x3F800008#32)

/-- 1 when the gap is in range and falls in bin b, else 0. -/
def hit (b : BitVec 32) (g : R) : R :=
  FloatOps.sitofp .f32 ((IntOp.andi (IntOp.cmpi .eq (bin g) b) (inRange g)).setWidth 32)

/-- c > 0. -/
def nonEmpty (c : R) : BitVec 1 := FloatOps.cmpf .ogt c (lit 0x00000000#32)

/-- The bin b as a word. -/
def binWord (b : Fin 10) : BitVec 32 := BitVec.ofNat 32 b.val

/-- The number of bins in use. -/
def nBins (c : BitVec 32 → R) : R := ∑ b : Fin 10, FloatOps.uitofp .f32 (nonEmpty (c (binWord b)))

/-- A bin's weight from its count c and the number n of bins in use. -/
def binWeight (c n : R) : R :=
  FloatOps.hostDivf
    (Scalar.select (nonEmpty c)
      (FloatOps.hostDivf (lit 0x48800000#32) (FloatOps.maximumf (FloatOps.mulf (lit 0x3F666666#32) c) (lit 0x0DA24260#32)))
      (lit 0x00000000#32))
    (FloatOps.maximumf n (lit 0x3F800000#32))

/-- The weight of bin k looked up among the ten, 0 for any other word: ten nested choices, bin 9 outermost. -/
def pick (pb : BitVec 32 → R) (k : BitVec 32) : R :=
  Scalar.select (IntOp.cmpi .eq k 9#32) (pb 9#32)
  (Scalar.select (IntOp.cmpi .eq k 8#32) (pb 8#32)
  (Scalar.select (IntOp.cmpi .eq k 7#32) (pb 7#32)
  (Scalar.select (IntOp.cmpi .eq k 6#32) (pb 6#32)
  (Scalar.select (IntOp.cmpi .eq k 5#32) (pb 5#32)
  (Scalar.select (IntOp.cmpi .eq k 4#32) (pb 4#32)
  (Scalar.select (IntOp.cmpi .eq k 3#32) (pb 3#32)
  (Scalar.select (IntOp.cmpi .eq k 2#32) (pb 2#32)
  (Scalar.select (IntOp.cmpi .eq k 1#32) (pb 1#32)
  (Scalar.select (IntOp.cmpi .eq k 0#32) (pb 0#32) (lit 0x00000000#32))))))))))

/-- An element's weight: its bin's, when its gap is in range. -/
def weight (pb : BitVec 32 → R) (g : R) : R := Scalar.select (inRange g) (pick pb (bin g)) (lit 0x00000000#32)

/-- An element's term of the loss: sqrt ((w · g) · g + 1e-12). -/
def term (pb : BitVec 32 → R) (p q : R) : R :=
  FloatOps.sqrt (FloatOps.addf (FloatOps.mulf (FloatOps.mulf (weight pb (gap p q)) (gap p q)) (gap p q)) (lit 0x2B8CBCCC#32))

variable {ι : Type} [Fintype ι]

/-- The histogram of the gaps: how many elements are in range and fall in bin b. -/
def count (p q : ι → R) (b : BitVec 32) : R := ∑ e, hit b (gap (p e) (q e))

/-- The ten weights from a histogram. -/
def weights (c : BitVec 32 → R) (b : BitVec 32) : R := binWeight (c b) (nBins c)

/-- The sum of the elements' terms under given weights. -/
def sumTerms (pb : BitVec 32 → R) (p q : ι → R) : R := ∑ e, term pb (p e) (q e)

/-- The sum of the elements' terms, under the weights of the arrays' own histogram. -/
def total (p q : ι → R) : R := sumTerms (weights (count p q)) p q

/-- The loss: the total over the number of elements (given by its word). -/
def loss (p q : ι → R) (elems : BitVec 32) : R := FloatOps.hostDivf (total p q) (lit elems)

/-- The mean of the two losses. -/
def mean (a b : R) : R := FloatOps.mulf (FloatOps.addf a b) (lit 0x3F000000#32)

/-! ## A row of 128 lanes read as the ten weights -/

/-- Lane k of a 1×128 row, k a 32-bit word (only k = 0 … 9 are ever asked for). -/
def laneIdx (k : BitVec 32) : (⟨2, ![1, 128]⟩ : Shape).Idx :=
  ValueIdx.ix2 (0 : Fin 1) (⟨k.toNat % 128, Nat.mod_lt _ (by decide)⟩ : Fin 128)

/-- A 1×128 row as a function of the bin word: its lane k. -/
def laneWeights (w : (⟨2, ![1, 128]⟩ : Shape).Idx → R) : BitVec 32 → R := fun k => w (laneIdx k)

/-! ## Re-indexing the elements changes nothing -/

variable {κ : Type} [Fintype κ]

theorem count_comp_equiv (σ : κ ≃ ι) (p q : ι → R) : count (fun e => p (σ e)) (fun e => q (σ e)) = count p q := by
  funext b
  exact Equiv.sum_comp σ fun e => hit b (gap (p e) (q e))

theorem sumTerms_comp_equiv (σ : κ ≃ ι) (pb : BitVec 32 → R) (p q : ι → R) :
    sumTerms pb (fun e => p (σ e)) (fun e => q (σ e)) = sumTerms pb p q :=
  Equiv.sum_comp σ fun e => term pb (p e) (q e)

theorem total_comp_equiv (σ : κ ≃ ι) (p q : ι → R) : total (fun e => p (σ e)) (fun e => q (σ e)) = total p q := by
  unfold total
  rw [count_comp_equiv, sumTerms_comp_equiv]

theorem loss_comp_equiv (σ : κ ≃ ι) (p q : ι → R) (elems : BitVec 32) :
    loss (fun e => p (σ e)) (fun e => q (σ e)) elems = loss p q elems := by
  unfold loss
  rw [total_comp_equiv]

end Cert.BinLoss

end
-- ==== Proof.Lanes.lean ====
/-
  Rows of lanes and histograms: the algebra between a 128-lane row that holds the ten counts in its first ten
  lanes (zero elsewhere) and the histogram as a function of the bin word.

  A lane whose word is w receives from a histogram cnt the ten shares [w = b]·cnt b, b = 0 … 9, added in order
  from zero (rowOfWord). So it holds cnt w when w is one of the ten bin words and 0 otherwise; the map is additive
  in cnt (what each grid point adds may be summed first); the number of non-empty lanes among 128 is the number of
  non-empty bins; and the ten weights read off lanes 0 … 9 are the histogram's weights.
-/
import proofs.«176825_j1932735283876_1_alg».proof.Proof.Spec

noncomputable section

namespace Cert.BinLoss

open Idealize.ShloMosaic

/-- The zero word is the extended real 0. -/
theorem lit_zero : lit 0x00000000#32 = (0 : EReal) := Ideal.ofBits_zero_f32

/-- A lane's share of bin b: the bin's count when the lane's word is b, else zero. -/
def share (cnt : BitVec 32 → R) (w b : BitVec 32) : R := Scalar.select (IntOp.cmpi .eq w b) (cnt b) (lit 0x00000000#32)

/-- What a histogram gives the lane whose word is w: the ten shares added in order, from zero. -/
def rowOfWord (cnt : BitVec 32 → R) (w : BitVec 32) : R :=
  FloatOps.addf (FloatOps.addf (FloatOps.addf (FloatOps.addf (FloatOps.addf (FloatOps.addf (FloatOps.addf (FloatOps.addf
    (FloatOps.addf (FloatOps.addf (lit 0x00000000#32) (share cnt w 0#32)) (share cnt w 1#32)) (share cnt w 2#32))
    (share cnt w 3#32)) (share cnt w 4#32)) (share cnt w 5#32)) (share cnt w 6#32)) (share cnt w 7#32))
    (share cnt w 8#32)) (share cnt w 9#32)

theorem share_eq (cnt : BitVec 32 → R) (w b : BitVec 32) : share cnt w b = if w = b then cnt b else (0 : EReal) := by
  unfold share Scalar.select IntOp.cmpi
  rw [lit_zero]
  by_cases h : w = b
  · simp [h]
  · have : (w == b) = false := by simpa using h
    simp [h, this]

/-- The ordered chain is the sum over the ten bins. -/
theorem rowOfWord_eq_sum (cnt : BitVec 32 → R) (w : BitVec 32) :
    rowOfWord cnt w = ∑ b : Fin 10, share cnt w (binWord b) := by
  unfold rowOfWord
  simp only [Ideal.addf_def, lit_zero, zero_add, Fin.sum_univ_succ, Fin.sum_univ_zero, add_zero]
  simp only [binWord, add_assoc]
  rfl

theorem binWord_inj : Function.Injective binWord := by
  intro a b h
  unfold binWord at h
  have h' := congrArg BitVec.toNat h
  simp only [BitVec.toNat_ofNat] at h'
  apply Fin.ext
  have ha := a.isLt
  have hb := b.isLt
  omega

/-- The lane of a bin word holds that bin's count. -/
theorem rowOfWord_binWord (cnt : BitVec 32 → R) (b : Fin 10) : rowOfWord cnt (binWord b) = cnt (binWord b) := by
  rw [rowOfWord_eq_sum]
  simp only [share_eq, binWord_inj.eq_iff]
  simp

/-- A lane whose word is none of the ten bin words holds zero. -/
theorem rowOfWord_other (cnt : BitVec 32 → R) (w : BitVec 32) (h : ∀ b : Fin 10, w ≠ binWord b) : rowOfWord cnt w = 0 := by
  rw [rowOfWord_eq_sum]
  exact Finset.sum_eq_zero fun b _ => by rw [share_eq, if_neg (h b)]

theorem rowOfWord_zero (w : BitVec 32) : rowOfWord (fun _ => (0 : EReal)) w = 0 := by
  rw [rowOfWord_eq_sum]
  exact Finset.sum_eq_zero fun b _ => by rw [share_eq]; split_ifs <;> rfl

/-- The lanes' contents are additive in the histogram. -/
theorem rowOfWord_add (c1 c2 : BitVec 32 → R) (w : BitVec 32) :
    rowOfWord (fun b => c1 b + c2 b) w = rowOfWord c1 w + rowOfWord c2 w := by
  simp only [rowOfWord_eq_sum, share_eq]
  rw [← Finset.sum_add_distrib]
  refine Finset.sum_congr rfl fun b _ => ?_
  split_ifs
  · rfl
  · exact (add_zero _).symm

/-- So what several grid points add, one after the other, is what their summed histogram gives. -/
theorem rowOfWord_sum_range (n : ℕ) (c : ℕ → BitVec 32 → R) (w : BitVec 32) :
    rowOfWord (fun b => ∑ t ∈ Finset.range n, c t b) w = ∑ t ∈ Finset.range n, rowOfWord (c t) w := by
  induction n with
  | zero => simpa using rowOfWord_zero w
  | succ n ih =>
    simp only [Finset.sum_range_succ]
    rw [rowOfWord_add, ih]

/-- No element: not non-empty; and the 0/1 mark of "not non-empty" is 0. -/
theorem nonEmpty_zero : nonEmpty (0 : EReal) = 0#1 := by
  unfold nonEmpty
  rw [lit_zero]
  show Ideal.cmp .ogt (0 : EReal) 0 = 0#1
  simp [Ideal.cmp]

theorem uitofp_zero : FloatOps.uitofp (F := Ideal) .f32 (0#1) = (0 : EReal) := by
  show (((0#1 : BitVec 1).toNat : ℝ) : EReal) = 0
  simp

/-- Among the 128 lanes only the first ten can be non-empty: counting non-empty lanes counts non-empty bins. -/
theorem nBins_lanes (cnt : BitVec 32 → R) :
    (∑ j : Fin 128, FloatOps.uitofp (F := Ideal) .f32 (nonEmpty (rowOfWord cnt (BitVec.ofNat 32 j.val)))) = nBins cnt := by
  have h128 : (128 : ℕ) = 10 + 118 := rfl
  rw [← Fin.sum_congr' (fun j : Fin 128 => FloatOps.uitofp (F := Ideal) .f32 (nonEmpty (rowOfWord cnt (BitVec.ofNat 32 j.val)))) h128.symm,
    Fin.sum_univ_add]
  have hhi : ∀ i : Fin 118, FloatOps.uitofp (F := Ideal) .f32 (nonEmpty (rowOfWord cnt (BitVec.ofNat 32 (Fin.cast h128.symm (Fin.natAdd 10 i)).val))) = 0 := by
    intro i
    rw [rowOfWord_other, nonEmpty_zero, uitofp_zero]
    intro b hb
    unfold binWord at hb
    have h' := congrArg BitVec.toNat hb
    simp only [BitVec.toNat_ofNat, Fin.coe_cast, Fin.coe_natAdd] at h'
    have hi := i.isLt
    have hb' := b.isLt
    omega
  rw [Finset.sum_eq_zero (fun i _ => hhi i), add_zero]
  unfold nBins
  refine Finset.sum_congr rfl fun b _ => ?_
  have : BitVec.ofNat 32 (Fin.cast h128.symm (Fin.castAdd 118 b)).val = binWord b := rfl
  rw [this, rowOfWord_binWord]

/-- The ten nested choices read the weights only at the ten bin words. -/
theorem pick_congr {pb pb' : BitVec 32 → R} (h : ∀ b : Fin 10, pb (binWord b) = pb' (binWord b)) : pick pb = pick pb' := by
  funext k
  unfold pick
  have h0 := h ⟨0, by decide⟩; have h1 := h ⟨1, by decide⟩; have h2 := h ⟨2, by decide⟩; have h3 := h ⟨3, by decide⟩
  have h4 := h ⟨4, by decide⟩; have h5 := h ⟨5, by decide⟩; have h6 := h ⟨6, by decide⟩; have h7 := h ⟨7, by decide⟩
  have h8 := h ⟨8, by decide⟩; have h9 := h ⟨9, by decide⟩
  simp only [binWord] at h0 h1 h2 h3 h4 h5 h6 h7 h8 h9
  rw [show pb 9#32 = pb' 9#32 from h9, show pb 8#32 = pb' 8#32 from h8, show pb 7#32 = pb' 7#32 from h7,
    show pb 6#32 = pb' 6#32 from h6, show pb 5#32 = pb' 5#32 from h5, show pb 4#32 = pb' 4#32 from h4,
    show pb 3#32 = pb' 3#32 from h3, show pb 2#32 = pb' 2#32 from h2, show pb 1#32 = pb' 1#32 from h1,
    show pb 0#32 = pb' 0#32 from h0]

variable {ι : Type} [Fintype ι]

theorem sumTerms_congr {pb pb' : BitVec 32 → R} (h : ∀ b : Fin 10, pb (binWord b) = pb' (binWord b)) (p q : ι → R) :
    sumTerms pb p q = sumTerms pb' p q := by
  unfold sumTerms term weight
  rw [pick_congr h]

end Cert.BinLoss
end
-- ==== Proof.HistStep.lean ====
/-
  One grid point of the histogram kernel, as a value.

  At a point the body loads two blocks x, y of four planes, marks each element whose gap |x − y| is in range and
  falls in bin b (b = 0 … 9), sums each bin's marks over the block, and adds to the 128-lane output row, in lane b,
  bin b's sum. So the row after the point is the row before plus, in the lane whose number is w, the ten shares
  [w = b]·(bin b's sum) added in order from zero: prev l + rowOfWord (the block's histogram) (lane l's number).
-/
import proofs.«176825_j1932735283876_1_alg».proof.Proof.Gen.KernelIdeal.Frame
import proofs.«176825_j1932735283876_1_alg».proof.Proof.Spec
import proofs.«176825_j1932735283876_1_alg».proof.Proof.Lanes
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.HistValue

open Cert.KernelIdeal Cert.KernelIdeal.Gen Cert.BinLoss
/-- How many elements of a block carry bin word b and are in range: the sum of the 0/1 marks. -/
def blockCount (k : IVec S4x512x512 32) (v : IVec S4x512x512 1) (b : BitVec 32) : R :=
  ∑ i : S4x512x512.Idx, FloatOps.sitofp .f32 ((IntOp.andi (IntOp.cmpi .eq (k i) b) (v i)).setWidth 32)

theorem S1_sizes : ∀ b, S1.size b = 1 := fun b => by fin_cases b; rfl

/-- The body's count of one bin: the marks, viewed as a 1×4×512×512 array, summed over its three inner axes into a
    one-element vector, whose element is extracted — that is the plain sum of the marks over the block. -/
theorem reduce_eq (k : IVec S4x512x512 32) (v : IVec S4x512x512 1) (b : BitVec 32)
    (h1 : S4x512x512.ShapeCasts S1x4x512x512) (hr : S1x4x512x512.Reduces [1, 2, 3] S1) (h2 : S1.ShapeCasts S1x1x1x1)
    (pos : Fin S1x1x1x1.rank → Nat) (hp : ∀ a, pos a < S1x1x1x1.size a) (hw : 1 < 32)
    (hf : FKind.Formats .f32) (hacc : (0x00000000#32 : BitVec 32) = 0x00000000#32) :
    extractAt pos (shapeCast S1x1x1x1 (multiReduction (F := Ideal) .add [1, 2, 3] S1
      (shapeCast S1x4x512x512 (sitofp .f32 (extui 32 (andi (cmpi .eq k (broadcast S4x512x512 b)) v) hw)) h1)
      0x00000000#32 hr hf hacc) h2) hp = blockCount k v b := by
  unfold extractAt
  show multiReduction (F := Ideal) .add [1, 2, 3] S1 _ 0x00000000#32 hr hf hacc (Shape.reshapeEquiv h2 _) = _
  refine (Ideal.multiReduction_add_total _ 0x00000000#32 hr S1_sizes hf hacc _).trans ?_
  exact Equiv.sum_comp (Shape.reshapeEquiv h1)
    (fun j : S4x512x512.Idx => FloatOps.sitofp (F := Ideal) .f32 ((IntOp.andi (IntOp.cmpi .eq (k j) b) (v j)).setWidth 32))

/-- The number of a lane, as the body computes it. -/
abbrev laneWords : IVec S1x128 32 := iota .tc S1x128 32 [1] iota_S1x128_d1_w32

/-- The histogram body's stored row, as a function of the two input blocks and the row's previous contents: the
    body's pure terms composed in program order. -/
def step0 (x y : Vec Ideal S4x512x512 .f32) (prev : Vec Ideal S1x128 .f32) : FVec Ideal S1x128 .f32 :=
  k0_pay1 (k0_pay4 x y) (k0_pay5 x y) laneWords
    (k0_pay10 (k0_pay4 x y) (k0_pay5 x y) laneWords
      (k0_pay8 (k0_pay4 x y) (k0_pay5 x y) laneWords (k0_pay6 x y) (k0_pay7 x y)) (k0_pay9 (k0_pay4 x y) (k0_pay5 x y)) 4#32)
    (k0_pay11 (k0_pay4 x y) (k0_pay5 x y)) (k0_pay12 laneWords) (FloatOps.ofBits .f32 0#32) prev

/-! ## A row's ten shares, for an arbitrary histogram -/

/-- The ten shares as the body adds them, lane-wise, for an arbitrary histogram cnt: zero, plus bin 0's share
    (the lane test on the words w0), plus the shares of bins 1 … 9 (on the words w). -/
def rowVec (cnt : BitVec 32 → R) (w0 w : IVec S1x128 32) : FVec Ideal S1x128 .f32 :=
  (addf (addf (addf (addf (addf (addf (addf (addf (addf (addf (broadcast S1x128 (Scalar.ofBits (F := Ideal) .f32 0x00000000#32)) (select (cmpi .eq w0 (broadcast S1x128 0#32)) (broadcast S1x128 (cnt 0#32)) (broadcast S1x128 (Scalar.ofBits (F := Ideal) .f32 0x00000000#32))))
      (select (cmpi .eq w (broadcast S1x128 1#32)) (broadcast S1x128 (cnt 1#32)) (broadcast S1x128 (Scalar.ofBits (F := Ideal) .f32 0x00000000#32))))
      (select (cmpi .eq w (broadcast S1x128 2#32)) (broadcast S1x128 (cnt 2#32)) (broadcast S1x128 (Scalar.ofBits (F := Ideal) .f32 0x00000000#32))))
      (select (cmpi .eq w (broadcast S1x128 3#32)) (broadcast S1x128 (cnt 3#32)) (broadcast S1x128 (Scalar.ofBits (F := Ideal) .f32 0x00000000#32))))
      (select (cmpi .eq w (broadcast S1x128 4#32)) (broadcast S1x128 (cnt 4#32)) (broadcast S1x128 (Scalar.ofBits (F := Ideal) .f32 0x00000000#32))))
      (select (cmpi .eq w (broadcast S1x128 5#32)) (broadcast S1x128 (cnt 5#32)) (broadcast S1x128 (Scalar.ofBits (F := Ideal) .f32 0x00000000#32))))
      (select (cmpi .eq w (broadcast S1x128 6#32)) (broadcast S1x128 (cnt 6#32)) (broadcast S1x128 (Scalar.ofBits (F := Ideal) .f32 0x00000000#32))))
      (select (cmpi .eq w (broadcast S1x128 7#32)) (broadcast S1x128 (cnt 7#32)) (broadcast S1x128 (Scalar.ofBits (F := Ideal) .f32 0x00000000#32))))
      (select (cmpi .eq w (broadcast S1x128 8#32)) (broadcast S1x128 (cnt 8#32)) (broadcast S1x128 (Scalar.ofBits (F := Ideal) .f32 0x00000000#32))))
      (select (cmpi .eq w (broadcast S1x128 9#32)) (broadcast S1x128 (cnt 9#32)) (broadcast S1x128 (Scalar.ofBits (F := Ideal) .f32 0x00000000#32))))

/-- At a lane: the previous contents plus the ten shares in order — nothing but unfolding, the histogram abstract. -/
theorem rowVec_apply (cnt : BitVec 32 → R) (w : IVec S1x128 32) (prev : FVec Ideal S1x128 .f32) (l : S1x128.Idx) :
    addf prev (rowVec cnt w w) l = FloatOps.addf (prev l) (rowOfWord cnt (w l)) := rfl

/-! ## The body's pure terms, piece by piece -/

section Pieces

variable (k : IVec S4x512x512 32) (v : IVec S4x512x512 1) (w : IVec S1x128 32)

/-- The first piece: zero plus bin 0's share. -/
theorem pay6_eq (x y : Vec Ideal S4x512x512 .f32) :
    k0_pay6 x y = addf (broadcast S1x128 (Scalar.ofBits (F := Ideal) .f32 0x00000000#32)) (select (cmpi .eq laneWords (broadcast S1x128 0#32)) (broadcast S1x128 (blockCount (k0_pay4 x y) (k0_pay5 x y) 0#32)) (broadcast S1x128 (Scalar.ofBits (F := Ideal) .f32 0x00000000#32))) := by
  unfold k0_pay6
  dsimp only
  rw [reduce_eq]

/-- Bin 1's sum, extracted. -/
theorem pay7_eq (x y : Vec Ideal S4x512x512 .f32) :
    extractAt ![0, 0, 0, 0] (shapeCast S1x1x1x1 (k0_pay7 x y) shapeCasts_S1_S1x1x1x1) inpos_S1x1x1x1_p0_0_0_0
      = blockCount (k0_pay4 x y) (k0_pay5 x y) 1#32 := by
  unfold k0_pay7
  dsimp only
  rw [reduce_eq]

/-- The second piece: the shares of bins 1, 2, 3 added to what came before. -/
theorem pay8_eq (v32 : FVec Ideal S1x128 .f32) (v39 : FVec Ideal S1 .f32) :
    k0_pay8 k v w v32 v39 = addf (addf (addf v32
      (select (cmpi .eq w (broadcast S1x128 1#32)) (broadcast S1x128 (extractAt ![0, 0, 0, 0] (shapeCast S1x1x1x1 v39 shapeCasts_S1_S1x1x1x1) inpos_S1x1x1x1_p0_0_0_0)) (broadcast S1x128 (Scalar.ofBits (F := Ideal) .f32 0x00000000#32))))
      (select (cmpi .eq w (broadcast S1x128 2#32)) (broadcast S1x128 (blockCount k v 2#32)) (broadcast S1x128 (Scalar.ofBits (F := Ideal) .f32 0x00000000#32)))) (select (cmpi .eq w (broadcast S1x128 3#32)) (broadcast S1x128 (blockCount k v 3#32)) (broadcast S1x128 (Scalar.ofBits (F := Ideal) .f32 0x00000000#32))) := by
  unfold k0_pay8
  dsimp only
  rw [reduce_eq, reduce_eq]

/-- Bin 4's sum. -/
theorem pay9_eq : k0_pay9 (F := Ideal) k v = blockCount k v 4#32 := by
  unfold k0_pay9
  dsimp only
  rw [reduce_eq]

/-- The third piece: the shares of bins 4, 5, 6. -/
theorem pay10_eq (v77 : FVec Ideal S1x128 .f32) (v86 : Ideal .f32) (c4 : BitVec 32) :
    k0_pay10 k v w v77 v86 c4 = addf (addf (addf v77
      (select (cmpi .eq w (broadcast S1x128 c4)) (broadcast S1x128 v86) (broadcast S1x128 (Scalar.ofBits (F := Ideal) .f32 0x00000000#32))))
      (select (cmpi .eq w (broadcast S1x128 5#32)) (broadcast S1x128 (blockCount k v 5#32)) (broadcast S1x128 (Scalar.ofBits (F := Ideal) .f32 0x00000000#32)))) (select (cmpi .eq w (broadcast S1x128 6#32)) (broadcast S1x128 (blockCount k v 6#32)) (broadcast S1x128 (Scalar.ofBits (F := Ideal) .f32 0x00000000#32))) := by
  unfold k0_pay10
  dsimp only
  rw [reduce_eq, reduce_eq]

/-- Bin 7's sum. -/
theorem pay11_eq : k0_pay11 (F := Ideal) k v = blockCount k v 7#32 := by
  unfold k0_pay11
  dsimp only
  rw [reduce_eq]

/-- The lane test for bin 7. -/
theorem pay12_eq : k0_pay12 w = cmpi .eq w (broadcast S1x128 7#32) := by
  unfold k0_pay12
  rfl

/-- The last piece: the previous row plus (what came before, and the shares of bins 7, 8, 9). -/
theorem pay1_eq (v122 : FVec Ideal S1x128 .f32) (v131 : Ideal .f32) (v133 : IVec S1x128 1) (cst : Ideal .f32)
    (prev : Vec Ideal S1x128 .f32) :
    k0_pay1 k v w v122 v131 v133 cst prev = addf prev
      (addf (addf (addf v122 (select v133 (broadcast S1x128 v131) (broadcast S1x128 cst)))
        (select (cmpi .eq w (broadcast S1x128 8#32)) (broadcast S1x128 (blockCount k v 8#32)) (broadcast S1x128 (Scalar.ofBits (F := Ideal) .f32 0x00000000#32)))) (select (cmpi .eq w (broadcast S1x128 9#32)) (broadcast S1x128 (blockCount k v 9#32)) (broadcast S1x128 (Scalar.ofBits (F := Ideal) .f32 0x00000000#32)))) := by
  unfold k0_pay1
  dsimp only
  rw [shapeCast_self, reduce_eq, reduce_eq]

end Pieces

/-- The stored row: the previous row plus the ten shares of the block's histogram. -/
theorem step0_vec (x y : Vec Ideal S4x512x512 .f32) (prev : Vec Ideal S1x128 .f32) :
    step0 x y prev = addf prev (rowVec (blockCount (k0_pay4 x y) (k0_pay5 x y)) laneWords laneWords) := by
  unfold step0 rowVec
  rw [pay1_eq, pay10_eq, pay8_eq, pay6_eq, pay7_eq, pay9_eq, pay11_eq, pay12_eq]

/-- The stored row at a lane: the previous contents plus the lane's ten shares of the block's histogram. -/
theorem step0_eq (x y : Vec Ideal S4x512x512 .f32) (prev : Vec Ideal S1x128 .f32) (l : S1x128.Idx) :
    step0 x y prev l = FloatOps.addf (prev l) (rowOfWord (blockCount (k0_pay4 x y) (k0_pay5 x y)) (laneWords l)) := by
  rw [step0_vec]
  exact rowVec_apply _ _ _ _
/-- The gap, the bin and the range test of a block, element by element. -/
theorem pay3_eq (x y : Vec Ideal S4x512x512 .f32) : k0_pay3 x y = fun i => gap (x i) (y i) := by
  unfold k0_pay3
  dsimp only
  rw [shapeCast_self, shapeCast_self]
  rfl

theorem pay4_eq (x y : Vec Ideal S4x512x512 .f32) : k0_pay4 x y = fun i => bin (gap (x i) (y i)) := by
  unfold k0_pay4
  dsimp only
  rw [pay3_eq]
  rfl

theorem pay5_eq (x y : Vec Ideal S4x512x512 .f32) : k0_pay5 x y = fun i => inRange (gap (x i) (y i)) := by
  unfold k0_pay5
  dsimp only
  rw [pay3_eq]
  rfl

/-- A block's histogram: how many of its elements are in range and fall in bin b. -/
theorem blockCount_eq (x y : Vec Ideal S4x512x512 .f32) (b : BitVec 32) :
    blockCount (k0_pay4 x y) (k0_pay5 x y) b = ∑ i : S4x512x512.Idx, hit b (gap (x i) (y i)) := by
  rw [pay4_eq, pay5_eq]
  rfl

end Cert.KernelIdeal.HistValue

end
-- ==== Proof.Blocks.lean ====
/-
  Cutting an [N, 512, 512] array into N/4 blocks of four planes.

  Element (a, r, l) of block t is element (4t + a, r, l) of the array; every element of the array is in exactly one
  block (t = its plane / 4, a = its plane mod 4). So a sum over all the elements is the sum, over the blocks, of the
  sums over each block's elements — in any commutative monoid, the extended reals among them.
-/
import Idealize.ShloMosaic.PureOps
import Idealize.ShloMosaic.Lib.ValueIdx

noncomputable section

namespace Cert.Blocks

open Idealize.ShloMosaic Idealize.ShloMosaic.ValueIdx

/-- A block: four planes. -/
abbrev Blk : Shape := ⟨3, ![4, 512, 512]⟩
/-- The whole array: N planes. -/
abbrev Arr (N : ℕ) : Shape := ⟨3, ![N, 512, 512]⟩

/-- Element i of block t, as an element of the whole array: plane 4t + a, same row and lane. -/
def elem {N T : ℕ} (hN : N = 4 * T) (t : Fin T) (i : Blk.Idx) : (Arr N).Idx :=
  ix3 (⟨4 * t.val + (i 0).val, by
          have h0 : (i 0).val < 4 := (i 0).isLt
          have ht := t.isLt
          omega⟩ : Fin N)
    (⟨(i 1).val, (i 1).isLt⟩ : Fin 512) (⟨(i 2).val, (i 2).isLt⟩ : Fin 512)

/-- The blocks' elements are the array's elements, each once. -/
def blocksEquiv {N T : ℕ} (hN : N = 4 * T) : Fin T × Blk.Idx ≃ (Arr N).Idx where
  toFun p := elem hN p.1 p.2
  invFun e :=
    (⟨(e 0).val / 4, by
        have h0 : (e 0).val < N := (e 0).isLt
        omega⟩,
      ix3 (⟨(e 0).val % 4, Nat.mod_lt _ (by decide)⟩ : Fin 4) (⟨(e 1).val, (e 1).isLt⟩ : Fin 512)
        (⟨(e 2).val, (e 2).isLt⟩ : Fin 512))
  left_inv p := by
    obtain ⟨t, i⟩ := p
    have h0 : (i 0).val < 4 := (i 0).isLt
    refine Prod.ext (Fin.ext ?_) (funext fun a => ?_)
    · show (4 * t.val + (i 0).val) / 4 = t.val
      omega
    · match a with
      | ⟨0, _⟩ => exact Fin.ext (show (4 * t.val + (i 0).val) % 4 = (i 0).val by omega)
      | ⟨1, _⟩ => rfl
      | ⟨2, _⟩ => rfl
  right_inv e := by
    funext a
    match a with
    | ⟨0, _⟩ => exact Fin.ext (show 4 * ((e 0).val / 4) + (e 0).val % 4 = (e 0).val by omega)
    | ⟨1, _⟩ => rfl
    | ⟨2, _⟩ => rfl

/-- A sum over the array is the sum over the blocks of the sums over each block. -/
theorem sum_blocks {M : Type} [AddCommMonoid M] {N T : ℕ} (hN : N = 4 * T) (f : (Arr N).Idx → M) :
    ∑ t : Fin T, ∑ i : Blk.Idx, f (elem hN t i) = ∑ e, f e := by
  rw [← Fintype.sum_prod_type']
  exact Equiv.sum_comp (blocksEquiv hN) f

end Cert.Blocks

end
-- ==== Proof.HistFirst.lean ====
/-
  The histogram kernel's launch over 16 planes (4 grid points), as a value.

  The output row's block never moves and is written back after the last point only, so the output array ends at
  the row the last point leaves. Point 0 starts from the zero row; each point adds its block's histogram to the
  lanes (HistStep). By induction on the point, the row after point n is the sum over t ≤ n of what point t adds;
  what the points add is additive in the histogram (Lanes), and the blocks are the array's elements, each once
  (Blocks). So the array ends holding, in the lane whose number is w, the ten shares [w = b]·count b of the WHOLE
  arrays' histogram.
-/
import proofs.«176825_j1932735283876_1_alg».proof.Proof.HistStep
import proofs.«176825_j1932735283876_1_alg».proof.Proof.Blocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HistValue.First

open Cert.KernelIdeal Cert.KernelIdeal.Gen Cert.BinLoss Cert.KernelIdeal.HistValue

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The zero row the first point stores. -/
abbrev zeroRow : Vec Ideal S1x128 .f32 := (k0_pay2 (F := Ideal) : FVec Ideal S1x128 .f32)

theorem zeroRow_apply (l : S1x128.Idx) : zeroRow l = (0 : EReal) := by
  show Ideal.ofBits .f32 0x00000000#32 = 0
  exact Ideal.ofBits_zero_f32

/-- A later point: the body leaves, in the output's staging buffer holding xo, the step over xo. -/
theorem out_B (c : Dev nD) (i : grid0.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (hc : ¬cond0_0 i) (x y : Vec Ideal S4x512x512 .f32) (xo : Vec Ideal S1x128 .f32) :
    out0_B_2 (F := Ideal) c i a1 h1 a2 h2 a3 h3 hc x y xo = step0 x y xo := by
  unfold out0_B_2
  rw [View.read_writes_eq_canon _ _ _ (cover0_B_2 c i a1 h1 a2 h2 a3 h3 hc x y xo)]
  unfold kernelRun0_B
  dsimp only
  sl_unfold_words
  rw [View.canon_unit_zero hz2]
  simp only [View.readAt_eq_ld, h1.read_unread, h2.read_unread, h3.read_unread, View.ld_unit_zero (S := S4x512x512) hz3,
    View.ld_unit_zero (S := S1x128) hz2]
  rfl

/-- The first point: the body stores the zero row, reads it back, and leaves the step over it. -/
theorem out_A (c : Dev nD) (i : grid0.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (hc : cond0_0 i) (x y : Vec Ideal S4x512x512 .f32) :
    out0_A_2 (F := Ideal) c i a1 h1 a2 h2 a3 h3 hc x y = step0 x y zeroRow := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x128) hz2, View.readCov_unit_zero (S := S1x128) _ hz2]
  simp only [View.readAt_eq_ld, h1.read_unread, h2.read_unread, View.ld_unit_zero (S := S4x512x512) hz3]
  rfl

/-- The running row after point n: the step over the zero row, then the step over the row before. -/
def acc (c : Dev nD) : (n : ℕ) → n < cfg0.N → Vec Ideal S1x128 .f32
  | 0, h => step0 (iblk0 V c 0 ⟨0, h⟩) (iblk0 V c 1 ⟨0, h⟩) zeroRow
  | n + 1, h => step0 (iblk0 V c 0 ⟨n + 1, h⟩) (iblk0 V c 1 ⟨n + 1, h⟩) (acc c n (Nat.lt_of_succ_lt h))

/-- What the output's staging buffer holds after point n is the running row: by induction on the point. -/
theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 4 := N_0
    have hB : ¬(⟨n + 1, h⟩ : Fin cfg0.N).val % 4 = 0 := by dsimp only; omega
    rw [outsAt0_B V c ⟨n + 1, h⟩ hB, out_B]
    show step0 _ _ (outsAt0 V c n _) = step0 _ _ (acc V c n _)
    rw [outsAt_eq c n]

/-- The point, as one of the 4 blocks. -/
def blockOf (t : Fin cfg0.N) : Fin 4 := ⟨t.val, lt_of_lt_of_eq t.isLt N_0⟩

/-- Where the two input windows' blocks sit: block t starts at plane 4t, row 0, lane 0. -/
theorem index_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0))

/-- Element i of the first window's block at point t is the array's element (4t + i₀, i₁, i₂). -/
theorem iblk_0 (c : Dev nD) (t : Fin cfg0.N) (i : S4x512x512.Idx) :
    (iblk0 V c 0 t : Vec Ideal S4x512x512 .f32) i = V c main_v0 (Blocks.elem (N := 16) (T := 4) rfl (blockOf t) i) := by
  have hi := (index_facts t).1
  unfold iblk0
  rw [View.read_apply]
  show V c main_v0 _ = V c main_v0 _
  congr 1
  funext a
  apply Fin.ext
  match a with
  | ⟨0, _⟩ => show win0_0.index t 0 * 4 + 1 * (i 0).val = 4 * t.val + (i 0).val; rw [hi.1]; omega
  | ⟨1, _⟩ => show win0_0.index t 1 * 512 + 1 * (i 1).val = (i 1).val; rw [hi.2.1]; omega
  | ⟨2, _⟩ => show win0_0.index t 2 * 512 + 1 * (i 2).val = (i 2).val; rw [hi.2.2]; omega

/-- The same for the second window. -/
theorem iblk_1 (c : Dev nD) (t : Fin cfg0.N) (i : S4x512x512.Idx) :
    (iblk0 V c 1 t : Vec Ideal S4x512x512 .f32) i = V c main_v1 (Blocks.elem (N := 16) (T := 4) rfl (blockOf t) i) := by
  have hi := (index_facts t).2
  unfold iblk0
  rw [View.read_apply]
  show V c main_v1 _ = V c main_v1 _
  congr 1
  funext a
  apply Fin.ext
  match a with
  | ⟨0, _⟩ => show win0_1.index t 0 * 4 + 1 * (i 0).val = 4 * t.val + (i 0).val; rw [hi.1]; omega
  | ⟨1, _⟩ => show win0_1.index t 1 * 512 + 1 * (i 1).val = (i 1).val; rw [hi.2.1]; omega
  | ⟨2, _⟩ => show win0_1.index t 2 * 512 + 1 * (i 2).val = (i 2).val; rw [hi.2.2]; omega

/-- The histogram of the block at point t (zero past the last point). -/
def cntAt (c : Dev nD) (t : ℕ) : BitVec 32 → R := fun b =>
  if h : t < cfg0.N then blockCount (k0_pay4 (iblk0 V c 0 ⟨t, h⟩) (iblk0 V c 1 ⟨t, h⟩)) (k0_pay5 (iblk0 V c 0 ⟨t, h⟩) (iblk0 V c 1 ⟨t, h⟩)) b
  else 0

theorem cntAt_pos (c : Dev nD) (t : ℕ) (h : t < cfg0.N) :
    cntAt V c t = blockCount (k0_pay4 (iblk0 V c 0 ⟨t, h⟩) (iblk0 V c 1 ⟨t, h⟩)) (k0_pay5 (iblk0 V c 0 ⟨t, h⟩) (iblk0 V c 1 ⟨t, h⟩)) := by
  funext b
  unfold cntAt
  rw [dif_pos h]

/-- The running row after point n, lane by lane: the sum over the points so far of what each adds. -/
theorem acc_apply (c : Dev nD) : ∀ (n : ℕ) (h : n < cfg0.N) (l : S1x128.Idx),
    acc V c n h l = ∑ t ∈ Finset.range (n + 1), rowOfWord (cntAt V c t) (laneWords l)
  | 0, h, l => by
    show step0 _ _ zeroRow l = _
    rw [step0_eq, zeroRow_apply, Finset.sum_range_one, cntAt_pos V c 0 h]
    exact zero_add _
  | n + 1, h, l => by
    show step0 _ _ (acc V c n _) l = _
    rw [step0_eq, acc_apply c n, Finset.sum_range_succ _ (n + 1), cntAt_pos V c (n + 1) h]
    rfl

/-- The blocks' histograms add up to the whole arrays' histogram. -/
theorem sum_cntAt (c : Dev nD) (b : BitVec 32) :
    ∑ t ∈ Finset.range 4, cntAt V c t b = BinLoss.count (V c main_v0) (V c main_v1) b := by
  have hN : cfg0.N = 4 := N_0
  rw [Finset.sum_range]
  unfold BinLoss.count
  refine Eq.trans ?_ (Blocks.sum_blocks (N := 16) (T := 4) rfl (fun e => hit b (gap (V c main_v0 e) (V c main_v1 e))))
  refine Finset.sum_congr rfl fun t _ => ?_
  have ht : t.val < cfg0.N := by rw [hN]; exact t.isLt
  rw [cntAt_pos V c t.val ht, blockCount_eq]
  refine Finset.sum_congr rfl fun i _ => ?_
  rw [iblk_0, iblk_1]
  rfl

/-- The row after the last point. -/
abbrev result (c : Dev nD) : Buf (Elt Ideal) ((c : Thread nD τ).loc main_v2) :=
  acc V c 3 (by rw [show cfg0.N = 4 from N_0]; decide)

/-- Lane by lane it is the whole arrays' histogram, spread over the lanes. -/
theorem result_apply (c : Dev nD) (l : S1x128.Idx) :
    result V c l = rowOfWord (BinLoss.count (V c main_v0) (V c main_v1)) (laneWords l) := by
  show acc V c 3 _ l = _
  rw [acc_apply, ← rowOfWord_sum_range]
  exact congrArg (fun cnt => rowOfWord cnt (laneWords l)) (funext fun b => sum_cntAt V c b)

/-- The one write-back, at the last point, writes the running row: the block is the whole array. -/
theorem flushed_eq (c : Dev nD) (t : Fin cfg0.N) (hf : (cfg0.win 2).flush t = true) :
    (dat0 V c).flushed 2 t = ((cfg0.win 2).blk t).view.read (Elt Ideal) (result V c) := by
  have hN : cfg0.N = 4 := N_0
  have h3 : t.val = 3 := by have := (flush0_2 t).mp hf; have := t.isLt; omega
  obtain rfl : t = t0_3 := Fin.ext h3
  show (cfg0.win 2).cut (grid0.coords t0_3) ((dat0 V c).after 2 t0_3) = _
  rw [after0_2, outsAt_eq]
  have hz' : (fun a => win0_2.index t0_3 a * main_v2.ty.shape.size a) = fun _ => 0 :=
    funext fun a => by fin_cases a <;> decide
  exact (Memref.read_access_unit_zero (Elt Ideal) main_v2 hz' (fun a => by rw [congrFun hz' a]; simp) (result V c)).symm

/-- So the output array ends holding the row after the last point. -/
theorem arr (c : Dev nD) : (dat0 V c).arrAt 2 cfg0.N = result V c :=
  (dat0 V c).arrAt_eq_of_cover 2 (result V c) (flushed_eq V c) fun i =>
    ⟨t0_3, (flush0_2 t0_3).mpr rfl, by
      show i ∈ ((View.whole main_v2).slice (win0_2.rect t0_3)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 1 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 128 from by decide +kernel]; omega⟩

end Cert.KernelIdeal.HistValue.First

end
-- ==== Proof.HistSecond.lean ====
/-
  The histogram kernel's second launch, over 48 planes (12 grid points), as a value.

  The output row's block never moves and is written back after the last point only, so the output array ends at
  the row the last point leaves. Point 0 starts from the zero row; each point adds its block's histogram to the
  lanes (HistStep). By induction on the point, the row after point n is the sum over t ≤ n of what point t adds;
  what the points add is additive in the histogram (Lanes), and the blocks are the array's elements, each once
  (Blocks). So the array ends holding, in the lane whose number is w, the ten shares [w = b]·count b of the WHOLE
  arrays' histogram.
-/
import proofs.«176825_j1932735283876_1_alg».proof.Proof.HistStep
import proofs.«176825_j1932735283876_1_alg».proof.Proof.Blocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HistValue.Second

open Cert.KernelIdeal Cert.KernelIdeal.Gen Cert.BinLoss Cert.KernelIdeal.HistValue

variable (V : (c : Dev nD) → (b : Ref sig .tc) → Buf (Elt Ideal) ((c : Thread nD τ).loc b))

/-! The second launch runs the same body: its pure terms are the first launch's, term by term. -/
theorem same1 : (k2_pay1 (F := Ideal)) = k0_pay1 (F := Ideal) := rfl
theorem same2 : (k2_pay2 (F := Ideal)) = k0_pay2 (F := Ideal) := rfl
theorem same3 : (k2_pay3 (F := Ideal)) = k0_pay3 (F := Ideal) := rfl
theorem same4 : (k2_pay4 (F := Ideal)) = k0_pay4 (F := Ideal) := rfl
theorem same5 : (k2_pay5 (F := Ideal)) = k0_pay5 (F := Ideal) := rfl
theorem same6 : (k2_pay6 (F := Ideal)) = k0_pay6 (F := Ideal) := rfl
theorem same7 : (k2_pay7 (F := Ideal)) = k0_pay7 (F := Ideal) := rfl
theorem same8 : (k2_pay8 (F := Ideal)) = k0_pay8 (F := Ideal) := rfl
theorem same9 : (k2_pay9 (F := Ideal)) = k0_pay9 (F := Ideal) := rfl
theorem same10 : (k2_pay10 (F := Ideal)) = k0_pay10 (F := Ideal) := rfl
theorem same11 : (k2_pay11 (F := Ideal)) = k0_pay11 (F := Ideal) := rfl
theorem same12 : k2_pay12 = k0_pay12 := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The zero row the first point stores. -/
abbrev zeroRow : Vec Ideal S1x128 .f32 := (k0_pay2 (F := Ideal) : FVec Ideal S1x128 .f32)

theorem zeroRow_apply (l : S1x128.Idx) : zeroRow l = (0 : EReal) := by
  show Ideal.ofBits .f32 0x00000000#32 = 0
  exact Ideal.ofBits_zero_f32

/-- A later point: the body leaves, in the output's staging buffer holding xo, the step over xo. -/
theorem out_B (c : Dev nD) (i : grid2.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (hc : ¬cond2_0 i) (x y : Vec Ideal S4x512x512 .f32) (xo : Vec Ideal S1x128 .f32) :
    out2_B_2 (F := Ideal) c i a1 h1 a2 h2 a3 h3 hc x y xo = step0 x y xo := by
  unfold out2_B_2
  rw [View.read_writes_eq_canon _ _ _ (cover2_B_2 c i a1 h1 a2 h2 a3 h3 hc x y xo)]
  unfold kernelRun2_B
  dsimp only
  sl_unfold_words
  rw [View.canon_unit_zero hz2]
  simp only [View.readAt_eq_ld, h1.read_unread, h2.read_unread, h3.read_unread, View.ld_unit_zero (S := S4x512x512) hz3,
    View.ld_unit_zero (S := S1x128) hz2]
  rw [same1, same4, same5, same6, same7, same8, same9, same10, same11, same12]
  rfl

/-- The first point: the body stores the zero row, reads it back, and leaves the step over it. -/
theorem out_A (c : Dev nD) (i : grid2.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (hc : cond2_0 i) (x y : Vec Ideal S4x512x512 .f32) :
    out2_A_2 (F := Ideal) c i a1 h1 a2 h2 a3 h3 hc x y = step0 x y zeroRow := by
  unfold out2_A_2
  rw [View.read_writes_eq_canon _ _ _ (cover2_A_2 c i a1 h1 a2 h2 a3 h3 hc x y)]
  unfold kernelRun2_A
  dsimp only
  sl_unfold_words
  rw [View.canon_cons_unit_zero (S := S1x128) hz2, View.readCov_unit_zero (S := S1x128) _ hz2]
  simp only [View.readAt_eq_ld, h1.read_unread, h2.read_unread, View.ld_unit_zero (S := S4x512x512) hz3]
  rw [same1, same2, same4, same5, same6, same7, same8, same9, same10, same11, same12]
  rfl

/-- The running row after point n: the step over the zero row, then the step over the row before. -/
def acc (c : Dev nD) : (n : ℕ) → n < cfg2.N → Vec Ideal S1x128 .f32
  | 0, h => step0 (iblk2 V c 0 ⟨0, h⟩) (iblk2 V c 1 ⟨0, h⟩) zeroRow
  | n + 1, h => step0 (iblk2 V c 0 ⟨n + 1, h⟩) (iblk2 V c 1 ⟨n + 1, h⟩) (acc c n (Nat.lt_of_succ_lt h))

/-- What the output's staging buffer holds after point n is the running row: by induction on the point. -/
theorem outsAt_eq (c : Dev nD) : ∀ (n : ℕ) (h : n < cfg2.N), outsAt2 V c n h = acc V c n h
  | 0, h => (outsAt2_A V c ⟨0, h⟩ rfl).trans (out_A ..)
  | n + 1, h => by
    have hN : cfg2.N = 12 := N_2
    have hB : ¬(⟨n + 1, h⟩ : Fin cfg2.N).val % 12 = 0 := by dsimp only; omega
    rw [outsAt2_B V c ⟨n + 1, h⟩ hB, out_B]
    show step0 _ _ (outsAt2 V c n _) = step0 _ _ (acc V c n _)
    rw [outsAt_eq c n]

/-- The point, as one of the 12 blocks. -/
def blockOf (t : Fin cfg2.N) : Fin 12 := ⟨t.val, lt_of_lt_of_eq t.isLt N_2⟩

/-- Where the two input windows' blocks sit: block t starts at plane 4t, row 0, lane 0. -/
theorem index_facts : ∀ t : Fin cfg2.N,
    (win2_0.index t 0 = t.val ∧ win2_0.index t 1 = 0 ∧ win2_0.index t 2 = 0)
    ∧ (win2_1.index t 0 = t.val ∧ win2_1.index t 1 = 0 ∧ win2_1.index t 2 = 0) :=
  (by decide +kernel : ∀ t : Fin grid2.N,
    (win2_0.index t 0 = t.val ∧ win2_0.index t 1 = 0 ∧ win2_0.index t 2 = 0)
    ∧ (win2_1.index t 0 = t.val ∧ win2_1.index t 1 = 0 ∧ win2_1.index t 2 = 0))

/-- Element i of the first window's block at point t is the array's element (4t + i₀, i₁, i₂). -/
theorem iblk_0 (c : Dev nD) (t : Fin cfg2.N) (i : S4x512x512.Idx) :
    (iblk2 V c 0 t : Vec Ideal S4x512x512 .f32) i = V c main_v22 (Blocks.elem (N := 48) (T := 12) rfl (blockOf t) i) := by
  have hi := (index_facts t).1
  unfold iblk2
  rw [View.read_apply]
  show V c main_v22 _ = V c main_v22 _
  congr 1
  funext a
  apply Fin.ext
  match a with
  | ⟨0, _⟩ => show win2_0.index t 0 * 4 + 1 * (i 0).val = 4 * t.val + (i 0).val; rw [hi.1]; omega
  | ⟨1, _⟩ => show win2_0.index t 1 * 512 + 1 * (i 1).val = (i 1).val; rw [hi.2.1]; omega
  | ⟨2, _⟩ => show win2_0.index t 2 * 512 + 1 * (i 2).val = (i 2).val; rw [hi.2.2]; omega

/-- The same for the second window. -/
theorem iblk_1 (c : Dev nD) (t : Fin cfg2.N) (i : S4x512x512.Idx) :
    (iblk2 V c 1 t : Vec Ideal S4x512x512 .f32) i = V c main_v23 (Blocks.elem (N := 48) (T := 12) rfl (blockOf t) i) := by
  have hi := (index_facts t).2
  unfold iblk2
  rw [View.read_apply]
  show V c main_v23 _ = V c main_v23 _
  congr 1
  funext a
  apply Fin.ext
  match a with
  | ⟨0, _⟩ => show win2_1.index t 0 * 4 + 1 * (i 0).val = 4 * t.val + (i 0).val; rw [hi.1]; omega
  | ⟨1, _⟩ => show win2_1.index t 1 * 512 + 1 * (i 1).val = (i 1).val; rw [hi.2.1]; omega
  | ⟨2, _⟩ => show win2_1.index t 2 * 512 + 1 * (i 2).val = (i 2).val; rw [hi.2.2]; omega

/-- The histogram of the block at point t (zero past the last point). -/
def cntAt (c : Dev nD) (t : ℕ) : BitVec 32 → R := fun b =>
  if h : t < cfg2.N then blockCount (k0_pay4 (iblk2 V c 0 ⟨t, h⟩) (iblk2 V c 1 ⟨t, h⟩)) (k0_pay5 (iblk2 V c 0 ⟨t, h⟩) (iblk2 V c 1 ⟨t, h⟩)) b
  else 0

theorem cntAt_pos (c : Dev nD) (t : ℕ) (h : t < cfg2.N) :
    cntAt V c t = blockCount (k0_pay4 (iblk2 V c 0 ⟨t, h⟩) (iblk2 V c 1 ⟨t, h⟩)) (k0_pay5 (iblk2 V c 0 ⟨t, h⟩) (iblk2 V c 1 ⟨t, h⟩)) := by
  funext b
  unfold cntAt
  rw [dif_pos h]

/-- The running row after point n, lane by lane: the sum over the points so far of what each adds. -/
theorem acc_apply (c : Dev nD) : ∀ (n : ℕ) (h : n < cfg2.N) (l : S1x128.Idx),
    acc V c n h l = ∑ t ∈ Finset.range (n + 1), rowOfWord (cntAt V c t) (laneWords l)
  | 0, h, l => by
    show step0 _ _ zeroRow l = _
    rw [step0_eq, zeroRow_apply, Finset.sum_range_one, cntAt_pos V c 0 h]
    exact zero_add _
  | n + 1, h, l => by
    show step0 _ _ (acc V c n _) l = _
    rw [step0_eq, acc_apply c n, Finset.sum_range_succ _ (n + 1), cntAt_pos V c (n + 1) h]
    rfl

/-- The blocks' histograms add up to the whole arrays' histogram. -/
theorem sum_cntAt (c : Dev nD) (b : BitVec 32) :
    ∑ t ∈ Finset.range 12, cntAt V c t b = BinLoss.count (V c main_v22) (V c main_v23) b := by
  have hN : cfg2.N = 12 := N_2
  rw [Finset.sum_range]
  unfold BinLoss.count
  refine Eq.trans ?_ (Blocks.sum_blocks (N := 48) (T := 12) rfl (fun e => hit b (gap (V c main_v22 e) (V c main_v23 e))))
  refine Finset.sum_congr rfl fun t _ => ?_
  have ht : t.val < cfg2.N := by rw [hN]; exact t.isLt
  rw [cntAt_pos V c t.val ht, blockCount_eq]
  refine Finset.sum_congr rfl fun i _ => ?_
  rw [iblk_0, iblk_1]
  rfl

/-- The row after the last point. -/
abbrev result (c : Dev nD) : Buf (Elt Ideal) ((c : Thread nD τ).loc main_v24) :=
  acc V c 11 (by rw [show cfg2.N = 12 from N_2]; decide)

/-- Lane by lane it is the whole arrays' histogram, spread over the lanes. -/
theorem result_apply (c : Dev nD) (l : S1x128.Idx) :
    result V c l = rowOfWord (BinLoss.count (V c main_v22) (V c main_v23)) (laneWords l) := by
  show acc V c 11 _ l = _
  rw [acc_apply, ← rowOfWord_sum_range]
  exact congrArg (fun cnt => rowOfWord cnt (laneWords l)) (funext fun b => sum_cntAt V c b)

/-- The one write-back, at the last point, writes the running row: the block is the whole array. -/
theorem flushed_eq (c : Dev nD) (t : Fin cfg2.N) (hf : (cfg2.win 2).flush t = true) :
    (dat2 V c).flushed 2 t = ((cfg2.win 2).blk t).view.read (Elt Ideal) (result V c) := by
  have hN : cfg2.N = 12 := N_2
  have h3 : t.val = 11 := by have := (flush2_2 t).mp hf; have := t.isLt; omega
  obtain rfl : t = t2_11 := Fin.ext h3
  show (cfg2.win 2).cut (grid2.coords t2_11) ((dat2 V c).after 2 t2_11) = _
  rw [after2_2, outsAt_eq]
  have hz' : (fun a => win2_2.index t2_11 a * main_v24.ty.shape.size a) = fun _ => 0 :=
    funext fun a => by fin_cases a <;> decide
  exact (Memref.read_access_unit_zero (Elt Ideal) main_v24 hz' (fun a => by rw [congrFun hz' a]; simp) (result V c)).symm

/-- So the output array ends holding the row after the last point. -/
theorem arr (c : Dev nD) : (dat2 V c).arrAt 2 cfg2.N = result V c :=
  (dat2 V c).arrAt_eq_of_cover 2 (result V c) (flushed_eq V c) fun i =>
    ⟨t2_11, (flush2_2 t2_11).mpr rfl, by
      show i ∈ ((View.whole main_v24).slice (win2_2.rect t2_11)).set
      rw [View.set_slice_whole, Rect.mem_set_unit]
      intro a
      have h0 : (i 0 : Nat) < 1 := (i 0).isLt
      have h1 : (i 1 : Nat) < 128 := (i 1).isLt
      match a with
      | ⟨0, _⟩ =>
        show win2_2.index t2_11 0 * win2_2.size 0 ≤ (i 0 : Nat) ∧ (i 0 : Nat) < win2_2.index t2_11 0 * win2_2.size 0 + win2_2.xsize (grid2.coords t2_11) 0
        rw [show win2_2.index t2_11 0 * win2_2.size 0 = 0 from by decide +kernel, show win2_2.xsize (grid2.coords t2_11) 0 = 1 from by decide +kernel]; omega
      | ⟨1, _⟩ =>
        show win2_2.index t2_11 1 * win2_2.size 1 ≤ (i 1 : Nat) ∧ (i 1 : Nat) < win2_2.index t2_11 1 * win2_2.size 1 + win2_2.xsize (grid2.coords t2_11) 1
        rw [show win2_2.index t2_11 1 * win2_2.size 1 = 0 from by decide +kernel, show win2_2.xsize (grid2.coords t2_11) 1 = 128 from by decide +kernel]; omega⟩

end Cert.KernelIdeal.HistValue.Second

end
-- ==== Proof.HostLines.lean ====
import proofs.«176825_j1932735283876_1_alg».proof.Proof.Gen.KernelIdeal.Frame
import proofs.«176825_j1932735283876_1_alg».proof.Proof.Spec
import proofs.«176825_j1932735283876_1_alg».proof.Proof.Lanes
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.StableHlo

/-
  The host lines of the idealized kernel's @main, stretch by stretch, for ANY contents W of the buffers they start
  from: what each stretch leaves in the buffers a later kernel launch or the results read, and which buffers it does
  not touch.

  Between a histogram launch and its loss launch the host turns the 1×128 row of counts c into the row of weights
  (per lane: (if c > 0 then 2^18 / max (0.9·c) 1e-30 else 0) / max n 1, n the sum over the 128 lanes of [c > 0]);
  after a loss launch it divides the 1×1 total by the number of elements; at the end it takes the mean of the two
  losses.
-/
namespace Cert.KernelIdeal.HostLines

open Cert.KernelIdeal Cert.KernelIdeal.Gen Cert.BinLoss

variable (W : Valuation τ sig (Elt Ideal))

/-! ## Before the first launch: the two arrays, flattened to 16 planes -/

theorem ops0_v0 : StableHlo.after (hostOps0 (F := Ideal)) W (Proc.devRef .tc main_v0)
    = shapeCast S16x512x512 (W (Proc.devRef .tc main_arg0)) shapeCasts_S16x1x512x512_S16x512x512 := by
  dsimp only [hostOps0]
  after_results
  rfl
theorem ops0_v1 : StableHlo.after (hostOps0 (F := Ideal)) W (Proc.devRef .tc main_v1)
    = shapeCast S16x512x512 (W (Proc.devRef .tc main_arg1)) shapeCasts_S16x1x512x512_S16x512x512 := by
  dsimp only [hostOps0]
  after_results
  rfl
theorem ops0_arg2 : StableHlo.after (hostOps0 (F := Ideal)) W (Proc.devRef .tc main_arg2) = W (Proc.devRef .tc main_arg2) := by
  dsimp only [hostOps0]
  after_results
theorem ops0_arg3 : StableHlo.after (hostOps0 (F := Ideal)) W (Proc.devRef .tc main_arg3) = W (Proc.devRef .tc main_arg3) := by
  dsimp only [hostOps0]
  after_results

/-! ## From the first histogram's row to the first weights row -/

/-- The weights row as the host computes it from the row of counts. -/
def weightsRow (c : FVec Ideal S1x128 .f32) : FVec Ideal S1x128 .f32 :=
  Host.divf
    (select (cmpf .ogt c (broadcastInDim S1x128 ![] bcast_S_S1x128 (constant (F := Ideal) S_ .f32 0x00000000#32)))
      (Host.divf (broadcastInDim S1x128 ![] bcast_S_S1x128 (constant (F := Ideal) S_ .f32 0x48800000#32))
        (maximumf (mulf (broadcastInDim S1x128 ![] bcast_S_S1x128 (constant (F := Ideal) S_ .f32 0x3F666666#32)) c)
          (broadcastInDim S1x128 ![] bcast_S_S1x128 (constant (F := Ideal) S_ .f32 0x0DA24260#32))))
      (broadcastInDim S1x128 ![] bcast_S_S1x128 (constant (F := Ideal) S_ .f32 0x00000000#32)))
    (broadcastInDim S1x128 ![] bcast_S_S1x128
      (maximumf
        (Host.reduceAdd (F := Ideal) (uitofp .f32 (cmpf .ogt c (broadcastInDim S1x128 ![] bcast_S_S1x128 (constant (F := Ideal) S_ .f32 0x00000000#32))))
          (constant (F := Ideal) S_ .f32 0x00000000#32) reducesTo_S1x128_S_d0_1 h_S_)
        (constant (F := Ideal) S_ .f32 0x3F800000#32)))

theorem ops1_v14 : StableHlo.after (hostOps1 (F := Ideal)) W (Proc.devRef .tc main_v14)
    = Host.divf (broadcastInDim S1x128 ![] bcast_S_S1x128 (constant (F := Ideal) S_ .f32 0x48800000#32))
        (maximumf (mulf (broadcastInDim S1x128 ![] bcast_S_S1x128 (constant (F := Ideal) S_ .f32 0x3F666666#32)) (W (Proc.devRef .tc main_v2)))
          (broadcastInDim S1x128 ![] bcast_S_S1x128 (constant (F := Ideal) S_ .f32 0x0DA24260#32))) := by
  dsimp only [hostOps1]
  after_results_simp
theorem ops1_v10 : StableHlo.after (hostOps1 (F := Ideal)) W (Proc.devRef .tc main_v10)
    = cmpf .ogt (W (Proc.devRef .tc main_v2)) (broadcastInDim S1x128 ![] bcast_S_S1x128 (constant (F := Ideal) S_ .f32 0x00000000#32)) := by
  dsimp only [hostOps1]
  after_results_simp
theorem ops1_v6 : StableHlo.after (hostOps1 (F := Ideal)) W (Proc.devRef .tc main_v6)
    = Host.reduceAdd (F := Ideal) (uitofp .f32 (cmpf .ogt (W (Proc.devRef .tc main_v2)) (broadcastInDim S1x128 ![] bcast_S_S1x128 (constant (F := Ideal) S_ .f32 0x00000000#32))))
        (constant (F := Ideal) S_ .f32 0x00000000#32) reducesTo_S1x128_S_d0_1 h_S_ := by
  dsimp only [hostOps1]
  after_results_simp
theorem ops1_cst5 : StableHlo.after (hostOps1 (F := Ideal)) W (Proc.devRef .tc main_cst_5) = constant (F := Ideal) S_ .f32 0x00000000#32 := by
  dsimp only [hostOps1]
  after_results_simp
theorem ops1_v0 : StableHlo.after (hostOps1 (F := Ideal)) W (Proc.devRef .tc main_v0) = W (Proc.devRef .tc main_v0) := by
  dsimp only [hostOps1]
  after_results_simp
theorem ops1_v1 : StableHlo.after (hostOps1 (F := Ideal)) W (Proc.devRef .tc main_v1) = W (Proc.devRef .tc main_v1) := by
  dsimp only [hostOps1]
  after_results_simp
theorem ops1_arg2 : StableHlo.after (hostOps1 (F := Ideal)) W (Proc.devRef .tc main_arg2) = W (Proc.devRef .tc main_arg2) := by
  dsimp only [hostOps1]
  after_results_simp
theorem ops1_arg3 : StableHlo.after (hostOps1 (F := Ideal)) W (Proc.devRef .tc main_arg3) = W (Proc.devRef .tc main_arg3) := by
  dsimp only [hostOps1]
  after_results_simp

theorem ops11_v15 : StableHlo.after (hostOps1_1 (F := Ideal)) W (Proc.devRef .tc main_v15)
    = select (W (Proc.devRef .tc main_v10)) (W (Proc.devRef .tc main_v14))
        (broadcastInDim S1x128 ![] bcast_S_S1x128 (W (Proc.devRef .tc main_cst_5))) := by
  dsimp only [hostOps1_1]
  after_results_simp
  simp only [TRef.toBuf, TRef.ofBuf, cast_eq, id]
theorem ops11_v6 : StableHlo.after (hostOps1_1 (F := Ideal)) W (Proc.devRef .tc main_v6) = W (Proc.devRef .tc main_v6) := by
  dsimp only [hostOps1_1]
  after_results_simp
theorem ops11_v0 : StableHlo.after (hostOps1_1 (F := Ideal)) W (Proc.devRef .tc main_v0) = W (Proc.devRef .tc main_v0) := by
  dsimp only [hostOps1_1]
  after_results_simp
theorem ops11_v1 : StableHlo.after (hostOps1_1 (F := Ideal)) W (Proc.devRef .tc main_v1) = W (Proc.devRef .tc main_v1) := by
  dsimp only [hostOps1_1]
  after_results_simp
theorem ops11_arg2 : StableHlo.after (hostOps1_1 (F := Ideal)) W (Proc.devRef .tc main_arg2) = W (Proc.devRef .tc main_arg2) := by
  dsimp only [hostOps1_1]
  after_results_simp
theorem ops11_arg3 : StableHlo.after (hostOps1_1 (F := Ideal)) W (Proc.devRef .tc main_arg3) = W (Proc.devRef .tc main_arg3) := by
  dsimp only [hostOps1_1]
  after_results_simp

theorem ops12_v18 : StableHlo.after (hostOps1_2 (F := Ideal)) W (Proc.devRef .tc main_v18)
    = Host.divf (W (Proc.devRef .tc main_v15))
        (broadcastInDim S1x128 ![] bcast_S_S1x128 (maximumf (W (Proc.devRef .tc main_v6)) (constant (F := Ideal) S_ .f32 0x3F800000#32))) := by
  dsimp only [hostOps1_2]
  after_results
theorem ops12_v0 : StableHlo.after (hostOps1_2 (F := Ideal)) W (Proc.devRef .tc main_v0) = W (Proc.devRef .tc main_v0) := by
  dsimp only [hostOps1_2]
  after_results
theorem ops12_v1 : StableHlo.after (hostOps1_2 (F := Ideal)) W (Proc.devRef .tc main_v1) = W (Proc.devRef .tc main_v1) := by
  dsimp only [hostOps1_2]
  after_results
theorem ops12_arg2 : StableHlo.after (hostOps1_2 (F := Ideal)) W (Proc.devRef .tc main_arg2) = W (Proc.devRef .tc main_arg2) := by
  dsimp only [hostOps1_2]
  after_results
theorem ops12_arg3 : StableHlo.after (hostOps1_2 (F := Ideal)) W (Proc.devRef .tc main_arg3) = W (Proc.devRef .tc main_arg3) := by
  dsimp only [hostOps1_2]
  after_results

/-- The three stretches together: the weights row of the counts row. -/
theorem weights1 :
    StableHlo.after (hostOps1_2 (F := Ideal)) (StableHlo.after hostOps1_1 (StableHlo.after hostOps1 W)) (Proc.devRef .tc main_v18)
      = weightsRow (W (Proc.devRef .tc main_v2)) := by
  rw [ops12_v18, ops11_v15, ops11_v6, ops1_v10, ops1_v14, ops1_cst5, ops1_v6]
  rfl
theorem keep1_v0 :
    StableHlo.after (hostOps1_2 (F := Ideal)) (StableHlo.after hostOps1_1 (StableHlo.after hostOps1 W)) (Proc.devRef .tc main_v0)
      = W (Proc.devRef .tc main_v0) := by rw [ops12_v0, ops11_v0, ops1_v0]
theorem keep1_v1 :
    StableHlo.after (hostOps1_2 (F := Ideal)) (StableHlo.after hostOps1_1 (StableHlo.after hostOps1 W)) (Proc.devRef .tc main_v1)
      = W (Proc.devRef .tc main_v1) := by rw [ops12_v1, ops11_v1, ops1_v1]
theorem keep1_arg2 :
    StableHlo.after (hostOps1_2 (F := Ideal)) (StableHlo.after hostOps1_1 (StableHlo.after hostOps1 W)) (Proc.devRef .tc main_arg2)
      = W (Proc.devRef .tc main_arg2) := by rw [ops12_arg2, ops11_arg2, ops1_arg2]
theorem keep1_arg3 :
    StableHlo.after (hostOps1_2 (F := Ideal)) (StableHlo.after hostOps1_1 (StableHlo.after hostOps1 W)) (Proc.devRef .tc main_arg3)
      = W (Proc.devRef .tc main_arg3) := by rw [ops12_arg3, ops11_arg3, ops1_arg3]

end Cert.KernelIdeal.HostLines
end
-- ==== Proof.HostLines2.lean ====
import proofs.«176825_j1932735283876_1_alg».proof.Proof.Gen.KernelIdeal.Frame
import proofs.«176825_j1932735283876_1_alg».proof.Proof.Spec
import proofs.«176825_j1932735283876_1_alg».proof.Proof.Lanes
import proofs.«176825_j1932735283876_1_alg».proof.Proof.HostLines
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.StableHlo

/-
  The host lines of the idealized kernel's @main after the first loss launch, for ANY contents W of the buffers they
  start from: the first loss (the 1×1 total over the number of elements) and the second pair of arrays flattened to
  48 planes; the second weights row from the second histogram's row; the second loss and the mean of the two.
-/
namespace Cert.KernelIdeal.HostLines

open Cert.KernelIdeal Cert.KernelIdeal.Gen Cert.BinLoss

variable (W : Valuation τ sig (Elt Ideal))

/-! ## After the first loss launch -/

theorem ops2_v21 : StableHlo.after (hostOps2 (F := Ideal)) W (Proc.devRef .tc main_v21)
    = Host.divf (shapeCast S_ (W (Proc.devRef .tc main_v19)) shapeCasts_S1x1_S_) (constant (F := Ideal) S_ .f32 0x4A800000#32) := by
  dsimp only [hostOps2]
  after_results
  rfl
theorem ops2_v22 : StableHlo.after (hostOps2 (F := Ideal)) W (Proc.devRef .tc main_v22)
    = shapeCast S48x512x512 (W (Proc.devRef .tc main_arg2)) shapeCasts_S16x3x512x512_S48x512x512 := by
  dsimp only [hostOps2]
  after_results
  rfl
theorem ops2_v23 : StableHlo.after (hostOps2 (F := Ideal)) W (Proc.devRef .tc main_v23)
    = shapeCast S48x512x512 (W (Proc.devRef .tc main_arg3)) shapeCasts_S16x3x512x512_S48x512x512 := by
  dsimp only [hostOps2]
  after_results
  rfl

/-! ## From the second histogram's row to the second weights row -/

theorem ops3_v36 : StableHlo.after (hostOps3 (F := Ideal)) W (Proc.devRef .tc main_v36)
    = Host.divf (broadcastInDim S1x128 ![] bcast_S_S1x128 (constant (F := Ideal) S_ .f32 0x48800000#32))
        (maximumf (mulf (broadcastInDim S1x128 ![] bcast_S_S1x128 (constant (F := Ideal) S_ .f32 0x3F666666#32)) (W (Proc.devRef .tc main_v24))) (broadcastInDim S1x128 ![] bcast_S_S1x128 (constant (F := Ideal) S_ .f32 0x0DA24260#32))) := by
  dsimp only [hostOps3]
  after_results_simp
theorem ops3_v32 : StableHlo.after (hostOps3 (F := Ideal)) W (Proc.devRef .tc main_v32)
    = cmpf .ogt (W (Proc.devRef .tc main_v24)) (broadcastInDim S1x128 ![] bcast_S_S1x128 (constant (F := Ideal) S_ .f32 0x00000000#32)) := by
  dsimp only [hostOps3]
  after_results_simp
theorem ops3_v28 : StableHlo.after (hostOps3 (F := Ideal)) W (Proc.devRef .tc main_v28)
    = Host.reduceAdd (F := Ideal) (uitofp .f32 (cmpf .ogt (W (Proc.devRef .tc main_v24)) (broadcastInDim S1x128 ![] bcast_S_S1x128 (constant (F := Ideal) S_ .f32 0x00000000#32))))
        (constant (F := Ideal) S_ .f32 0x00000000#32) reducesTo_S1x128_S_d0_1 h_S_ := by
  dsimp only [hostOps3]
  after_results_simp
theorem ops3_cst14 : StableHlo.after (hostOps3 (F := Ideal)) W (Proc.devRef .tc main_cst_14) = (constant (F := Ideal) S_ .f32 0x00000000#32) := by
  dsimp only [hostOps3]
  after_results_simp
theorem ops3_v22 : StableHlo.after (hostOps3 (F := Ideal)) W (Proc.devRef .tc main_v22) = W (Proc.devRef .tc main_v22) := by
  dsimp only [hostOps3]
  after_results_simp
theorem ops3_v23 : StableHlo.after (hostOps3 (F := Ideal)) W (Proc.devRef .tc main_v23) = W (Proc.devRef .tc main_v23) := by
  dsimp only [hostOps3]
  after_results_simp
theorem ops3_v21 : StableHlo.after (hostOps3 (F := Ideal)) W (Proc.devRef .tc main_v21) = W (Proc.devRef .tc main_v21) := by
  dsimp only [hostOps3]
  after_results_simp

theorem ops31_v37 : StableHlo.after (hostOps3_1 (F := Ideal)) W (Proc.devRef .tc main_v37)
    = select (W (Proc.devRef .tc main_v32)) (W (Proc.devRef .tc main_v36))
        (broadcastInDim S1x128 ![] bcast_S_S1x128 (W (Proc.devRef .tc main_cst_14))) := by
  dsimp only [hostOps3_1]
  after_results_simp
  simp only [TRef.toBuf, TRef.ofBuf, cast_eq, id]
theorem ops31_v28 : StableHlo.after (hostOps3_1 (F := Ideal)) W (Proc.devRef .tc main_v28) = W (Proc.devRef .tc main_v28) := by
  dsimp only [hostOps3_1]
  after_results_simp
theorem ops31_v22 : StableHlo.after (hostOps3_1 (F := Ideal)) W (Proc.devRef .tc main_v22) = W (Proc.devRef .tc main_v22) := by
  dsimp only [hostOps3_1]
  after_results_simp
theorem ops31_v23 : StableHlo.after (hostOps3_1 (F := Ideal)) W (Proc.devRef .tc main_v23) = W (Proc.devRef .tc main_v23) := by
  dsimp only [hostOps3_1]
  after_results_simp
theorem ops31_v21 : StableHlo.after (hostOps3_1 (F := Ideal)) W (Proc.devRef .tc main_v21) = W (Proc.devRef .tc main_v21) := by
  dsimp only [hostOps3_1]
  after_results_simp

theorem ops32_v40 : StableHlo.after (hostOps3_2 (F := Ideal)) W (Proc.devRef .tc main_v40)
    = Host.divf (W (Proc.devRef .tc main_v37))
        (broadcastInDim S1x128 ![] bcast_S_S1x128 (maximumf (W (Proc.devRef .tc main_v28)) (constant (F := Ideal) S_ .f32 0x3F800000#32))) := by
  dsimp only [hostOps3_2]
  after_results
theorem ops32_v22 : StableHlo.after (hostOps3_2 (F := Ideal)) W (Proc.devRef .tc main_v22) = W (Proc.devRef .tc main_v22) := by
  dsimp only [hostOps3_2]
  after_results
theorem ops32_v23 : StableHlo.after (hostOps3_2 (F := Ideal)) W (Proc.devRef .tc main_v23) = W (Proc.devRef .tc main_v23) := by
  dsimp only [hostOps3_2]
  after_results
theorem ops32_v21 : StableHlo.after (hostOps3_2 (F := Ideal)) W (Proc.devRef .tc main_v21) = W (Proc.devRef .tc main_v21) := by
  dsimp only [hostOps3_2]
  after_results

/-- The three stretches together: the weights row of the second counts row. -/
theorem weights2 :
    StableHlo.after (hostOps3_2 (F := Ideal)) (StableHlo.after hostOps3_1 (StableHlo.after hostOps3 W)) (Proc.devRef .tc main_v40)
      = weightsRow (W (Proc.devRef .tc main_v24)) := by
  rw [ops32_v40, ops31_v37, ops31_v28, ops3_v32, ops3_v36, ops3_cst14, ops3_v28]
  rfl
theorem keep2_v22 :
    StableHlo.after (hostOps3_2 (F := Ideal)) (StableHlo.after hostOps3_1 (StableHlo.after hostOps3 W)) (Proc.devRef .tc main_v22)
      = W (Proc.devRef .tc main_v22) := by rw [ops32_v22, ops31_v22, ops3_v22]
theorem keep2_v23 :
    StableHlo.after (hostOps3_2 (F := Ideal)) (StableHlo.after hostOps3_1 (StableHlo.after hostOps3 W)) (Proc.devRef .tc main_v23)
      = W (Proc.devRef .tc main_v23) := by rw [ops32_v23, ops31_v23, ops3_v23]
theorem keep2_v21 :
    StableHlo.after (hostOps3_2 (F := Ideal)) (StableHlo.after hostOps3_1 (StableHlo.after hostOps3 W)) (Proc.devRef .tc main_v21)
      = W (Proc.devRef .tc main_v21) := by rw [ops32_v21, ops31_v21, ops3_v21]

/-! ## After the second loss launch: the second loss and the mean -/

theorem ops4_v43 : StableHlo.after (hostOps4 (F := Ideal)) W (Proc.devRef .tc main_v43)
    = Host.divf (shapeCast S_ (W (Proc.devRef .tc main_v41)) shapeCasts_S1x1_S_) (constant (F := Ideal) S_ .f32 0x4B400000#32) := by
  dsimp only [hostOps4]
  after_results
  rfl
theorem ops4_v45 : StableHlo.after (hostOps4 (F := Ideal)) W (Proc.devRef .tc main_v45)
    = mulf (addf (W (Proc.devRef .tc main_v21))
        (Host.divf (shapeCast S_ (W (Proc.devRef .tc main_v41)) shapeCasts_S1x1_S_) (constant (F := Ideal) S_ .f32 0x4B400000#32)))
        (constant (F := Ideal) S_ .f32 0x3F000000#32) := by
  dsimp only [hostOps4]
  after_results
  rfl
theorem ops4_v21 : StableHlo.after (hostOps4 (F := Ideal)) W (Proc.devRef .tc main_v21) = W (Proc.devRef .tc main_v21) := by
  dsimp only [hostOps4]
  after_results

end Cert.KernelIdeal.HostLines
end
-- ==== Proof.WeightsRow.lean ====
/-
  The weights row, read at the ten bins.

  If the row of counts holds, in the lane whose number is w, the ten shares [w = b]·cnt b of a histogram cnt, then
  the host's weights row holds in lane b (b = 0 … 9) exactly the histogram's weight of bin b: pointwise the host's
  chain is the weight formula; the number of non-empty lanes among the 128 is the number of non-empty bins; and
  lane b of such a row holds cnt b.
-/
import proofs.«176825_j1932735283876_1_alg».proof.Proof.HostLines
import proofs.«176825_j1932735283876_1_alg».proof.Proof.HistStep
import proofs.«176825_j1932735283876_1_alg».proof.Proof.Lanes
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.HostLines

open Cert.KernelIdeal Cert.KernelIdeal.Gen Cert.BinLoss Cert.KernelIdeal.HistValue

/-- The host's sum of the 0/1 marks "this lane is non-empty" over the row: zero plus the sum over all lanes. -/
theorem lanes_in_use (c : FVec Ideal S1x128 .f32) (j : S_.Idx) :
    Host.reduceAdd (F := Ideal) (uitofp .f32 (cmpf .ogt c (broadcastInDim S1x128 ![] bcast_S_S1x128 (constant (F := Ideal) S_ .f32 0x00000000#32))))
        (constant (F := Ideal) S_ .f32 0x00000000#32) reducesTo_S1x128_S_d0_1 h_S_ j
      = lit 0x00000000#32 + ∑ l : S1x128.Idx, FloatOps.uitofp (F := Ideal) .f32 (nonEmpty (c l)) :=
  Ideal.hostReduceAdd_total reducesTo_S1x128_S_d0_1 (fun b => b.elim0) _ _ j

/-- The weights row at a lane: the weight formula of the lane's count and the number of non-empty lanes. -/
theorem weightsRow_apply (c : FVec Ideal S1x128 .f32) (l : S1x128.Idx) :
    weightsRow c l = binWeight (c l) (lit 0x00000000#32 + ∑ l' : S1x128.Idx, FloatOps.uitofp (F := Ideal) .f32 (nonEmpty (c l'))) := by
  unfold weightsRow binWeight
  show FloatOps.hostDivf _ (FloatOps.maximumf (Host.reduceAdd (F := Ideal) _ _ _ _ _) _) = _
  rw [lanes_in_use]
  rfl

/-- The number of a lane is its second coordinate. -/
theorem laneWords_ix2 (j : Fin 128) : laneWords (ix2 (0 : Fin 1) j) = BitVec.ofNat 32 j.val := by
  show BitVec.ofNat 32 (0 * 128 + j.val) = _
  rw [Nat.zero_mul, Nat.zero_add]

/-- The lane asked for by a bin word has that word as its number. -/
theorem laneWords_laneIdx (b : Fin 10) : laneWords (laneIdx (binWord b)) = binWord b := by
  unfold laneIdx
  rw [laneWords_ix2]
  fin_cases b <;> rfl

/-- For a row that spreads a histogram over the lanes, the weights row's lane b is the histogram's weight of bin b. -/
theorem weights_of_counts (cnt : BitVec 32 → R) (c : FVec Ideal S1x128 .f32)
    (hc : ∀ l, c l = rowOfWord cnt (laneWords l)) (b : Fin 10) :
    laneWeights (weightsRow c) (binWord b) = weights cnt (binWord b) := by
  unfold laneWeights weights
  rw [weightsRow_apply, hc, laneWords_laneIdx, rowOfWord_binWord]
  congr 1
  rw [lit_zero, zero_add, sum_idx2, Fin.sum_univ_one]
  rw [← nBins_lanes cnt]
  refine Finset.sum_congr rfl fun j _ => ?_
  rw [hc, laneWords_ix2]

end Cert.KernelIdeal.HostLines

end
-- ==== Proof.LossTerm.lean ====
/-
  The loss kernel's body at one grid point, its parts shared by both launches.

  At a point the body holds two blocks x, y of four 512×512 planes and the row w of 128 lanes. It forms, element by
  element, the gap g = |x − y|, the bin k = min (trunc (10 g)) 9, the weight (lane k of the row when g < 1 + 1e-6,
  else 0) and the term sqrt ((weight · g) · g + 1e-12); it sums the terms over the whole block and adds the sum to the
  1×1 cell it carries from point to point.

  Here: the sum over a whole block as the body takes it (the block under a leading unit axis, summed over its three
  long axes into one cell, the cell extracted) is the plain finite sum over the block's elements, a reshape being a
  re-indexing by a bijection; and a load of the 1×1 rectangle at (0, b) of the row reads lane b.
-/
import proofs.«176825_j1932735283876_1_alg».proof.Proof.Spec
import proofs.«176825_j1932735283876_1_alg».proof.Proof.Gen.KernelIdeal.Skeleton
import Idealize.ShloMosaic.Lib.Pipeline.Value
import Idealize.ShloMosaic.PureOps.Ideal.Laws

noncomputable section

namespace Cert.KernelIdeal.LossValue

open Idealize.ShloMosaic Cert.KernelIdeal Cert.BinLoss

theorem hz2 : (![0, 0] : Fin 2 → Nat) = fun _ => 0 := funext fun a => by fin_cases a <;> rfl
theorem hz3 : (![0, 0, 0] : Fin 3 → Nat) = fun _ => 0 := funext fun a => by fin_cases a <;> rfl

/-- The sum over all of a block of 4 planes, as the body takes it: the block re-read under a leading unit axis, summed
    over its three long axes into one cell, and that cell extracted — the sum over every element of the block. -/
theorem blockTotal (v : FVec Ideal S4x512x512 .f32) (hc : S4x512x512.ShapeCasts S1x4x512x512)
    (hr : S1x4x512x512.Reduces [1, 2, 3] S1) (hφ : FKind.Formats .f32)
    (hacc : (0x00000000#32 : BitVec 32) = FKind.add.neutral .f32 hφ) (hc' : S1.ShapeCasts S1x1x1x1)
    (hp : ∀ a, (![0, 0, 0, 0] : Fin 4 → Nat) a < S1x1x1x1.size a) :
    extractAt ![0, 0, 0, 0] (shapeCast S1x1x1x1 (multiReduction .add [1, 2, 3] S1 (shapeCast S1x4x512x512 v hc) 0x00000000#32 hr hφ hacc) hc') hp
      = ∑ i, v i := by
  unfold extractAt
  show multiReduction .add [1, 2, 3] S1 (shapeCast S1x4x512x512 v hc) 0x00000000#32 hr hφ hacc _ = _
  refine (Ideal.multiReduction_add_total (shapeCast S1x4x512x512 v hc) 0x00000000#32 hr (fun b => by
    match b with
    | ⟨0, _⟩ => rfl) hφ hacc _).trans ?_
  exact Equiv.sum_comp (Shape.reshapeEquiv hc) v

/-- Lane b of the row, as the 1×1 vector a load of it yields. -/
abbrev lane (w : Vec Ideal S1x128 .f32) (b : BitVec 32) : Vec Ideal S1x1 .f32 := fun _ => laneWeights w b

/-- A load of the 1×1 rectangle at (0, b) of the row reads its lane b. -/
theorem ld_lane (w : Vec Ideal S1x128 .f32) (b : Nat) (k : BitVec 32) (hk : k.toNat % 128 = b)
    (inb : ∀ a, (![0, b] : Fin 2 → Nat) a + (![1, 1] : Fin 2 → Nat) a ≤ S1x128.size a) :
    View.ld w (Rect.unit ![0, b] ![1, 1] inb) = lane w k := by
  funext x
  show w ((Rect.unit ![0, b] ![1, 1] inb).idx x) = w (laneIdx k)
  refine congrArg w (funext fun a => Fin.ext ?_)
  have x0 : (x 0).val < 1 := (x 0).isLt
  have x1 : (x 1).val < 1 := (x 1).isLt
  match a with
  | ⟨0, _⟩ => show 0 + 1 * (x 0).val = 0; omega
  | ⟨1, _⟩ => show b + 1 * (x 1).val = k.toNat % 128; omega

end Cert.KernelIdeal.LossValue

end
-- ==== Proof.LossPay1.lean ====
/-
  The first (4 points) launch of the loss kernel: what its body stores in the 1×1 cell at a point.

  Element by element over a block (x, y) with the row w: the gap |x − y|, its bin min (trunc (10 g)) 9, the range
  test g < 1 + 1e-6, the ten nested choices among the row's lanes 0 … 9 by the bin (bin 9 outermost) and the term
  sqrt ((weight · g) · g + 1e-12) are the specification's, so the stored value is the cell's previous contents plus the
  sum over the block of the specification's terms.
-/
import proofs.«176825_j1932735283876_1_alg».proof.Proof.LossTerm

noncomputable section

namespace Cert.KernelIdeal.LossValue.R1

open Idealize.ShloMosaic Cert.KernelIdeal Cert.KernelIdeal.Gen Cert.BinLoss Cert.KernelIdeal.LossValue

/-- The gap |x − y|, element by element. -/
theorem pay3_eq (x y : Vec Ideal S4x512x512 .f32) : k1_pay3 x y = fun i => gap (x i) (y i) := by
  unfold k1_pay3
  dsimp only
  rw [shapeCast_self, shapeCast_self]
  rfl

/-- Its bin min (trunc (10 g)) 9. -/
theorem pay4_eq (x y : Vec Ideal S4x512x512 .f32) : k1_pay4 x y = fun i => bin (gap (x i) (y i)) := by
  unfold k1_pay4
  dsimp only
  rw [pay3_eq]
  rfl

/-- The range test g < 1 + 1e-6. -/
theorem pay5_eq (x y : Vec Ideal S4x512x512 .f32) : k1_pay5 x y = fun i => inRange (gap (x i) (y i)) := by
  unfold k1_pay5
  dsimp only
  rw [pay3_eq]
  rfl

/-- The choices among bins 0, 1, 2 (innermost three), by the element's bin. -/
theorem pay6_eq (x y : Vec Ideal S4x512x512 .f32) (w : Vec Ideal S1x128 .f32) :
    k1_pay6 x y (lane w 0#32) (lane w 1#32) (lane w 2#32) = fun i =>
      Scalar.select (IntOp.cmpi .eq (bin (gap (x i) (y i))) 2#32) (laneWeights w 2#32)
      (Scalar.select (IntOp.cmpi .eq (bin (gap (x i) (y i))) 1#32) (laneWeights w 1#32)
      (Scalar.select (IntOp.cmpi .eq (bin (gap (x i) (y i))) 0#32) (laneWeights w 0#32) (lit 0x00000000#32))) := by
  unfold k1_pay6
  dsimp only
  rw [pay4_eq]
  rfl

/-- The choices among bins 3 … 8 around an inner choice v. -/
theorem pay7_eq (k : IVec S4x512x512 32) (v : FVec Ideal S4x512x512 .f32) (w : Vec Ideal S1x128 .f32) :
    k1_pay7 k v (lane w 3#32) (lane w 4#32) (lane w 5#32) (lane w 6#32) (lane w 7#32) (lane w 8#32) = fun i =>
      Scalar.select (IntOp.cmpi .eq (k i) 8#32) (laneWeights w 8#32)
      (Scalar.select (IntOp.cmpi .eq (k i) 7#32) (laneWeights w 7#32)
      (Scalar.select (IntOp.cmpi .eq (k i) 6#32) (laneWeights w 6#32)
      (Scalar.select (IntOp.cmpi .eq (k i) 5#32) (laneWeights w 5#32)
      (Scalar.select (IntOp.cmpi .eq (k i) 4#32) (laneWeights w 4#32)
      (Scalar.select (IntOp.cmpi .eq (k i) 3#32) (laneWeights w 3#32) (v i)))))) := by
  unfold k1_pay7
  rfl

/-- The test for bin 9 and the weight of bin 9. -/
theorem pay8_eq (k : IVec S4x512x512 32) : k1_pay8 k = fun i => IntOp.cmpi .eq (k i) 9#32 := by
  unfold k1_pay8
  rfl
theorem pay9_eq (w : Vec Ideal S1x128 .f32) : k1_pay9 (lane w 9#32) = fun _ => laneWeights w 9#32 := by
  unfold k1_pay9
  rfl

/-- Element by element the body's summand is the specification's term: the gap, its bin, the range test, the ten
    nested choices among the row's lanes 0 … 9 (bin 9 outermost), and sqrt ((w·g)·g + 1e-12). -/
theorem summand_eq (x y : Vec Ideal S4x512x512 .f32) (w : Vec Ideal S1x128 .f32) :
    sqrt (addf (mulf (mulf
      (select (k1_pay5 x y)
        (select (k1_pay8 (k1_pay4 x y)) (k1_pay9 (lane w 9#32))
          (k1_pay7 (k1_pay4 x y) (k1_pay6 x y (lane w 0#32) (lane w 1#32) (lane w 2#32))
            (lane w 3#32) (lane w 4#32) (lane w 5#32) (lane w 6#32) (lane w 7#32) (lane w 8#32)))
        (broadcast S4x512x512 (Scalar.ofBits .f32 0x00000000#32)))
      (k1_pay3 x y)) (k1_pay3 x y)) (broadcast S4x512x512 (Scalar.ofBits .f32 0x2B8CBCCC#32)))
      = fun i => term (laneWeights w) (x i) (y i) := by
  rw [pay5_eq, pay8_eq, pay9_eq, pay7_eq, pay6_eq, pay4_eq, pay3_eq]
  rfl

/-- Adding a broadcast scalar to a 1×1 vector adds the scalar at its one index. -/
theorem addf_broadcast (X : Vec Ideal S1x1 .f32) (E : Ideal .f32) : addf X (broadcast S1x1 E) = fun j => X j + E := rfl

/-- The stored value in terms of the body's intermediate vectors: the cell's previous contents plus the sum over the
    block of sqrt ((weight · g) · g + 1e-12), the weight being the chosen lane where the range test holds, else 0. -/
theorem pay1_open (v8 : FVec Ideal S4x512x512 .f32) (v15 : IVec S4x512x512 1) (v70 : FVec Ideal S4x512x512 .f32)
    (v74 : IVec S4x512x512 1) (v75 : FVec Ideal S4x512x512 .f32) (v88 : Vec Ideal S1x1 .f32) :
    k1_pay1 v8 v15 v70 v74 v75 v88 = fun j => v88 j + ∑ i,
      sqrt (addf (mulf (mulf (select v15 (select v74 v75 v70) (broadcast S4x512x512 (Scalar.ofBits .f32 0x00000000#32))) v8) v8)
        (broadcast S4x512x512 (Scalar.ofBits .f32 0x2B8CBCCC#32))) i := by
  unfold k1_pay1
  dsimp only
  rw [shapeCast_self, addf_broadcast]
  funext j
  exact congrArg (fun z => v88 j + z) (blockTotal _ _ _ _ _ _ _)

/-- What the body stores in the 1×1 cell: the cell's previous contents plus the sum over the block of the terms. -/
theorem pay_eq (x y : Vec Ideal S4x512x512 .f32) (w : Vec Ideal S1x128 .f32) (xo : Vec Ideal S1x1 .f32) :
    k1_pay1 (k1_pay3 x y) (k1_pay5 x y)
      (k1_pay7 (k1_pay4 x y) (k1_pay6 x y (lane w 0#32) (lane w 1#32) (lane w 2#32))
            (lane w 3#32) (lane w 4#32) (lane w 5#32) (lane w 6#32) (lane w 7#32) (lane w 8#32))
      (k1_pay8 (k1_pay4 x y)) (k1_pay9 (lane w 9#32)) xo
      = fun j => xo j + ∑ i, term (laneWeights w) (x i) (y i) := by
  rw [pay1_open, summand_eq]

end Cert.KernelIdeal.LossValue.R1

end
-- ==== Proof.LossPiece1.lean ====
/-
  The first (4 points) launch of the loss kernel: what the body leaves in the 1×1 cell after a point.

  The body's last store covers the cell, so what the cell holds afterwards is that store's value: computed from the
  two blocks and the row as the body loaded them whole (the ten weights through 1×1 loads of the row's lanes 0 … 9),
  and from the cell's contents before — the zeros the body has itself just stored at the first point, what the point
  before left at a later one. So after the first point the cell holds the sum over the block of the terms, and after
  a later point what it held plus that sum.
-/
import proofs.«176825_j1932735283876_1_alg».proof.Proof.LossPay1
import proofs.«176825_j1932735283876_1_alg».proof.Proof.Gen.KernelIdeal.Frame
import Idealize.ShloMosaic.Lib.Tactic

noncomputable section

open Idealize.ShloMosaic Idealize.ShloMosaic.TcCoe Idealize.SL.Sem
open Idealize.ShloMosaic.Pipeline (Dat)

namespace Cert.KernelIdeal.LossValue.R1

open Cert.KernelIdeal Cert.KernelIdeal.Gen Cert.BinLoss Cert.KernelIdeal.LossValue

/-- The body's one store at a later point, as the payload of its loads. -/
theorem out_B_pay (c : Dev nD) (i : grid1.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : ¬cond1_0 i)
    (x0 x1 : Vec Ideal S4x512x512 .f32) (x2 : Vec Ideal S1x128 .f32) (xo : Vec Ideal S1x1 .f32) :
    out1_B_3 (F := Ideal) c i a1 h1 a2 h2 a3 h3 a4 h4 hc x0 x1 x2 xo
      = k1_pay1 (k1_pay3 x0 x1) (k1_pay5 x0 x1)
          (k1_pay7 (k1_pay4 x0 x1) (k1_pay6 x0 x1 (lane x2 0#32) (lane x2 1#32) (lane x2 2#32))
            (lane x2 3#32) (lane x2 4#32) (lane x2 5#32) (lane x2 6#32) (lane x2 7#32) (lane x2 8#32))
          (k1_pay8 (k1_pay4 x0 x1)) (k1_pay9 (lane x2 9#32)) xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz2]
  simp only [View.readAt_eq_ld, h1.read_unread, h2.read_unread, h3.read_unread, h4.read_unread,
    View.ld_unit_zero (S := S4x512x512) hz3, View.ld_unit_zero (S := S1x1) hz2]
  rw [ld_lane x2 0 0#32 rfl, ld_lane x2 1 1#32 rfl, ld_lane x2 2 2#32 rfl, ld_lane x2 3 3#32 rfl, ld_lane x2 4 4#32 rfl,
    ld_lane x2 5 5#32 rfl, ld_lane x2 6 6#32 rfl, ld_lane x2 7 7#32 rfl, ld_lane x2 8 8#32 rfl, ld_lane x2 9 9#32 rfl]

/-- The body's last store at the first point, over the zeros it has just stored. -/
theorem out_A_pay (c : Dev nD) (i : grid1.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : cond1_0 i)
    (x0 x1 : Vec Ideal S4x512x512 .f32) (x2 : Vec Ideal S1x128 .f32) :
    out1_A_3 (F := Ideal) c i a1 h1 a2 h2 a3 h3 a4 h4 hc x0 x1 x2
      = k1_pay1 (k1_pay3 x0 x1) (k1_pay5 x0 x1)
          (k1_pay7 (k1_pay4 x0 x1) (k1_pay6 x0 x1 (lane x2 0#32) (lane x2 1#32) (lane x2 2#32))
            (lane x2 3#32) (lane x2 4#32) (lane x2 5#32) (lane x2 6#32) (lane x2 7#32) (lane x2 8#32))
          (k1_pay8 (k1_pay4 x0 x1)) (k1_pay9 (lane x2 9#32)) (k1_pay2 (F := Ideal)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S4x512x512) hz3]
  rw [ld_lane x2 0 0#32 rfl, ld_lane x2 1 1#32 rfl, ld_lane x2 2 2#32 rfl, ld_lane x2 3 3#32 rfl, ld_lane x2 4 4#32 rfl,
    ld_lane x2 5 5#32 rfl, ld_lane x2 6 6#32 rfl, ld_lane x2 7 7#32 rfl, ld_lane x2 8 8#32 rfl, ld_lane x2 9 9#32 rfl]

/-- At a later point the body leaves, in the 1×1 cell holding xo, xo plus the sum over the block of the terms. -/
theorem out_B (c : Dev nD) (i : grid1.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : ¬cond1_0 i)
    (x0 x1 : Vec Ideal S4x512x512 .f32) (x2 : Vec Ideal S1x128 .f32) (xo : Vec Ideal S1x1 .f32) :
    out1_B_3 (F := Ideal) c i a1 h1 a2 h2 a3 h3 a4 h4 hc x0 x1 x2 xo
      = fun j => xo j + ∑ e, term (laneWeights x2) (x0 e) (x1 e) :=
  (out_B_pay c i a1 h1 a2 h2 a3 h3 a4 h4 hc x0 x1 x2 xo).trans (pay_eq x0 x1 x2 xo)

/-- At the first point the body stores zeros in the cell first, so it leaves the sum over the block of the terms. -/
theorem out_A (c : Dev nD) (i : grid1.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : cond1_0 i)
    (x0 x1 : Vec Ideal S4x512x512 .f32) (x2 : Vec Ideal S1x128 .f32) :
    out1_A_3 (F := Ideal) c i a1 h1 a2 h2 a3 h3 a4 h4 hc x0 x1 x2
      = fun _ => ∑ e, term (laneWeights x2) (x0 e) (x1 e) := by
  refine ((out_A_pay c i a1 h1 a2 h2 a3 h3 a4 h4 hc x0 x1 x2).trans (pay_eq x0 x1 x2 (k1_pay2 (F := Ideal)))).trans ?_
  funext j
  show Ideal.ofBits .f32 0x00000000#32 + _ = _
  rw [Ideal.ofBits_zero_f32, zero_add]

end Cert.KernelIdeal.LossValue.R1

end
-- ==== Proof.LossArr1.lean ====
/-
  The first (4 points, 16 planes) launch of the loss kernel: what the 1×1 result ends holding.

  The grid walks the two arrays block by block, four planes at a time (element y of block t is element
  (4t + y₀, y₁, y₂) of the array); the row of weights is the same whole row at every point, and the 1×1 cell is
  carried from point to point and written back once, after the last point. After the first point the cell holds the
  sum of the terms over block 0; each later point adds the sum over its own block; so after point n it holds the sum
  of the block sums of points 0 … n (induction on the point), and after the last point the sum over all the blocks.
  Every element of an array lies in exactly one block, and a finite sum of extended reals may be taken block by
  block, so that is the sum of the terms over the whole arrays.
-/
import proofs.«176825_j1932735283876_1_alg».proof.Proof.LossPiece1
import proofs.«176825_j1932735283876_1_alg».proof.Proof.Blocks
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LossValue

open Cert.KernelIdeal Cert.KernelIdeal.Gen Cert.BinLoss

variable (V : (c : Dev nD) → (b : Ref sig .tc) → Buf (Elt Ideal) ((c : Thread nD τ).loc b)) (c : Dev nD)

/-- Where the windows' blocks sit at point t: the two arrays' at plane block t, the row's and the cell's at 0. -/
theorem idx_facts1 : ∀ t : Fin cfg1.N,
    (win1_0.index t 0 = t.val ∧ win1_0.index t 1 = 0 ∧ win1_0.index t 2 = 0)
    ∧ (win1_1.index t 0 = t.val ∧ win1_1.index t 1 = 0 ∧ win1_1.index t 2 = 0)
    ∧ (win1_2.index t 0 = 0 ∧ win1_2.index t 1 = 0)
    ∧ (win1_3.index t 0 = 0 ∧ win1_3.index t 1 = 0) :=
  (by decide +kernel : ∀ t : Fin grid1.N, _)

/-- Block t of the first array: element y of it is element (4t + y₀, y₁, y₂) of the array. -/
theorem iblk1_0_eq (t : Fin cfg1.N) (ht : t.val < 4) :
    (iblk1 (F := Ideal) V c 0 t : Vec Ideal S4x512x512 .f32)
      = fun y => (V c main_v0 : S16x512x512.Idx → Ideal .f32) (Cert.Blocks.elem (N := 16) (T := 4) rfl ⟨t.val, ht⟩ y) := by
  have hi := (idx_facts1 t).1
  funext j
  unfold iblk1
  rw [View.read_apply]
  show V c main_v0 _ = V c main_v0 _
  refine congrArg (V c main_v0) (funext fun a => Fin.ext ?_)
  match a with
  | ⟨0, _⟩ => show win1_0.index t 0 * 4 + 1 * (j 0).val = 4 * t.val + (j 0).val; rw [hi.1]; omega
  | ⟨1, _⟩ => show win1_0.index t 1 * 512 + 1 * (j 1).val = (j 1).val; rw [hi.2.1]; omega
  | ⟨2, _⟩ => show win1_0.index t 2 * 512 + 1 * (j 2).val = (j 2).val; rw [hi.2.2]; omega

/-- Block t of the second array, likewise. -/
theorem iblk1_1_eq (t : Fin cfg1.N) (ht : t.val < 4) :
    (iblk1 (F := Ideal) V c 1 t : Vec Ideal S4x512x512 .f32)
      = fun y => (V c main_v1 : S16x512x512.Idx → Ideal .f32) (Cert.Blocks.elem (N := 16) (T := 4) rfl ⟨t.val, ht⟩ y) := by
  have hi := (idx_facts1 t).2.1
  funext j
  unfold iblk1
  rw [View.read_apply]
  show V c main_v1 _ = V c main_v1 _
  refine congrArg (V c main_v1) (funext fun a => Fin.ext ?_)
  match a with
  | ⟨0, _⟩ => show win1_1.index t 0 * 4 + 1 * (j 0).val = 4 * t.val + (j 0).val; rw [hi.1]; omega
  | ⟨1, _⟩ => show win1_1.index t 1 * 512 + 1 * (j 1).val = (j 1).val; rw [hi.2.1]; omega
  | ⟨2, _⟩ => show win1_1.index t 2 * 512 + 1 * (j 2).val = (j 2).val; rw [hi.2.2]; omega

/-- The row's block at every point is the whole row. -/
theorem iblk1_2_eq (t : Fin cfg1.N) :
    (iblk1 (F := Ideal) V c 2 t : Vec Ideal S1x128 .f32) = (V c main_v18 : S1x128.Idx → Ideal .f32) := by
  have hi := (idx_facts1 t).2.2.1
  have hz' : (fun a => win1_2.index t a * main_v18.ty.shape.size a) = fun _ => 0 := funext fun a => by
    match a with
    | ⟨0, _⟩ => show win1_2.index t 0 * 1 = 0; rw [hi.1]
    | ⟨1, _⟩ => show win1_2.index t 1 * 128 = 0; rw [hi.2]
  exact Memref.read_access_unit_zero (Elt Ideal) main_v18 hz' (fun a => by rw [congrFun hz' a]; simp) (V c main_v18)

/-- The sum of the terms over the block of point t. -/
def blockSum1 (t : Fin cfg1.N) : Ideal .f32 :=
  ∑ e : S4x512x512.Idx, term (laneWeights (iblk1 (F := Ideal) V c 2 t : Vec Ideal S1x128 .f32))
    ((iblk1 (F := Ideal) V c 0 t : Vec Ideal S4x512x512 .f32) e) ((iblk1 (F := Ideal) V c 1 t : Vec Ideal S4x512x512 .f32) e)

/-- What the cell holds after point n: the sum of the block sums of the points 0 … n — by induction on the point
    (the first point starts from zeros, each later one adds its block's sum to what the point before left). -/
theorem outsAt1_eq : ∀ (n : ℕ) (h : n < cfg1.N),
    outsAt1 (F := Ideal) V c n h = fun _ => ∑ k ∈ Finset.range (n + 1), if hk : k < cfg1.N then blockSum1 V c ⟨k, hk⟩ else 0
  | 0, h => by
    refine ((outsAt1_A V c ⟨0, h⟩ rfl).trans (R1.out_A ..)).trans ?_
    funext _
    rw [Finset.sum_range_one, dif_pos h]
    rfl
  | n + 1, h => by
    have hN : cfg1.N = 4 := N_1
    have hB : ¬(⟨n + 1, h⟩ : Fin cfg1.N).val % 4 = 0 := by dsimp only; omega
    refine ((outsAt1_B V c ⟨n + 1, h⟩ hB).trans (R1.out_B ..)).trans ?_
    funext j
    show outsAt1 V c n _ j + _ = _
    rw [outsAt1_eq n, Finset.sum_range_succ _ (n + 1), dif_pos h]
    rfl

/-- The block sums of all the points add up to the sum of the terms over the whole arrays: every element of an array
    lies in exactly one block, and the row is the same at every point. -/
theorem total1 : (∑ t : Fin cfg1.N, blockSum1 V c t)
    = sumTerms (laneWeights (V c main_v18)) (V c main_v0) (V c main_v1) := by
  refine Eq.trans ?_ (Cert.Blocks.sum_blocks (N := 16) (T := 4) rfl
    (fun e => term (laneWeights (V c main_v18)) ((V c main_v0 : S16x512x512.Idx → Ideal .f32) e) ((V c main_v1 : S16x512x512.Idx → Ideal .f32) e)))
  show (∑ t : Fin 4, blockSum1 V c t) = _
  refine Finset.sum_congr rfl fun t _ => ?_
  unfold blockSum1
  rw [iblk1_0_eq V c t t.isLt, iblk1_1_eq V c t t.isLt, iblk1_2_eq V c t]

/-- What the cell's array ends holding: the sum of the terms over the whole arrays. -/
abbrev result1 : Buf (Elt Ideal) ((c : Thread nD τ).loc main_v19) :=
  fun _ => sumTerms (laneWeights (V c main_v18)) (V c main_v0) (V c main_v1)

/-- After the last point the cell holds it. -/
theorem outs_last1 (t : Fin cfg1.N) (h3 : t.val = 3) : outsAt1 (F := Ideal) V c t.val t.isLt = result1 V c := by
  rw [outsAt1_eq]
  funext _
  show _ = sumTerms (laneWeights (V c main_v18)) (V c main_v0) (V c main_v1)
  rw [h3, ← total1 V c, Finset.sum_fin_eq_sum_range]
  exact Finset.sum_congr (congrArg Finset.range (N_1.symm : 3 + 1 = cfg1.N)) (fun _ _ => rfl)

/-- The one write-back, after the last point, writes it: the cell's block is its whole 1×1 array. -/
theorem flushed1_eq (t : Fin cfg1.N) (hf : (cfg1.win 3).flush t = true) :
    (dat1 (F := Ideal) V c).flushed 3 t = ((cfg1.win 3).blk t).view.read (Elt Ideal) (result1 V c) := by
  have hN : cfg1.N = 4 := N_1
  have h3 : t.val = 3 := by have := (flush1_3 t).mp hf; have := t.isLt; omega
  obtain rfl : t = t1_3 := Fin.ext h3
  show (cfg1.win 3).cut (grid1.coords t1_3) ((dat1 V c).after 3 t1_3) = _
  rw [after1_3, outs_last1 V c t1_3 rfl]
  have hz' : (fun a => win1_3.index t1_3 a * main_v19.ty.shape.size a) = fun _ => 0 := funext fun a => by fin_cases a <;> decide
  exact (Memref.read_access_unit_zero (Elt Ideal) main_v19 hz' (fun a => by rw [congrFun hz' a]; simp) (result1 V c)).symm

/-- So the cell's array ends holding the sum of the terms over the whole arrays, under the row's weights. -/
theorem arr1 : (dat1 (F := Ideal) V c).arrAt 3 cfg1.N
    = fun _ => sumTerms (laneWeights (V c main_v18)) (V c main_v0) (V c main_v1) :=
  (dat1 V c).arrAt_eq_of_cover 3 (result1 V c) (flushed1_eq V c) fun i =>
    ⟨t1_3, (flush1_3 t1_3).mpr rfl, by
      show i ∈ ((View.whole main_v19).slice (win1_3.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 1 from by decide +kernel]; omega⟩

end Cert.KernelIdeal.LossValue

end
-- ==== Proof.LossPay3.lean ====
/-
  The second (12 points) launch of the loss kernel: what its body stores in the 1×1 cell at a point.

  Element by element over a block (x, y) with the row w: the gap |x − y|, its bin min (trunc (10 g)) 9, the range
  test g < 1 + 1e-6, the ten nested choices among the row's lanes 0 … 9 by the bin (bin 9 outermost) and the term
  sqrt ((weight · g) · g + 1e-12) are the specification's, so the stored value is the cell's previous contents plus the
  sum over the block of the specification's terms.
-/
import proofs.«176825_j1932735283876_1_alg».proof.Proof.LossTerm

noncomputable section

namespace Cert.KernelIdeal.LossValue.R3

open Idealize.ShloMosaic Cert.KernelIdeal Cert.KernelIdeal.Gen Cert.BinLoss Cert.KernelIdeal.LossValue

/-- The gap |x − y|, element by element. -/
theorem pay3_eq (x y : Vec Ideal S4x512x512 .f32) : k3_pay3 x y = fun i => gap (x i) (y i) := by
  unfold k3_pay3
  dsimp only
  rw [shapeCast_self, shapeCast_self]
  rfl

/-- Its bin min (trunc (10 g)) 9. -/
theorem pay4_eq (x y : Vec Ideal S4x512x512 .f32) : k3_pay4 x y = fun i => bin (gap (x i) (y i)) := by
  unfold k3_pay4
  dsimp only
  rw [pay3_eq]
  rfl

/-- The range test g < 1 + 1e-6. -/
theorem pay5_eq (x y : Vec Ideal S4x512x512 .f32) : k3_pay5 x y = fun i => inRange (gap (x i) (y i)) := by
  unfold k3_pay5
  dsimp only
  rw [pay3_eq]
  rfl

/-- The choices among bins 0, 1, 2 (innermost three), by the element's bin. -/
theorem pay6_eq (x y : Vec Ideal S4x512x512 .f32) (w : Vec Ideal S1x128 .f32) :
    k3_pay6 x y (lane w 0#32) (lane w 1#32) (lane w 2#32) = fun i =>
      Scalar.select (IntOp.cmpi .eq (bin (gap (x i) (y i))) 2#32) (laneWeights w 2#32)
      (Scalar.select (IntOp.cmpi .eq (bin (gap (x i) (y i))) 1#32) (laneWeights w 1#32)
      (Scalar.select (IntOp.cmpi .eq (bin (gap (x i) (y i))) 0#32) (laneWeights w 0#32) (lit 0x00000000#32))) := by
  unfold k3_pay6
  dsimp only
  rw [pay4_eq]
  rfl

/-- The choices among bins 3 … 8 around an inner choice v. -/
theorem pay7_eq (k : IVec S4x512x512 32) (v : FVec Ideal S4x512x512 .f32) (w : Vec Ideal S1x128 .f32) :
    k3_pay7 k v (lane w 3#32) (lane w 4#32) (lane w 5#32) (lane w 6#32) (lane w 7#32) (lane w 8#32) = fun i =>
      Scalar.select (IntOp.cmpi .eq (k i) 8#32) (laneWeights w 8#32)
      (Scalar.select (IntOp.cmpi .eq (k i) 7#32) (laneWeights w 7#32)
      (Scalar.select (IntOp.cmpi .eq (k i) 6#32) (laneWeights w 6#32)
      (Scalar.select (IntOp.cmpi .eq (k i) 5#32) (laneWeights w 5#32)
      (Scalar.select (IntOp.cmpi .eq (k i) 4#32) (laneWeights w 4#32)
      (Scalar.select (IntOp.cmpi .eq (k i) 3#32) (laneWeights w 3#32) (v i)))))) := by
  unfold k3_pay7
  rfl

/-- The test for bin 9 and the weight of bin 9. -/
theorem pay8_eq (k : IVec S4x512x512 32) : k3_pay8 k = fun i => IntOp.cmpi .eq (k i) 9#32 := by
  unfold k3_pay8
  rfl
theorem pay9_eq (w : Vec Ideal S1x128 .f32) : k3_pay9 (lane w 9#32) = fun _ => laneWeights w 9#32 := by
  unfold k3_pay9
  rfl

/-- Element by element the body's summand is the specification's term: the gap, its bin, the range test, the ten
    nested choices among the row's lanes 0 … 9 (bin 9 outermost), and sqrt ((w·g)·g + 1e-12). -/
theorem summand_eq (x y : Vec Ideal S4x512x512 .f32) (w : Vec Ideal S1x128 .f32) :
    sqrt (addf (mulf (mulf
      (select (k3_pay5 x y)
        (select (k3_pay8 (k3_pay4 x y)) (k3_pay9 (lane w 9#32))
          (k3_pay7 (k3_pay4 x y) (k3_pay6 x y (lane w 0#32) (lane w 1#32) (lane w 2#32))
            (lane w 3#32) (lane w 4#32) (lane w 5#32) (lane w 6#32) (lane w 7#32) (lane w 8#32)))
        (broadcast S4x512x512 (Scalar.ofBits .f32 0x00000000#32)))
      (k3_pay3 x y)) (k3_pay3 x y)) (broadcast S4x512x512 (Scalar.ofBits .f32 0x2B8CBCCC#32)))
      = fun i => term (laneWeights w) (x i) (y i) := by
  rw [pay5_eq, pay8_eq, pay9_eq, pay7_eq, pay6_eq, pay4_eq, pay3_eq]
  rfl

/-- Adding a broadcast scalar to a 1×1 vector adds the scalar at its one index. -/
theorem addf_broadcast (X : Vec Ideal S1x1 .f32) (E : Ideal .f32) : addf X (broadcast S1x1 E) = fun j => X j + E := rfl

/-- The stored value in terms of the body's intermediate vectors: the cell's previous contents plus the sum over the
    block of sqrt ((weight · g) · g + 1e-12), the weight being the chosen lane where the range test holds, else 0. -/
theorem pay3_open (v8 : FVec Ideal S4x512x512 .f32) (v15 : IVec S4x512x512 1) (v70 : FVec Ideal S4x512x512 .f32)
    (v74 : IVec S4x512x512 1) (v75 : FVec Ideal S4x512x512 .f32) (v88 : Vec Ideal S1x1 .f32) :
    k3_pay1 v8 v15 v70 v74 v75 v88 = fun j => v88 j + ∑ i,
      sqrt (addf (mulf (mulf (select v15 (select v74 v75 v70) (broadcast S4x512x512 (Scalar.ofBits .f32 0x00000000#32))) v8) v8)
        (broadcast S4x512x512 (Scalar.ofBits .f32 0x2B8CBCCC#32))) i := by
  unfold k3_pay1
  dsimp only
  rw [shapeCast_self, addf_broadcast]
  funext j
  exact congrArg (fun z => v88 j + z) (blockTotal _ _ _ _ _ _ _)

/-- What the body stores in the 1×1 cell: the cell's previous contents plus the sum over the block of the terms. -/
theorem pay_eq (x y : Vec Ideal S4x512x512 .f32) (w : Vec Ideal S1x128 .f32) (xo : Vec Ideal S1x1 .f32) :
    k3_pay1 (k3_pay3 x y) (k3_pay5 x y)
      (k3_pay7 (k3_pay4 x y) (k3_pay6 x y (lane w 0#32) (lane w 1#32) (lane w 2#32))
            (lane w 3#32) (lane w 4#32) (lane w 5#32) (lane w 6#32) (lane w 7#32) (lane w 8#32))
      (k3_pay8 (k3_pay4 x y)) (k3_pay9 (lane w 9#32)) xo
      = fun j => xo j + ∑ i, term (laneWeights w) (x i) (y i) := by
  rw [pay3_open, summand_eq]

end Cert.KernelIdeal.LossValue.R3

end
-- ==== Proof.LossPiece3.lean ====
/-
  The second (12 points) launch of the loss kernel: what the body leaves in the 1×1 cell after a point.

  The body's last store covers the cell, so what the cell holds afterwards is that store's value: computed from the
  two blocks and the row as the body loaded them whole (the ten weights through 1×1 loads of the row's lanes 0 … 9),
  and from the cell's contents before — the zeros the body has itself just stored at the first point, what the point
  before left at a later one. So after the first point the cell holds the sum over the block of the terms, and after
  a later point what it held plus that sum.
-/
import proofs.«176825_j1932735283876_1_alg».proof.Proof.LossPay3
import proofs.«176825_j1932735283876_1_alg».proof.Proof.Gen.KernelIdeal.Frame
import Idealize.ShloMosaic.Lib.Tactic

noncomputable section

open Idealize.ShloMosaic Idealize.ShloMosaic.TcCoe Idealize.SL.Sem
open Idealize.ShloMosaic.Pipeline (Dat)

namespace Cert.KernelIdeal.LossValue.R3

open Cert.KernelIdeal Cert.KernelIdeal.Gen Cert.BinLoss Cert.KernelIdeal.LossValue

/-- The body's one store at a later point, as the payload of its loads. -/
theorem out_B_pay (c : Dev nD) (i : grid3.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : ¬cond3_0 i)
    (x0 x1 : Vec Ideal S4x512x512 .f32) (x2 : Vec Ideal S1x128 .f32) (xo : Vec Ideal S1x1 .f32) :
    out3_B_3 (F := Ideal) c i a1 h1 a2 h2 a3 h3 a4 h4 hc x0 x1 x2 xo
      = k3_pay1 (k3_pay3 x0 x1) (k3_pay5 x0 x1)
          (k3_pay7 (k3_pay4 x0 x1) (k3_pay6 x0 x1 (lane x2 0#32) (lane x2 1#32) (lane x2 2#32))
            (lane x2 3#32) (lane x2 4#32) (lane x2 5#32) (lane x2 6#32) (lane x2 7#32) (lane x2 8#32))
          (k3_pay8 (k3_pay4 x0 x1)) (k3_pay9 (lane x2 9#32)) xo := by
  unfold out3_B_3
  rw [View.read_writes_eq_canon _ _ _ (cover3_B_3 c i a1 h1 a2 h2 a3 h3 a4 h4 hc x0 x1 x2 xo)]
  unfold kernelRun3_B
  dsimp only
  sl_unfold_words
  rw [View.canon_unit_zero hz2]
  simp only [View.readAt_eq_ld, h1.read_unread, h2.read_unread, h3.read_unread, h4.read_unread,
    View.ld_unit_zero (S := S4x512x512) hz3, View.ld_unit_zero (S := S1x1) hz2]
  rw [ld_lane x2 0 0#32 rfl, ld_lane x2 1 1#32 rfl, ld_lane x2 2 2#32 rfl, ld_lane x2 3 3#32 rfl, ld_lane x2 4 4#32 rfl,
    ld_lane x2 5 5#32 rfl, ld_lane x2 6 6#32 rfl, ld_lane x2 7 7#32 rfl, ld_lane x2 8 8#32 rfl, ld_lane x2 9 9#32 rfl]

/-- The body's last store at the first point, over the zeros it has just stored. -/
theorem out_A_pay (c : Dev nD) (i : grid3.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : cond3_0 i)
    (x0 x1 : Vec Ideal S4x512x512 .f32) (x2 : Vec Ideal S1x128 .f32) :
    out3_A_3 (F := Ideal) c i a1 h1 a2 h2 a3 h3 a4 h4 hc x0 x1 x2
      = k3_pay1 (k3_pay3 x0 x1) (k3_pay5 x0 x1)
          (k3_pay7 (k3_pay4 x0 x1) (k3_pay6 x0 x1 (lane x2 0#32) (lane x2 1#32) (lane x2 2#32))
            (lane x2 3#32) (lane x2 4#32) (lane x2 5#32) (lane x2 6#32) (lane x2 7#32) (lane x2 8#32))
          (k3_pay8 (k3_pay4 x0 x1)) (k3_pay9 (lane x2 9#32)) (k3_pay2 (F := Ideal)) := by
  unfold out3_A_3
  rw [View.read_writes_eq_canon _ _ _ (cover3_A_3 c i a1 h1 a2 h2 a3 h3 a4 h4 hc x0 x1 x2)]
  unfold kernelRun3_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S4x512x512) hz3]
  rw [ld_lane x2 0 0#32 rfl, ld_lane x2 1 1#32 rfl, ld_lane x2 2 2#32 rfl, ld_lane x2 3 3#32 rfl, ld_lane x2 4 4#32 rfl,
    ld_lane x2 5 5#32 rfl, ld_lane x2 6 6#32 rfl, ld_lane x2 7 7#32 rfl, ld_lane x2 8 8#32 rfl, ld_lane x2 9 9#32 rfl]

/-- At a later point the body leaves, in the 1×1 cell holding xo, xo plus the sum over the block of the terms. -/
theorem out_B (c : Dev nD) (i : grid3.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : ¬cond3_0 i)
    (x0 x1 : Vec Ideal S4x512x512 .f32) (x2 : Vec Ideal S1x128 .f32) (xo : Vec Ideal S1x1 .f32) :
    out3_B_3 (F := Ideal) c i a1 h1 a2 h2 a3 h3 a4 h4 hc x0 x1 x2 xo
      = fun j => xo j + ∑ e, term (laneWeights x2) (x0 e) (x1 e) :=
  (out_B_pay c i a1 h1 a2 h2 a3 h3 a4 h4 hc x0 x1 x2 xo).trans (pay_eq x0 x1 x2 xo)

/-- At the first point the body stores zeros in the cell first, so it leaves the sum over the block of the terms. -/
theorem out_A (c : Dev nD) (i : grid3.Coords) (a1 : Memref sig .tc .vmem S4x512x512 .f32) (h1 : a1.IsWhole)
    (a2 : Memref sig .tc .vmem S4x512x512 .f32) (h2 : a2.IsWhole) (a3 : Memref sig .tc .vmem S1x128 .f32) (h3 : a3.IsWhole)
    (a4 : Memref sig .tc .vmem S1x1 .f32) (h4 : a4.IsWhole) (hc : cond3_0 i)
    (x0 x1 : Vec Ideal S4x512x512 .f32) (x2 : Vec Ideal S1x128 .f32) :
    out3_A_3 (F := Ideal) c i a1 h1 a2 h2 a3 h3 a4 h4 hc x0 x1 x2
      = fun _ => ∑ e, term (laneWeights x2) (x0 e) (x1 e) := by
  refine ((out_A_pay c i a1 h1 a2 h2 a3 h3 a4 h4 hc x0 x1 x2).trans (pay_eq x0 x1 x2 (k3_pay2 (F := Ideal)))).trans ?_
  funext j
  show Ideal.ofBits .f32 0x00000000#32 + _ = _
  rw [Ideal.ofBits_zero_f32, zero_add]

end Cert.KernelIdeal.LossValue.R3

end
-- ==== Proof.LossArr3.lean ====
/-
  The second (12 points, 48 planes) launch of the loss kernel: what the 1×1 result ends holding.

  The grid walks the two arrays block by block, four planes at a time (element y of block t is element
  (4t + y₀, y₁, y₂) of the array); the row of weights is the same whole row at every point, and the 1×1 cell is
  carried from point to point and written back once, after the last point. After the first point the cell holds the
  sum of the terms over block 0; each later point adds the sum over its own block; so after point n it holds the sum
  of the block sums of points 0 … n (induction on the point), and after the last point the sum over all the blocks.
  Every element of an array lies in exactly one block, and a finite sum of extended reals may be taken block by
  block, so that is the sum of the terms over the whole arrays.
-/
import proofs.«176825_j1932735283876_1_alg».proof.Proof.LossPiece3
import proofs.«176825_j1932735283876_1_alg».proof.Proof.Blocks
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LossValue

open Cert.KernelIdeal Cert.KernelIdeal.Gen Cert.BinLoss

variable (V : (c : Dev nD) → (b : Ref sig .tc) → Buf (Elt Ideal) ((c : Thread nD τ).loc b)) (c : Dev nD)

/-- Where the windows' blocks sit at point t: the two arrays' at plane block t, the row's and the cell's at 0. -/
theorem idx_facts3 : ∀ t : Fin cfg3.N,
    (win3_0.index t 0 = t.val ∧ win3_0.index t 1 = 0 ∧ win3_0.index t 2 = 0)
    ∧ (win3_1.index t 0 = t.val ∧ win3_1.index t 1 = 0 ∧ win3_1.index t 2 = 0)
    ∧ (win3_2.index t 0 = 0 ∧ win3_2.index t 1 = 0)
    ∧ (win3_3.index t 0 = 0 ∧ win3_3.index t 1 = 0) :=
  (by decide +kernel : ∀ t : Fin grid3.N, _)

/-- Block t of the first array: element y of it is element (4t + y₀, y₁, y₂) of the array. -/
theorem iblk3_0_eq (t : Fin cfg3.N) (ht : t.val < 12) :
    (iblk3 (F := Ideal) V c 0 t : Vec Ideal S4x512x512 .f32)
      = fun y => (V c main_v22 : S48x512x512.Idx → Ideal .f32) (Cert.Blocks.elem (N := 48) (T := 12) rfl ⟨t.val, ht⟩ y) := by
  have hi := (idx_facts3 t).1
  funext j
  unfold iblk3
  rw [View.read_apply]
  show V c main_v22 _ = V c main_v22 _
  refine congrArg (V c main_v22) (funext fun a => Fin.ext ?_)
  match a with
  | ⟨0, _⟩ => show win3_0.index t 0 * 4 + 1 * (j 0).val = 4 * t.val + (j 0).val; rw [hi.1]; omega
  | ⟨1, _⟩ => show win3_0.index t 1 * 512 + 1 * (j 1).val = (j 1).val; rw [hi.2.1]; omega
  | ⟨2, _⟩ => show win3_0.index t 2 * 512 + 1 * (j 2).val = (j 2).val; rw [hi.2.2]; omega

/-- Block t of the second array, likewise. -/
theorem iblk3_1_eq (t : Fin cfg3.N) (ht : t.val < 12) :
    (iblk3 (F := Ideal) V c 1 t : Vec Ideal S4x512x512 .f32)
      = fun y => (V c main_v23 : S48x512x512.Idx → Ideal .f32) (Cert.Blocks.elem (N := 48) (T := 12) rfl ⟨t.val, ht⟩ y) := by
  have hi := (idx_facts3 t).2.1
  funext j
  unfold iblk3
  rw [View.read_apply]
  show V c main_v23 _ = V c main_v23 _
  refine congrArg (V c main_v23) (funext fun a => Fin.ext ?_)
  match a with
  | ⟨0, _⟩ => show win3_1.index t 0 * 4 + 1 * (j 0).val = 4 * t.val + (j 0).val; rw [hi.1]; omega
  | ⟨1, _⟩ => show win3_1.index t 1 * 512 + 1 * (j 1).val = (j 1).val; rw [hi.2.1]; omega
  | ⟨2, _⟩ => show win3_1.index t 2 * 512 + 1 * (j 2).val = (j 2).val; rw [hi.2.2]; omega

/-- The row's block at every point is the whole row. -/
theorem iblk3_2_eq (t : Fin cfg3.N) :
    (iblk3 (F := Ideal) V c 2 t : Vec Ideal S1x128 .f32) = (V c main_v40 : S1x128.Idx → Ideal .f32) := by
  have hi := (idx_facts3 t).2.2.1
  have hz' : (fun a => win3_2.index t a * main_v40.ty.shape.size a) = fun _ => 0 := funext fun a => by
    match a with
    | ⟨0, _⟩ => show win3_2.index t 0 * 1 = 0; rw [hi.1]
    | ⟨1, _⟩ => show win3_2.index t 1 * 128 = 0; rw [hi.2]
  exact Memref.read_access_unit_zero (Elt Ideal) main_v40 hz' (fun a => by rw [congrFun hz' a]; simp) (V c main_v40)

/-- The sum of the terms over the block of point t. -/
def blockSum3 (t : Fin cfg3.N) : Ideal .f32 :=
  ∑ e : S4x512x512.Idx, term (laneWeights (iblk3 (F := Ideal) V c 2 t : Vec Ideal S1x128 .f32))
    ((iblk3 (F := Ideal) V c 0 t : Vec Ideal S4x512x512 .f32) e) ((iblk3 (F := Ideal) V c 1 t : Vec Ideal S4x512x512 .f32) e)

/-- What the cell holds after point n: the sum of the block sums of the points 0 … n — by induction on the point
    (the first point starts from zeros, each later one adds its block's sum to what the point before left). -/
theorem outsAt3_eq : ∀ (n : ℕ) (h : n < cfg3.N),
    outsAt3 (F := Ideal) V c n h = fun _ => ∑ k ∈ Finset.range (n + 1), if hk : k < cfg3.N then blockSum3 V c ⟨k, hk⟩ else 0
  | 0, h => by
    refine ((outsAt3_A V c ⟨0, h⟩ rfl).trans (R3.out_A ..)).trans ?_
    funext _
    rw [Finset.sum_range_one, dif_pos h]
    rfl
  | n + 1, h => by
    have hN : cfg3.N = 12 := N_3
    have hB : ¬(⟨n + 1, h⟩ : Fin cfg3.N).val % 12 = 0 := by dsimp only; omega
    refine ((outsAt3_B V c ⟨n + 1, h⟩ hB).trans (R3.out_B ..)).trans ?_
    funext j
    show outsAt3 V c n _ j + _ = _
    rw [outsAt3_eq n, Finset.sum_range_succ _ (n + 1), dif_pos h]
    rfl

/-- The block sums of all the points add up to the sum of the terms over the whole arrays: every element of an array
    lies in exactly one block, and the row is the same at every point. -/
theorem total3 : (∑ t : Fin cfg3.N, blockSum3 V c t)
    = sumTerms (laneWeights (V c main_v40)) (V c main_v22) (V c main_v23) := by
  refine Eq.trans ?_ (Cert.Blocks.sum_blocks (N := 48) (T := 12) rfl
    (fun e => term (laneWeights (V c main_v40)) ((V c main_v22 : S48x512x512.Idx → Ideal .f32) e) ((V c main_v23 : S48x512x512.Idx → Ideal .f32) e)))
  show (∑ t : Fin 12, blockSum3 V c t) = _
  refine Finset.sum_congr rfl fun t _ => ?_
  unfold blockSum3
  rw [iblk3_0_eq V c t t.isLt, iblk3_1_eq V c t t.isLt, iblk3_2_eq V c t]

/-- What the cell's array ends holding: the sum of the terms over the whole arrays. -/
abbrev result3 : Buf (Elt Ideal) ((c : Thread nD τ).loc main_v41) :=
  fun _ => sumTerms (laneWeights (V c main_v40)) (V c main_v22) (V c main_v23)

/-- After the last point the cell holds it. -/
theorem outs_last3 (t : Fin cfg3.N) (h3 : t.val = 11) : outsAt3 (F := Ideal) V c t.val t.isLt = result3 V c := by
  rw [outsAt3_eq]
  funext _
  show _ = sumTerms (laneWeights (V c main_v40)) (V c main_v22) (V c main_v23)
  rw [h3, ← total3 V c, Finset.sum_fin_eq_sum_range]
  exact Finset.sum_congr (congrArg Finset.range (N_3.symm : 11 + 1 = cfg3.N)) (fun _ _ => rfl)

/-- The one write-back, after the last point, writes it: the cell's block is its whole 1×1 array. -/
theorem flushed3_eq (t : Fin cfg3.N) (hf : (cfg3.win 3).flush t = true) :
    (dat3 (F := Ideal) V c).flushed 3 t = ((cfg3.win 3).blk t).view.read (Elt Ideal) (result3 V c) := by
  have hN : cfg3.N = 12 := N_3
  have h3 : t.val = 11 := by have := (flush3_3 t).mp hf; have := t.isLt; omega
  obtain rfl : t = t3_11 := Fin.ext h3
  show (cfg3.win 3).cut (grid3.coords t3_11) ((dat3 V c).after 3 t3_11) = _
  rw [after3_3, outs_last3 V c t3_11 rfl]
  have hz' : (fun a => win3_3.index t3_11 a * main_v41.ty.shape.size a) = fun _ => 0 := funext fun a => by fin_cases a <;> decide
  exact (Memref.read_access_unit_zero (Elt Ideal) main_v41 hz' (fun a => by rw [congrFun hz' a]; simp) (result3 V c)).symm

/-- So the cell's array ends holding the sum of the terms over the whole arrays, under the row's weights. -/
theorem arr3 : (dat3 (F := Ideal) V c).arrAt 3 cfg3.N
    = fun _ => sumTerms (laneWeights (V c main_v40)) (V c main_v22) (V c main_v23) :=
  (dat3 V c).arrAt_eq_of_cover 3 (result3 V c) (flushed3_eq V c) fun i =>
    ⟨t3_11, (flush3_3 t3_11).mpr rfl, by
      show i ∈ ((View.whole main_v41).slice (win3_3.rect t3_11)).set
      rw [View.set_slice_whole, Rect.mem_set_unit]
      intro a
      have h0 : (i 0 : Nat) < 1 := (i 0).isLt
      have h1 : (i 1 : Nat) < 1 := (i 1).isLt
      match a with
      | ⟨0, _⟩ => show win3_3.index t3_11 0 * win3_3.size 0 ≤ (i 0 : Nat) ∧ (i 0 : Nat) < win3_3.index t3_11 0 * win3_3.size 0 + win3_3.xsize (grid3.coords t3_11) 0
                  rw [show win3_3.index t3_11 0 * win3_3.size 0 = 0 from by decide +kernel, show win3_3.xsize (grid3.coords t3_11) 0 = 1 from by decide +kernel]; omega
      | ⟨1, _⟩ => show win3_3.index t3_11 1 * win3_3.size 1 ≤ (i 1 : Nat) ∧ (i 1 : Nat) < win3_3.index t3_11 1 * win3_3.size 1 + win3_3.xsize (grid3.coords t3_11) 1
                  rw [show win3_3.index t3_11 1 * win3_3.size 1 = 0 from by decide +kernel, show win3_3.xsize (grid3.coords t3_11) 1 = 1 from by decide +kernel]; omega⟩

end Cert.KernelIdeal.LossValue

end
-- ==== Proof.KernelValue.lean ====
/-
  The idealized kernel's three results, as the specification's functions of its four argument arrays.

  Reading the fold of @main's segments backwards from each result: the first loss is the first loss launch's total
  over the number of elements; that total is the sum of the elements' terms under the weights row; the weights row
  is the host's image of the first histogram launch's row, whose lanes 0 … 9 hold the histogram of the two
  flattened arrays, so its lanes 0 … 9 are the histogram's weights; and the flattening is a re-indexing, under
  which the specification's sums do not change. The same for the second pair; the third result is their mean.
-/
import proofs.«176825_j1932735283876_1_alg».proof.Proof.KernelRun
import proofs.«176825_j1932735283876_1_alg».proof.Proof.HistFirst
import proofs.«176825_j1932735283876_1_alg».proof.Proof.HistSecond
import proofs.«176825_j1932735283876_1_alg».proof.Proof.HostLines
import proofs.«176825_j1932735283876_1_alg».proof.Proof.HostLines2
import proofs.«176825_j1932735283876_1_alg».proof.Proof.WeightsRow
import proofs.«176825_j1932735283876_1_alg».proof.Proof.LossArr1
import proofs.«176825_j1932735283876_1_alg».proof.Proof.LossArr3

set_option maxRecDepth 16384

noncomputable section

open Idealize.ShloMosaic Idealize.ShloMosaic.TcCoe Idealize.SL.Sem Idealize.ShloMosaic.StableHlo
open Idealize.ShloMosaic.Pipeline (Dat)

namespace Cert.KernelIdeal.Value

open Cert.KernelIdeal Cert.KernelIdeal.Gen Cert.BinLoss Cert.KernelIdeal.HostLines Cert.KernelIdeal.HistValue

variable (m : (ℓ : Loc nD τ sig) → Buf (Elt Ideal) ℓ) (ρ : Dev nD → PrngReg) (c : Dev nD)

/-! ## The first pair of arrays -/

/-- The first launches read the two arrays flattened to 16 planes. -/
theorem V1_v0 : V1 m ρ c main_v0
    = shapeCast S16x512x512 (m ((c : Thread nD τ).loc main_arg0)) shapeCasts_S16x1x512x512_S16x512x512 :=
  ops0_v0 (W0 m ρ c)
theorem V1_v1 : V1 m ρ c main_v1
    = shapeCast S16x512x512 (m ((c : Thread nD τ).loc main_arg1)) shapeCasts_S16x1x512x512_S16x512x512 :=
  ops0_v1 (W0 m ρ c)

/-- After the first histogram launch its output row spreads the flattened arrays' histogram over the lanes. -/
theorem W2_v2 (l : S1x128.Idx) : W2 m ρ c (Proc.devRef .tc main_v2) l
    = rowOfWord (BinLoss.count (V1 m ρ c main_v0) (V1 m ρ c main_v1)) (laneWords l) := by
  rw [show W2 m ρ c (Proc.devRef .tc main_v2) = (dat0 (V1 m ρ) c).arrAt 2 cfg0.N from W2_arr m ρ c 2, First.arr]
  exact First.result_apply (V1 m ρ) c l

/-- The launch leaves its two input arrays as they were. -/
theorem W2_v0 : W2 m ρ c (Proc.devRef .tc main_v0) = V1 m ρ c main_v0 := by
  rw [show W2 m ρ c (Proc.devRef .tc main_v0) = (dat0 (V1 m ρ) c).arrAt 0 cfg0.N from W2_arr m ρ c 0,
    (dat0 (V1 m ρ) c).arrAt_in 0 rfl, A_eq0]
theorem W2_v1 : W2 m ρ c (Proc.devRef .tc main_v1) = V1 m ρ c main_v1 := by
  rw [show W2 m ρ c (Proc.devRef .tc main_v1) = (dat0 (V1 m ρ) c).arrAt 1 cfg0.N from W2_arr m ρ c 1,
    (dat0 (V1 m ρ) c).arrAt_in 1 rfl, A_eq0]

/-- What the first loss launch reads: the weights row of that row, and the same two arrays. -/
theorem V5_v18 : V5 m ρ c main_v18 = weightsRow (W2 m ρ c (Proc.devRef .tc main_v2)) := weights1 (W2 m ρ c)
theorem V5_v0 : V5 m ρ c main_v0 = V1 m ρ c main_v0 := (keep1_v0 (W2 m ρ c)).trans (W2_v0 m ρ c)
theorem V5_v1 : V5 m ρ c main_v1 = V1 m ρ c main_v1 := (keep1_v1 (W2 m ρ c)).trans (W2_v1 m ρ c)

/-- The first loss launch's total is the specification's total of the two argument arrays. -/
theorem W6_v19 : W6 m ρ c (Proc.devRef .tc main_v19)
    = fun _ => total (m ((c : Thread nD τ).loc main_arg0)) (m ((c : Thread nD τ).loc main_arg1)) := by
  rw [show W6 m ρ c (Proc.devRef .tc main_v19) = (dat1 (V5 m ρ) c).arrAt 3 cfg1.N from W6_arr m ρ c 3,
    Cert.KernelIdeal.LossValue.arr1]
  funext _
  rw [V5_v18, V5_v0, V5_v1,
    sumTerms_congr (weights_of_counts (BinLoss.count (V1 m ρ c main_v0) (V1 m ρ c main_v1)) _ (W2_v2 m ρ c)),
    V1_v0, V1_v1]
  exact total_comp_equiv (Shape.reshapeEquiv shapeCasts_S16x1x512x512_S16x512x512) _ _

/-- The first loss. -/
theorem W7_v21 : W7 m ρ c (Proc.devRef .tc main_v21)
    = fun _ => loss (m ((c : Thread nD τ).loc main_arg0)) (m ((c : Thread nD τ).loc main_arg1)) 0x4A800000#32 := by
  rw [show W7 m ρ c (Proc.devRef .tc main_v21) = _ from ops2_v21 (W6 m ρ c), W6_v19]
  rfl

/-- Later segments leave the first loss alone. -/
theorem W12_v21 : W12 m ρ c (Proc.devRef .tc main_v21) = W7 m ρ c (Proc.devRef .tc main_v21) := by
  rw [W12_of_ne m ρ c main_v21 (by decide)]
  rw [show W11 m ρ c (Proc.devRef .tc main_v21) = W8 m ρ c (Proc.devRef .tc main_v21) from keep2_v21 (W8 m ρ c)]
  exact W8_of_ne m ρ c main_v21 (by decide)

/-! ## The second pair of arrays -/

/-- Up to the second histogram launch nothing has touched the third and fourth arguments. -/
theorem W6_arg2 : W6 m ρ c (Proc.devRef .tc main_arg2) = m ((c : Thread nD τ).loc main_arg2) := by
  rw [W6_of_ne m ρ c main_arg2 (by decide)]
  rw [show W5 m ρ c (Proc.devRef .tc main_arg2) = W2 m ρ c (Proc.devRef .tc main_arg2) from keep1_arg2 (W2 m ρ c)]
  rw [W2_of_ne m ρ c main_arg2 (by decide)]
  exact ops0_arg2 (W0 m ρ c)
theorem W6_arg3 : W6 m ρ c (Proc.devRef .tc main_arg3) = m ((c : Thread nD τ).loc main_arg3) := by
  rw [W6_of_ne m ρ c main_arg3 (by decide)]
  rw [show W5 m ρ c (Proc.devRef .tc main_arg3) = W2 m ρ c (Proc.devRef .tc main_arg3) from keep1_arg3 (W2 m ρ c)]
  rw [W2_of_ne m ρ c main_arg3 (by decide)]
  exact ops0_arg3 (W0 m ρ c)

/-- The second launches read the two arrays flattened to 48 planes. -/
theorem V7_v22 : V7 m ρ c main_v22
    = shapeCast S48x512x512 (m ((c : Thread nD τ).loc main_arg2)) shapeCasts_S16x3x512x512_S48x512x512 := by
  rw [show V7 m ρ c main_v22 = _ from ops2_v22 (W6 m ρ c), W6_arg2]
theorem V7_v23 : V7 m ρ c main_v23
    = shapeCast S48x512x512 (m ((c : Thread nD τ).loc main_arg3)) shapeCasts_S16x3x512x512_S48x512x512 := by
  rw [show V7 m ρ c main_v23 = _ from ops2_v23 (W6 m ρ c), W6_arg3]

/-- After the second histogram launch its output row spreads the flattened arrays' histogram over the lanes. -/
theorem W8_v24 (l : S1x128.Idx) : W8 m ρ c (Proc.devRef .tc main_v24) l
    = rowOfWord (BinLoss.count (V7 m ρ c main_v22) (V7 m ρ c main_v23)) (laneWords l) := by
  rw [show W8 m ρ c (Proc.devRef .tc main_v24) = (dat2 (V7 m ρ) c).arrAt 2 cfg2.N from W8_arr m ρ c 2, Second.arr]
  exact Second.result_apply (V7 m ρ) c l
theorem W8_v22 : W8 m ρ c (Proc.devRef .tc main_v22) = V7 m ρ c main_v22 := by
  rw [show W8 m ρ c (Proc.devRef .tc main_v22) = (dat2 (V7 m ρ) c).arrAt 0 cfg2.N from W8_arr m ρ c 0,
    (dat2 (V7 m ρ) c).arrAt_in 0 rfl, A_eq2]
theorem W8_v23 : W8 m ρ c (Proc.devRef .tc main_v23) = V7 m ρ c main_v23 := by
  rw [show W8 m ρ c (Proc.devRef .tc main_v23) = (dat2 (V7 m ρ) c).arrAt 1 cfg2.N from W8_arr m ρ c 1,
    (dat2 (V7 m ρ) c).arrAt_in 1 rfl, A_eq2]

theorem V11_v40 : V11 m ρ c main_v40 = weightsRow (W8 m ρ c (Proc.devRef .tc main_v24)) := weights2 (W8 m ρ c)
theorem V11_v22 : V11 m ρ c main_v22 = V7 m ρ c main_v22 := (keep2_v22 (W8 m ρ c)).trans (W8_v22 m ρ c)
theorem V11_v23 : V11 m ρ c main_v23 = V7 m ρ c main_v23 := (keep2_v23 (W8 m ρ c)).trans (W8_v23 m ρ c)

/-- The second loss launch's total is the specification's total of the third and fourth argument arrays. -/
theorem W12_v41 : W12 m ρ c (Proc.devRef .tc main_v41)
    = fun _ => total (m ((c : Thread nD τ).loc main_arg2)) (m ((c : Thread nD τ).loc main_arg3)) := by
  rw [show W12 m ρ c (Proc.devRef .tc main_v41) = (dat3 (V11 m ρ) c).arrAt 3 cfg3.N from W12_arr m ρ c 3,
    Cert.KernelIdeal.LossValue.arr3]
  funext _
  rw [V11_v40, V11_v22, V11_v23,
    sumTerms_congr (weights_of_counts (BinLoss.count (V7 m ρ c main_v22) (V7 m ρ c main_v23)) _ (W8_v24 m ρ c)),
    V7_v22, V7_v23]
  exact total_comp_equiv (Shape.reshapeEquiv shapeCasts_S16x3x512x512_S48x512x512) _ _

/-! ## The three results -/

/-- The first loss, at the end. -/
theorem W13_v21 : W13 m ρ c (Proc.devRef .tc main_v21)
    = fun _ => loss (m ((c : Thread nD τ).loc main_arg0)) (m ((c : Thread nD τ).loc main_arg1)) 0x4A800000#32 := by
  rw [show W13 m ρ c (Proc.devRef .tc main_v21) = W12 m ρ c (Proc.devRef .tc main_v21) from ops4_v21 (W12 m ρ c),
    W12_v21, W7_v21]

/-- The second loss. -/
theorem W13_v43 : W13 m ρ c (Proc.devRef .tc main_v43)
    = fun _ => loss (m ((c : Thread nD τ).loc main_arg2)) (m ((c : Thread nD τ).loc main_arg3)) 0x4B400000#32 := by
  rw [show W13 m ρ c (Proc.devRef .tc main_v43) = _ from ops4_v43 (W12 m ρ c), W12_v41]
  rfl

/-- Their mean. -/
theorem W13_v45 : W13 m ρ c (Proc.devRef .tc main_v45)
    = fun _ => mean (loss (m ((c : Thread nD τ).loc main_arg0)) (m ((c : Thread nD τ).loc main_arg1)) 0x4A800000#32)
        (loss (m ((c : Thread nD τ).loc main_arg2)) (m ((c : Thread nD τ).loc main_arg3)) 0x4B400000#32) := by
  rw [show W13 m ρ c (Proc.devRef .tc main_v45) = _ from ops4_v45 (W12 m ρ c), W12_v41, W12_v21, W7_v21]
  rfl

/-- The idealized kernel's run: every weakly fair execution terminates, nothing faulting, with the three results at
    the specification's mean and two losses of the argument arrays, and the arguments unchanged. -/
theorem run : θ_run defs (onTc (τ := τ) (main (F := Ideal))) ⟨m, fun _ => 0, ρ⟩ fun r => ∀ c : Dev nD,
      r.2.mem ((c : Thread nD τ).loc main_v45)
        = (fun _ => mean (loss (m ((c : Thread nD τ).loc main_arg0)) (m ((c : Thread nD τ).loc main_arg1)) 0x4A800000#32)
            (loss (m ((c : Thread nD τ).loc main_arg2)) (m ((c : Thread nD τ).loc main_arg3)) 0x4B400000#32))
      ∧ r.2.mem ((c : Thread nD τ).loc main_v21)
        = (fun _ => loss (m ((c : Thread nD τ).loc main_arg0)) (m ((c : Thread nD τ).loc main_arg1)) 0x4A800000#32)
      ∧ r.2.mem ((c : Thread nD τ).loc main_v43)
        = (fun _ => loss (m ((c : Thread nD τ).loc main_arg2)) (m ((c : Thread nD τ).loc main_arg3)) 0x4B400000#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c _ (mem_uc main_v45 (by decide))).trans (W13_v45 m ρ c),
     (h c _ (mem_uc main_v21 (by decide))).trans (W13_v21 m ρ c),
     (h c _ (mem_uc main_v43 (by decide))).trans (W13_v43 m ρ c),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c)⟩)
    (run_all m ρ)

end Cert.KernelIdeal.Value

end
-- ==== Proof.RefOps.lean ====
/-
  The reference program as a straight line of host operations, and its run as a fold. @main is one sequence of 143
  operations (the three outlined selects stand inline, three operations each, at their calls): the first seventy
  compute the first tensor's loss from the first two arguments, the next seventy the second tensor's loss from the
  last two, and the last three average the two. Every weakly fair execution terminates with each buffer at the fold
  of those operations over the launch contents.
-/
import proofs.«176825_j1932735283876_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The first tensor's seventy operations: from the first two arguments to its loss. -/
abbrev opsA : List (HloOp τ sig (Elt F)) :=
  [ binary main_arg0 main_arg1 main_v0 (subf : (⟨S16x1x512x512, .f32⟩ : BufTy).Contents (Elt F) → (⟨S16x1x512x512, .f32⟩ : BufTy).Contents (Elt F) → (⟨S16x1x512x512, .f32⟩ : BufTy).Contents (Elt F)),
    unary main_v0 main_v1 (Host.absf : (⟨S16x1x512x512, .f32⟩ : BufTy).Contents (Elt F) → (⟨S16x1x512x512, .f32⟩ : BufTy).Contents (Elt F)),
    nullary main_cst (constant (F := F) S_ .f32 0x41200000#32),
    unary main_cst main_v2 (broadcastInDim S16x1x512x512 ![] bcast_S_S16x1x512x512 : (⟨S_, .f32⟩ : BufTy).Contents (Elt F) → (⟨S16x1x512x512, .f32⟩ : BufTy).Contents (Elt F)),
    binary main_v1 main_v2 main_v3 (mulf : (⟨S16x1x512x512, .f32⟩ : BufTy).Contents (Elt F) → (⟨S16x1x512x512, .f32⟩ : BufTy).Contents (Elt F) → (⟨S16x1x512x512, .f32⟩ : BufTy).Contents (Elt F)),
    unary main_v3 main_v4 (fptosi 32 : (⟨S16x1x512x512, .f32⟩ : BufTy).Contents (Elt F) → (⟨S16x1x512x512, .i32⟩ : BufTy).Contents (Elt F)),
    nullary main_c (constantI S_ 32 9#32),
    unary main_c main_v5 (broadcastInDim S16x1x512x512 ![] bcast_S_S16x1x512x512 : (⟨S_, .i32⟩ : BufTy).Contents (Elt F) → (⟨S16x1x512x512, .i32⟩ : BufTy).Contents (Elt F)),
    binary main_v4 main_v5 main_v6 (minsi : (⟨S16x1x512x512, .i32⟩ : BufTy).Contents (Elt F) → (⟨S16x1x512x512, .i32⟩ : BufTy).Contents (Elt F) → (⟨S16x1x512x512, .i32⟩ : BufTy).Contents (Elt F)),
    nullary main_cst_0 (constant (F := F) S_ .f32 0x3F800008#32),
    unary main_cst_0 main_v7 (broadcastInDim S16x1x512x512 ![] bcast_S_S16x1x512x512 : (⟨S_, .f32⟩ : BufTy).Contents (Elt F) → (⟨S16x1x512x512, .f32⟩ : BufTy).Contents (Elt F)),
    binary main_v1 main_v7 main_v8 (cmpf .olt : (⟨S16x1x512x512, .f32⟩ : BufTy).Contents (Elt F) → (⟨S16x1x512x512, .f32⟩ : BufTy).Contents (Elt F) → (⟨S16x1x512x512, .i1⟩ : BufTy).Contents (Elt F)),
    unary main_v8 main_v9 (uitofp .f32 : (⟨S16x1x512x512, .i1⟩ : BufTy).Contents (Elt F) → (⟨S16x1x512x512, .f32⟩ : BufTy).Contents (Elt F)),
    reshape main_v9 main_v10 rfl shapeCasts_S16x1x512x512_S4194304,
    reshape main_v6 main_v11 rfl shapeCasts_S16x1x512x512_S4194304,
    nullary main_cst_1 (constant (F := F) S_ .f32 0x00000000#32),
    unary main_cst_1 main_v12 (broadcastInDim S10 ![] bcast_S_S10 : (⟨S_, .f32⟩ : BufTy).Contents (Elt F) → (⟨S10, .f32⟩ : BufTy).Contents (Elt F)),
    unary main_v11 main_v13 (broadcastInDim S4194304x1 ![0] bcast_S4194304_S4194304x1_0 : (⟨S4194304, .i32⟩ : BufTy).Contents (Elt F) → (⟨S4194304x1, .i32⟩ : BufTy).Contents (Elt F)),
    ternary main_v12 main_v13 main_v10 main_v14 ((fun x i u => Host.scatterAdd scatter_S10_S4194304x1_S4194304_n_0_0_1 x i u) : (⟨S10, .f32⟩ : BufTy).Contents (Elt F) → (⟨S4194304x1, .i32⟩ : BufTy).Contents (Elt F) → (⟨S4194304, .f32⟩ : BufTy).Contents (Elt F) → (⟨S10, .f32⟩ : BufTy).Contents (Elt F)),
    nullary main_cst_2 (constant (F := F) S_ .f32 0x00000000#32),
    unary main_cst_2 main_v15 (broadcastInDim S10 ![] bcast_S_S10 : (⟨S_, .f32⟩ : BufTy).Contents (Elt F) → (⟨S10, .f32⟩ : BufTy).Contents (Elt F)),
    binary main_v14 main_v15 main_v16 (cmpf .ogt : (⟨S10, .f32⟩ : BufTy).Contents (Elt F) → (⟨S10, .f32⟩ : BufTy).Contents (Elt F) → (⟨S10, .i1⟩ : BufTy).Contents (Elt F)),
    unary main_v16 main_v17 ((extui 32 · natLt_1_32) : (⟨S10, .i1⟩ : BufTy).Contents (Elt F) → (⟨S10, .i32⟩ : BufTy).Contents (Elt F)),
    nullary main_c_3 (constantI S_ 32 0#32),
    binary main_v17 main_c_3 main_v18 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v18 main_v19 (sitofp .f32 : (⟨S_, .i32⟩ : BufTy).Contents (Elt F) → (⟨S_, .f32⟩ : BufTy).Contents (Elt F)),
    nullary main_cst_4 (constant (F := F) S_ .f32 0x3F666666#32),
    unary main_cst_4 main_v20 (broadcastInDim S10 ![] bcast_S_S10 : (⟨S_, .f32⟩ : BufTy).Contents (Elt F) → (⟨S10, .f32⟩ : BufTy).Contents (Elt F)),
    binary main_v20 main_v14 main_v21 (mulf : (⟨S10, .f32⟩ : BufTy).Contents (Elt F) → (⟨S10, .f32⟩ : BufTy).Contents (Elt F) → (⟨S10, .f32⟩ : BufTy).Contents (Elt F)),
    nullary main_cst_5 (constant (F := F) S_ .f32 0x00000000#32),
    unary main_cst_5 main_v22 (broadcastInDim S10 ![] bcast_S_S10 : (⟨S_, .f32⟩ : BufTy).Contents (Elt F) → (⟨S10, .f32⟩ : BufTy).Contents (Elt F)),
    binary main_v14 main_v22 main_v23 (cmpf .ogt : (⟨S10, .f32⟩ : BufTy).Contents (Elt F) → (⟨S10, .f32⟩ : BufTy).Contents (Elt F) → (⟨S10, .i1⟩ : BufTy).Contents (Elt F)),
    nullary main_cst_6 (constant (F := F) S_ .f32 0x0DA24260#32),
    unary main_cst_6 main_v24 (broadcastInDim S10 ![] bcast_S_S10 : (⟨S_, .f32⟩ : BufTy).Contents (Elt F) → (⟨S10, .f32⟩ : BufTy).Contents (Elt F)),
    binary main_v21 main_v24 main_v25 (maximumf : (⟨S10, .f32⟩ : BufTy).Contents (Elt F) → (⟨S10, .f32⟩ : BufTy).Contents (Elt F) → (⟨S10, .f32⟩ : BufTy).Contents (Elt F)),
    nullary main_cst_7 (constant (F := F) S_ .f32 0x48800000#32),
    unary main_cst_7 main_v26 (broadcastInDim S10 ![] bcast_S_S10 : (⟨S_, .f32⟩ : BufTy).Contents (Elt F) → (⟨S10, .f32⟩ : BufTy).Contents (Elt F)),
    binary main_v26 main_v25 main_v27 (Host.divf : (⟨S10, .f32⟩ : BufTy).Contents (Elt F) → (⟨S10, .f32⟩ : BufTy).Contents (Elt F) → (⟨S10, .f32⟩ : BufTy).Contents (Elt F)),
    nullary main_cst_8 (constant (F := F) S_ .f32 0x00000000#32),
    TRef.unary (TRef.of (T := ⟨S_, .f32⟩) main_cst_8) main_call0.v0 id,
    TRef.unary main_call0.v0 main_call0.v1 (broadcastInDim S10 ![] bcast_S_S10),
    TRef.ternary (TRef.of (T := ⟨S10, .i1⟩) main_v23) (TRef.of (T := ⟨S10, .f32⟩) main_v27) main_call0.v1 main_call0.v2 select,
    nullary main_cst_9 (constant (F := F) S_ .f32 0x3F800000#32),
    binary main_v19 main_cst_9 main_v29 (maximumf : (⟨S_, .f32⟩ : BufTy).Contents (Elt F) → (⟨S_, .f32⟩ : BufTy).Contents (Elt F) → (⟨S_, .f32⟩ : BufTy).Contents (Elt F)),
    unary main_v29 main_v30 (broadcastInDim S10 ![] bcast_S_S10 : (⟨S_, .f32⟩ : BufTy).Contents (Elt F) → (⟨S10, .f32⟩ : BufTy).Contents (Elt F)),
    binary main_v28 main_v30 main_v31 (Host.divf : (⟨S10, .f32⟩ : BufTy).Contents (Elt F) → (⟨S10, .f32⟩ : BufTy).Contents (Elt F) → (⟨S10, .f32⟩ : BufTy).Contents (Elt F)),
    nullary main_c_10 (constantI S_ 32 0#32),
    unary main_c_10 main_v32 (broadcastInDim S16x1x512x512 ![] bcast_S_S16x1x512x512 : (⟨S_, .i32⟩ : BufTy).Contents (Elt F) → (⟨S16x1x512x512, .i32⟩ : BufTy).Contents (Elt F)),
    binary main_v6 main_v32 main_v33 (cmpi .slt : (⟨S16x1x512x512, .i32⟩ : BufTy).Contents (Elt F) → (⟨S16x1x512x512, .i32⟩ : BufTy).Contents (Elt F) → (⟨S16x1x512x512, .i1⟩ : BufTy).Contents (Elt F)),
    nullary main_c_11 (constantI S_ 32 10#32),
    unary main_c_11 main_v34 (broadcastInDim S16x1x512x512 ![] bcast_S_S16x1x512x512 : (⟨S_, .i32⟩ : BufTy).Contents (Elt F) → (⟨S16x1x512x512, .i32⟩ : BufTy).Contents (Elt F)),
    binary main_v6 main_v34 main_v35 (addi : (⟨S16x1x512x512, .i32⟩ : BufTy).Contents (Elt F) → (⟨S16x1x512x512, .i32⟩ : BufTy).Contents (Elt F) → (⟨S16x1x512x512, .i32⟩ : BufTy).Contents (Elt F)),
    ternary main_v33 main_v35 main_v6 main_v36 (select : (⟨S16x1x512x512, .i1⟩ : BufTy).Contents (Elt F) → (⟨S16x1x512x512, .i32⟩ : BufTy).Contents (Elt F) → (⟨S16x1x512x512, .i32⟩ : BufTy).Contents (Elt F) → (⟨S16x1x512x512, .i32⟩ : BufTy).Contents (Elt F)),
    unary main_v36 main_v37 (broadcastInDim S16x1x512x512x1 ![0, 1, 2, 3] bcast_S16x1x512x512_S16x1x512x512x1_0_1_2_3 : (⟨S16x1x512x512, .i32⟩ : BufTy).Contents (Elt F) → (⟨S16x1x512x512x1, .i32⟩ : BufTy).Contents (Elt F)),
    binary main_v31 main_v37 main_v38 ((fun x i => Host.gather gather_S10_S16x1x512x512x1_S16x1x512x512_n_0_n_n_0_4_1 x i) : (⟨S10, .f32⟩ : BufTy).Contents (Elt F) → (⟨S16x1x512x512x1, .i32⟩ : BufTy).Contents (Elt F) → (⟨S16x1x512x512, .f32⟩ : BufTy).Contents (Elt F)),
    nullary main_cst_12 (constant (F := F) S_ .f32 0x00000000#32),
    TRef.unary (TRef.of (T := ⟨S_, .f32⟩) main_cst_12) main_call1.v0 id,
    TRef.unary main_call1.v0 main_call1.v1 (broadcastInDim S16x1x512x512 ![] bcast_S_S16x1x512x512),
    TRef.ternary (TRef.of (T := ⟨S16x1x512x512, .i1⟩) main_v8) (TRef.of (T := ⟨S16x1x512x512, .f32⟩) main_v38) main_call1.v1 main_call1.v2 select,
    binary main_arg0 main_arg1 main_v40 (subf : (⟨S16x1x512x512, .f32⟩ : BufTy).Contents (Elt F) → (⟨S16x1x512x512, .f32⟩ : BufTy).Contents (Elt F) → (⟨S16x1x512x512, .f32⟩ : BufTy).Contents (Elt F)),
    binary main_v40 main_v40 main_v41 (mulf : (⟨S16x1x512x512, .f32⟩ : BufTy).Contents (Elt F) → (⟨S16x1x512x512, .f32⟩ : BufTy).Contents (Elt F) → (⟨S16x1x512x512, .f32⟩ : BufTy).Contents (Elt F)),
    binary main_v39 main_v41 main_v42 (mulf : (⟨S16x1x512x512, .f32⟩ : BufTy).Contents (Elt F) → (⟨S16x1x512x512, .f32⟩ : BufTy).Contents (Elt F) → (⟨S16x1x512x512, .f32⟩ : BufTy).Contents (Elt F)),
    nullary main_cst_13 (constant (F := F) S_ .f32 0x2B8CBCCC#32),
    unary main_cst_13 main_v43 (broadcastInDim S16x1x512x512 ![] bcast_S_S16x1x512x512 : (⟨S_, .f32⟩ : BufTy).Contents (Elt F) → (⟨S16x1x512x512, .f32⟩ : BufTy).Contents (Elt F)),
    binary main_v42 main_v43 main_v44 (addf : (⟨S16x1x512x512, .f32⟩ : BufTy).Contents (Elt F) → (⟨S16x1x512x512, .f32⟩ : BufTy).Contents (Elt F) → (⟨S16x1x512x512, .f32⟩ : BufTy).Contents (Elt F)),
    unary main_v44 main_v45 (Host.sqrt : (⟨S16x1x512x512, .f32⟩ : BufTy).Contents (Elt F) → (⟨S16x1x512x512, .f32⟩ : BufTy).Contents (Elt F)),
    nullary main_cst_14 (constant (F := F) S_ .f32 0x00000000#32),
    binary main_v45 main_cst_14 main_v46 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_15 (constant (F := F) S_ .f32 0x4A800000#32),
    binary main_v46 main_cst_15 main_v47 (Host.divf : (⟨S_, .f32⟩ : BufTy).Contents (Elt F) → (⟨S_, .f32⟩ : BufTy).Contents (Elt F) → (⟨S_, .f32⟩ : BufTy).Contents (Elt F)) ]

/-- The second tensor's seventy operations: from the last two arguments to its loss. -/
abbrev opsB : List (HloOp τ sig (Elt F)) :=
  [ binary main_arg2 main_arg3 main_v48 (subf : (⟨S16x3x512x512, .f32⟩ : BufTy).Contents (Elt F) → (⟨S16x3x512x512, .f32⟩ : BufTy).Contents (Elt F) → (⟨S16x3x512x512, .f32⟩ : BufTy).Contents (Elt F)),
    unary main_v48 main_v49 (Host.absf : (⟨S16x3x512x512, .f32⟩ : BufTy).Contents (Elt F) → (⟨S16x3x512x512, .f32⟩ : BufTy).Contents (Elt F)),
    nullary main_cst_16 (constant (F := F) S_ .f32 0x41200000#32),
    unary main_cst_16 main_v50 (broadcastInDim S16x3x512x512 ![] bcast_S_S16x3x512x512 : (⟨S_, .f32⟩ : BufTy).Contents (Elt F) → (⟨S16x3x512x512, .f32⟩ : BufTy).Contents (Elt F)),
    binary main_v49 main_v50 main_v51 (mulf : (⟨S16x3x512x512, .f32⟩ : BufTy).Contents (Elt F) → (⟨S16x3x512x512, .f32⟩ : BufTy).Contents (Elt F) → (⟨S16x3x512x512, .f32⟩ : BufTy).Contents (Elt F)),
    unary main_v51 main_v52 (fptosi 32 : (⟨S16x3x512x512, .f32⟩ : BufTy).Contents (Elt F) → (⟨S16x3x512x512, .i32⟩ : BufTy).Contents (Elt F)),
    nullary main_c_17 (constantI S_ 32 9#32),
    unary main_c_17 main_v53 (broadcastInDim S16x3x512x512 ![] bcast_S_S16x3x512x512 : (⟨S_, .i32⟩ : BufTy).Contents (Elt F) → (⟨S16x3x512x512, .i32⟩ : BufTy).Contents (Elt F)),
    binary main_v52 main_v53 main_v54 (minsi : (⟨S16x3x512x512, .i32⟩ : BufTy).Contents (Elt F) → (⟨S16x3x512x512, .i32⟩ : BufTy).Contents (Elt F) → (⟨S16x3x512x512, .i32⟩ : BufTy).Contents (Elt F)),
    nullary main_cst_18 (constant (F := F) S_ .f32 0x3F800008#32),
    unary main_cst_18 main_v55 (broadcastInDim S16x3x512x512 ![] bcast_S_S16x3x512x512 : (⟨S_, .f32⟩ : BufTy).Contents (Elt F) → (⟨S16x3x512x512, .f32⟩ : BufTy).Contents (Elt F)),
    binary main_v49 main_v55 main_v56 (cmpf .olt : (⟨S16x3x512x512, .f32⟩ : BufTy).Contents (Elt F) → (⟨S16x3x512x512, .f32⟩ : BufTy).Contents (Elt F) → (⟨S16x3x512x512, .i1⟩ : BufTy).Contents (Elt F)),
    unary main_v56 main_v57 (uitofp .f32 : (⟨S16x3x512x512, .i1⟩ : BufTy).Contents (Elt F) → (⟨S16x3x512x512, .f32⟩ : BufTy).Contents (Elt F)),
    reshape main_v57 main_v58 rfl shapeCasts_S16x3x512x512_S12582912,
    reshape main_v54 main_v59 rfl shapeCasts_S16x3x512x512_S12582912,
    nullary main_cst_19 (constant (F := F) S_ .f32 0x00000000#32),
    unary main_cst_19 main_v60 (broadcastInDim S10 ![] bcast_S_S10 : (⟨S_, .f32⟩ : BufTy).Contents (Elt F) → (⟨S10, .f32⟩ : BufTy).Contents (Elt F)),
    unary main_v59 main_v61 (broadcastInDim S12582912x1 ![0] bcast_S12582912_S12582912x1_0 : (⟨S12582912, .i32⟩ : BufTy).Contents (Elt F) → (⟨S12582912x1, .i32⟩ : BufTy).Contents (Elt F)),
    ternary main_v60 main_v61 main_v58 main_v62 ((fun x i u => Host.scatterAdd scatter_S10_S12582912x1_S12582912_n_0_0_1 x i u) : (⟨S10, .f32⟩ : BufTy).Contents (Elt F) → (⟨S12582912x1, .i32⟩ : BufTy).Contents (Elt F) → (⟨S12582912, .f32⟩ : BufTy).Contents (Elt F) → (⟨S10, .f32⟩ : BufTy).Contents (Elt F)),
    nullary main_cst_20 (constant (F := F) S_ .f32 0x00000000#32),
    unary main_cst_20 main_v63 (broadcastInDim S10 ![] bcast_S_S10 : (⟨S_, .f32⟩ : BufTy).Contents (Elt F) → (⟨S10, .f32⟩ : BufTy).Contents (Elt F)),
    binary main_v62 main_v63 main_v64 (cmpf .ogt : (⟨S10, .f32⟩ : BufTy).Contents (Elt F) → (⟨S10, .f32⟩ : BufTy).Contents (Elt F) → (⟨S10, .i1⟩ : BufTy).Contents (Elt F)),
    unary main_v64 main_v65 ((extui 32 · natLt_1_32) : (⟨S10, .i1⟩ : BufTy).Contents (Elt F) → (⟨S10, .i32⟩ : BufTy).Contents (Elt F)),
    nullary main_c_21 (constantI S_ 32 0#32),
    binary main_v65 main_c_21 main_v66 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v66 main_v67 (sitofp .f32 : (⟨S_, .i32⟩ : BufTy).Contents (Elt F) → (⟨S_, .f32⟩ : BufTy).Contents (Elt F)),
    nullary main_cst_22 (constant (F := F) S_ .f32 0x3F666666#32),
    unary main_cst_22 main_v68 (broadcastInDim S10 ![] bcast_S_S10 : (⟨S_, .f32⟩ : BufTy).Contents (Elt F) → (⟨S10, .f32⟩ : BufTy).Contents (Elt F)),
    binary main_v68 main_v62 main_v69 (mulf : (⟨S10, .f32⟩ : BufTy).Contents (Elt F) → (⟨S10, .f32⟩ : BufTy).Contents (Elt F) → (⟨S10, .f32⟩ : BufTy).Contents (Elt F)),
    nullary main_cst_23 (constant (F := F) S_ .f32 0x00000000#32),
    unary main_cst_23 main_v70 (broadcastInDim S10 ![] bcast_S_S10 : (⟨S_, .f32⟩ : BufTy).Contents (Elt F) → (⟨S10, .f32⟩ : BufTy).Contents (Elt F)),
    binary main_v62 main_v70 main_v71 (cmpf .ogt : (⟨S10, .f32⟩ : BufTy).Contents (Elt F) → (⟨S10, .f32⟩ : BufTy).Contents (Elt F) → (⟨S10, .i1⟩ : BufTy).Contents (Elt F)),
    nullary main_cst_24 (constant (F := F) S_ .f32 0x0DA24260#32),
    unary main_cst_24 main_v72 (broadcastInDim S10 ![] bcast_S_S10 : (⟨S_, .f32⟩ : BufTy).Contents (Elt F) → (⟨S10, .f32⟩ : BufTy).Contents (Elt F)),
    binary main_v69 main_v72 main_v73 (maximumf : (⟨S10, .f32⟩ : BufTy).Contents (Elt F) → (⟨S10, .f32⟩ : BufTy).Contents (Elt F) → (⟨S10, .f32⟩ : BufTy).Contents (Elt F)),
    nullary main_cst_25 (constant (F := F) S_ .f32 0x48800000#32),
    unary main_cst_25 main_v74 (broadcastInDim S10 ![] bcast_S_S10 : (⟨S_, .f32⟩ : BufTy).Contents (Elt F) → (⟨S10, .f32⟩ : BufTy).Contents (Elt F)),
    binary main_v74 main_v73 main_v75 (Host.divf : (⟨S10, .f32⟩ : BufTy).Contents (Elt F) → (⟨S10, .f32⟩ : BufTy).Contents (Elt F) → (⟨S10, .f32⟩ : BufTy).Contents (Elt F)),
    nullary main_cst_26 (constant (F := F) S_ .f32 0x00000000#32),
    TRef.unary (TRef.of (T := ⟨S_, .f32⟩) main_cst_26) main_call2.v0 id,
    TRef.unary main_call2.v0 main_call2.v1 (broadcastInDim S10 ![] bcast_S_S10),
    TRef.ternary (TRef.of (T := ⟨S10, .i1⟩) main_v71) (TRef.of (T := ⟨S10, .f32⟩) main_v75) main_call2.v1 main_call2.v2 select,
    nullary main_cst_27 (constant (F := F) S_ .f32 0x3F800000#32),
    binary main_v67 main_cst_27 main_v77 (maximumf : (⟨S_, .f32⟩ : BufTy).Contents (Elt F) → (⟨S_, .f32⟩ : BufTy).Contents (Elt F) → (⟨S_, .f32⟩ : BufTy).Contents (Elt F)),
    unary main_v77 main_v78 (broadcastInDim S10 ![] bcast_S_S10 : (⟨S_, .f32⟩ : BufTy).Contents (Elt F) → (⟨S10, .f32⟩ : BufTy).Contents (Elt F)),
    binary main_v76 main_v78 main_v79 (Host.divf : (⟨S10, .f32⟩ : BufTy).Contents (Elt F) → (⟨S10, .f32⟩ : BufTy).Contents (Elt F) → (⟨S10, .f32⟩ : BufTy).Contents (Elt F)),
    nullary main_c_28 (constantI S_ 32 0#32),
    unary main_c_28 main_v80 (broadcastInDim S16x3x512x512 ![] bcast_S_S16x3x512x512 : (⟨S_, .i32⟩ : BufTy).Contents (Elt F) → (⟨S16x3x512x512, .i32⟩ : BufTy).Contents (Elt F)),
    binary main_v54 main_v80 main_v81 (cmpi .slt : (⟨S16x3x512x512, .i32⟩ : BufTy).Contents (Elt F) → (⟨S16x3x512x512, .i32⟩ : BufTy).Contents (Elt F) → (⟨S16x3x512x512, .i1⟩ : BufTy).Contents (Elt F)),
    nullary main_c_29 (constantI S_ 32 10#32),
    unary main_c_29 main_v82 (broadcastInDim S16x3x512x512 ![] bcast_S_S16x3x512x512 : (⟨S_, .i32⟩ : BufTy).Contents (Elt F) → (⟨S16x3x512x512, .i32⟩ : BufTy).Contents (Elt F)),
    binary main_v54 main_v82 main_v83 (addi : (⟨S16x3x512x512, .i32⟩ : BufTy).Contents (Elt F) → (⟨S16x3x512x512, .i32⟩ : BufTy).Contents (Elt F) → (⟨S16x3x512x512, .i32⟩ : BufTy).Contents (Elt F)),
    ternary main_v81 main_v83 main_v54 main_v84 (select : (⟨S16x3x512x512, .i1⟩ : BufTy).Contents (Elt F) → (⟨S16x3x512x512, .i32⟩ : BufTy).Contents (Elt F) → (⟨S16x3x512x512, .i32⟩ : BufTy).Contents (Elt F) → (⟨S16x3x512x512, .i32⟩ : BufTy).Contents (Elt F)),
    unary main_v84 main_v85 (broadcastInDim S16x3x512x512x1 ![0, 1, 2, 3] bcast_S16x3x512x512_S16x3x512x512x1_0_1_2_3 : (⟨S16x3x512x512, .i32⟩ : BufTy).Contents (Elt F) → (⟨S16x3x512x512x1, .i32⟩ : BufTy).Contents (Elt F)),
    binary main_v79 main_v85 main_v86 ((fun x i => Host.gather gather_S10_S16x3x512x512x1_S16x3x512x512_n_0_n_n_0_4_1 x i) : (⟨S10, .f32⟩ : BufTy).Contents (Elt F) → (⟨S16x3x512x512x1, .i32⟩ : BufTy).Contents (Elt F) → (⟨S16x3x512x512, .f32⟩ : BufTy).Contents (Elt F)),
    nullary main_cst_30 (constant (F := F) S_ .f32 0x00000000#32),
    TRef.unary (TRef.of (T := ⟨S_, .f32⟩) main_cst_30) main_call3.v0 id,
    TRef.unary main_call3.v0 main_call3.v1 (broadcastInDim S16x3x512x512 ![] bcast_S_S16x3x512x512),
    TRef.ternary (TRef.of (T := ⟨S16x3x512x512, .i1⟩) main_v56) (TRef.of (T := ⟨S16x3x512x512, .f32⟩) main_v86) main_call3.v1 main_call3.v2 select,
    binary main_arg2 main_arg3 main_v88 (subf : (⟨S16x3x512x512, .f32⟩ : BufTy).Contents (Elt F) → (⟨S16x3x512x512, .f32⟩ : BufTy).Contents (Elt F) → (⟨S16x3x512x512, .f32⟩ : BufTy).Contents (Elt F)),
    binary main_v88 main_v88 main_v89 (mulf : (⟨S16x3x512x512, .f32⟩ : BufTy).Contents (Elt F) → (⟨S16x3x512x512, .f32⟩ : BufTy).Contents (Elt F) → (⟨S16x3x512x512, .f32⟩ : BufTy).Contents (Elt F)),
    binary main_v87 main_v89 main_v90 (mulf : (⟨S16x3x512x512, .f32⟩ : BufTy).Contents (Elt F) → (⟨S16x3x512x512, .f32⟩ : BufTy).Contents (Elt F) → (⟨S16x3x512x512, .f32⟩ : BufTy).Contents (Elt F)),
    nullary main_cst_31 (constant (F := F) S_ .f32 0x2B8CBCCC#32),
    unary main_cst_31 main_v91 (broadcastInDim S16x3x512x512 ![] bcast_S_S16x3x512x512 : (⟨S_, .f32⟩ : BufTy).Contents (Elt F) → (⟨S16x3x512x512, .f32⟩ : BufTy).Contents (Elt F)),
    binary main_v90 main_v91 main_v92 (addf : (⟨S16x3x512x512, .f32⟩ : BufTy).Contents (Elt F) → (⟨S16x3x512x512, .f32⟩ : BufTy).Contents (Elt F) → (⟨S16x3x512x512, .f32⟩ : BufTy).Contents (Elt F)),
    unary main_v92 main_v93 (Host.sqrt : (⟨S16x3x512x512, .f32⟩ : BufTy).Contents (Elt F) → (⟨S16x3x512x512, .f32⟩ : BufTy).Contents (Elt F)),
    nullary main_cst_32 (constant (F := F) S_ .f32 0x00000000#32),
    binary main_v93 main_cst_32 main_v94 ((fun x v => Host.reduceAdd x v reducesTo_S16x3x512x512_S_d0_1_2_3 h_S_) : (⟨S16x3x512x512, .f32⟩ : BufTy).Contents (Elt F) → (⟨S_, .f32⟩ : BufTy).Contents (Elt F) → (⟨S_, .f32⟩ : BufTy).Contents (Elt F)),
    nullary main_cst_33 (constant (F := F) S_ .f32 0x4B400000#32),
    binary main_v94 main_cst_33 main_v95 (Host.divf : (⟨S_, .f32⟩ : BufTy).Contents (Elt F) → (⟨S_, .f32⟩ : BufTy).Contents (Elt F) → (⟨S_, .f32⟩ : BufTy).Contents (Elt F)) ]

/-- The last three operations: the mean of the two losses. -/
abbrev opsC : List (HloOp τ sig (Elt F)) :=
  [ binary main_v47 main_v95 main_v96 (addf : (⟨S_, .f32⟩ : BufTy).Contents (Elt F) → (⟨S_, .f32⟩ : BufTy).Contents (Elt F) → (⟨S_, .f32⟩ : BufTy).Contents (Elt F)),
    nullary main_cst_34 (constant (F := F) S_ .f32 0x3F000000#32),
    binary main_v96 main_cst_34 main_v97 (mulf : (⟨S_, .f32⟩ : BufTy).Contents (Elt F) → (⟨S_, .f32⟩ : BufTy).Contents (Elt F) → (⟨S_, .f32⟩ : BufTy).Contents (Elt F)) ]

/-- @main's 143 operations, in order. -/
abbrev ops : List (HloOp τ sig (Elt F)) := opsA ++ (opsB ++ opsC)

set_option maxRecDepth 8192 in
set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨binary_bufs_sub .., unary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    unary_bufs_sub .., reshape_bufs_sub .., reshape_bufs_sub .., nullary_bufs_sub .., unary_bufs_sub .., unary_bufs_sub ..,
    ternary_bufs_sub .., nullary_bufs_sub .., unary_bufs_sub .., binary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., binary_bufs_sub .., nullary_bufs_sub .., unary_bufs_sub .., binary_bufs_sub .., unary_bufs_sub ..,
    nullary_bufs_sub .., binary_bufs_sub .., nullary_bufs_sub .., binary_bufs_sub ..⟩

set_option maxRecDepth 8192 in
theorem opsB_sub : (opsB : List (HloOp τ sig (Elt F))).Forall fun op => op.bufs ⊆ tcRefs τ sig :=
  ⟨binary_bufs_sub .., unary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    unary_bufs_sub .., reshape_bufs_sub .., reshape_bufs_sub .., nullary_bufs_sub .., unary_bufs_sub .., unary_bufs_sub ..,
    ternary_bufs_sub .., nullary_bufs_sub .., unary_bufs_sub .., binary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., binary_bufs_sub .., nullary_bufs_sub .., unary_bufs_sub .., binary_bufs_sub .., unary_bufs_sub ..,
    nullary_bufs_sub .., binary_bufs_sub .., nullary_bufs_sub .., binary_bufs_sub ..⟩

theorem opsC_sub : (opsC : List (HloOp τ sig (Elt F))).Forall fun op => op.bufs ⊆ tcRefs τ sig :=
  ⟨binary_bufs_sub .., nullary_bufs_sub .., binary_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

/-- The fold of two lines run one after the other is the second's fold over the first's. -/
theorem after_append : ∀ (l₁ l₂ : List (HloOp τ sig (Elt F))) (V : Valuation τ sig (Elt F)),
    after (l₁ ++ l₂) V = after l₂ (after l₁ V)
  | [], _, _ => rfl
  | op :: l, l₂, V => after_append l l₂ (op.result V)

set_option maxRecDepth 8192 in
/-- Every weakly fair execution of @main terminates with each buffer at the fold of the operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (launchContents m c))) (Proc.devRef .tc b) :=
  (θ_run defs _ _).mono (fun _ h c b => (h c b).trans (by rw [after_append, after_append]))
    (run_seq scopedRefs_eq scopedSems_eq defs main (fun _ => ops) main_eq (fun _ => ops_sub) m ρ)

end Cert.RefSide

end
-- ==== Proof.RefStage.lean ====
/-
  The reference's computation as named functions of the two argument arrays, one chain per tensor: the gap, its bin,
  the in-range bit, the histogram, the number of bins in use, the ten weights, the look-up indices, the elements'
  weights, their terms and the loss — each the vector operations the program applies, in its order. The run reads
  each result buffer back as these functions of the arguments; the value lemmas read them element by element.
-/
import proofs.«176825_j1932735283876_1_alg».proof.Proof.Gen.ReferenceIdeal

noncomputable section

namespace Cert.RefSide

open Cert.ReferenceIdeal Cert.ReferenceIdeal.Gen Idealize.ShloMosaic

variable {F : FTy → Type} [FloatOps F]

section A
variable (a b : (⟨S16x1x512x512, .f32⟩ : BufTy).Contents (Elt F))

/-- The gap |a − b|, element by element. -/
def gapA : (⟨S16x1x512x512, .f32⟩ : BufTy).Contents (Elt F) := Host.absf (subf a b)

/-- The bin min (trunc (10 · gap)) 9, element by element. -/
def binA : (⟨S16x1x512x512, .i32⟩ : BufTy).Contents (Elt F) :=
  minsi (fptosi 32 (mulf (gapA a b) (broadcastInDim S16x1x512x512 ![] bcast_S_S16x1x512x512 (constant (F := F) S_ .f32 0x41200000#32))))
    (broadcastInDim S16x1x512x512 ![] bcast_S_S16x1x512x512 (constantI S_ 32 9#32))

/-- The in-range bit gap < 1 + 1e-6, element by element. -/
def validA : (⟨S16x1x512x512, .i1⟩ : BufTy).Contents (Elt F) :=
  cmpf .olt (gapA a b) (broadcastInDim S16x1x512x512 ![] bcast_S_S16x1x512x512 (constant (F := F) S_ .f32 0x3F800008#32))

/-- The histogram: the in-range bits scattered and added, each at its element's bin, into ten zeros. -/
def countsA : (⟨S10, .f32⟩ : BufTy).Contents (Elt F) :=
  Host.scatterAdd scatter_S10_S4194304x1_S4194304_n_0_0_1 (broadcastInDim S10 ![] bcast_S_S10 (constant (F := F) S_ .f32 0x00000000#32))
    (broadcastInDim S4194304x1 ![0] bcast_S4194304_S4194304x1_0 (shapeCast _ (binA a b) shapeCasts_S16x1x512x512_S4194304))
    (shapeCast _ (uitofp .f32 (validA a b)) shapeCasts_S16x1x512x512_S4194304)

/-- The bits "count > 0", widened to 32-bit integers. -/
def usedBitsA : (⟨S10, .i32⟩ : BufTy).Contents (Elt F) :=
  extui 32 (cmpf .ogt (countsA a b) (broadcastInDim S10 ![] bcast_S_S10 (constant (F := F) S_ .f32 0x00000000#32))) natLt_1_32

/-- The number of bins in use: those bits added as 32-bit integers, converted. -/
def usedA : (⟨S_, .f32⟩ : BufTy).Contents (Elt F) :=
  sitofp .f32 (Host.reduce IntOp.addi (usedBitsA a b) (constantI S_ 32 0#32) reducesTo_S10_S_d0 h_S_)

/-- The ten weights: 2^18 / max (0.9 · count) 1e-30 where the count is positive, else 0, over max (bins in use) 1. -/
def tableA : (⟨S10, .f32⟩ : BufTy).Contents (Elt F) :=
  Host.divf
    (select (cmpf .ogt (countsA a b) (broadcastInDim S10 ![] bcast_S_S10 (constant (F := F) S_ .f32 0x00000000#32)))
      (Host.divf (broadcastInDim S10 ![] bcast_S_S10 (constant (F := F) S_ .f32 0x48800000#32))
        (maximumf (mulf (broadcastInDim S10 ![] bcast_S_S10 (constant (F := F) S_ .f32 0x3F666666#32)) (countsA a b))
          (broadcastInDim S10 ![] bcast_S_S10 (constant (F := F) S_ .f32 0x0DA24260#32))))
      (broadcastInDim S10 ![] bcast_S_S10 (id (constant (F := F) S_ .f32 0x00000000#32))))
    (broadcastInDim S10 ![] bcast_S_S10 (maximumf (usedA a b) (constant (F := F) S_ .f32 0x3F800000#32)))

/-- The look-up index: the bin, a negative one wrapped by ten. -/
def wrapA : (⟨S16x1x512x512, .i32⟩ : BufTy).Contents (Elt F) :=
  select (cmpi .slt (binA a b) (broadcastInDim S16x1x512x512 ![] bcast_S_S16x1x512x512 (constantI S_ 32 0#32)))
    (addi (binA a b) (broadcastInDim S16x1x512x512 ![] bcast_S_S16x1x512x512 (constantI S_ 32 10#32)))
    (binA a b)

/-- The look-up indices with a trailing unit axis, as the gather takes them. -/
def idxA : (⟨S16x1x512x512x1, .i32⟩ : BufTy).Contents (Elt F) :=
  broadcastInDim S16x1x512x512x1 ![0, 1, 2, 3] bcast_S16x1x512x512_S16x1x512x512x1_0_1_2_3 (wrapA a b)

/-- The elements' weights: the table read at each element's look-up index, kept where the gap is in range, else 0. -/
def elemWeightA : (⟨S16x1x512x512, .f32⟩ : BufTy).Contents (Elt F) :=
  select (validA a b)
    (Host.gather gather_S10_S16x1x512x512x1_S16x1x512x512_n_0_n_n_0_4_1 (tableA a b) (idxA a b))
    (broadcastInDim S16x1x512x512 ![] bcast_S_S16x1x512x512 (id (constant (F := F) S_ .f32 0x00000000#32)))

/-- The elements' terms sqrt (weight · (a − b)² + 1e-12). -/
def termsA : (⟨S16x1x512x512, .f32⟩ : BufTy).Contents (Elt F) :=
  Host.sqrt (addf (mulf (elemWeightA a b) (mulf (subf a b) (subf a b)))
    (broadcastInDim S16x1x512x512 ![] bcast_S_S16x1x512x512 (constant (F := F) S_ .f32 0x2B8CBCCC#32)))

/-- The loss: the sum of the terms over all elements, over the number of elements. -/
def stageA : (⟨S_, .f32⟩ : BufTy).Contents (Elt F) :=
  Host.divf
    (Host.reduceAdd (termsA a b) (constant (F := F) S_ .f32 0x00000000#32) reducesTo_S16x1x512x512_S_d0_1_2_3 h_S_)
    (constant (F := F) S_ .f32 0x4A800000#32)

end A

section B
variable (a b : (⟨S16x3x512x512, .f32⟩ : BufTy).Contents (Elt F))

/-- The gap |a − b|, element by element. -/
def gapB : (⟨S16x3x512x512, .f32⟩ : BufTy).Contents (Elt F) := Host.absf (subf a b)

/-- The bin min (trunc (10 · gap)) 9, element by element. -/
def binB : (⟨S16x3x512x512, .i32⟩ : BufTy).Contents (Elt F) :=
  minsi (fptosi 32 (mulf (gapB a b) (broadcastInDim S16x3x512x512 ![] bcast_S_S16x3x512x512 (constant (F := F) S_ .f32 0x41200000#32))))
    (broadcastInDim S16x3x512x512 ![] bcast_S_S16x3x512x512 (constantI S_ 32 9#32))

/-- The in-range bit gap < 1 + 1e-6, element by element. -/
def validB : (⟨S16x3x512x512, .i1⟩ : BufTy).Contents (Elt F) :=
  cmpf .olt (gapB a b) (broadcastInDim S16x3x512x512 ![] bcast_S_S16x3x512x512 (constant (F := F) S_ .f32 0x3F800008#32))

/-- The histogram: the in-range bits scattered and added, each at its element's bin, into ten zeros. -/
def countsB : (⟨S10, .f32⟩ : BufTy).Contents (Elt F) :=
  Host.scatterAdd scatter_S10_S12582912x1_S12582912_n_0_0_1 (broadcastInDim S10 ![] bcast_S_S10 (constant (F := F) S_ .f32 0x00000000#32))
    (broadcastInDim S12582912x1 ![0] bcast_S12582912_S12582912x1_0 (shapeCast _ (binB a b) shapeCasts_S16x3x512x512_S12582912))
    (shapeCast _ (uitofp .f32 (validB a b)) shapeCasts_S16x3x512x512_S12582912)

/-- The bits "count > 0", widened to 32-bit integers. -/
def usedBitsB : (⟨S10, .i32⟩ : BufTy).Contents (Elt F) :=
  extui 32 (cmpf .ogt (countsB a b) (broadcastInDim S10 ![] bcast_S_S10 (constant (F := F) S_ .f32 0x00000000#32))) natLt_1_32

/-- The number of bins in use: those bits added as 32-bit integers, converted. -/
def usedB : (⟨S_, .f32⟩ : BufTy).Contents (Elt F) :=
  sitofp .f32 (Host.reduce IntOp.addi (usedBitsB a b) (constantI S_ 32 0#32) reducesTo_S10_S_d0 h_S_)

/-- The ten weights: 2^18 / max (0.9 · count) 1e-30 where the count is positive, else 0, over max (bins in use) 1. -/
def tableB : (⟨S10, .f32⟩ : BufTy).Contents (Elt F) :=
  Host.divf
    (select (cmpf .ogt (countsB a b) (broadcastInDim S10 ![] bcast_S_S10 (constant (F := F) S_ .f32 0x00000000#32)))
      (Host.divf (broadcastInDim S10 ![] bcast_S_S10 (constant (F := F) S_ .f32 0x48800000#32))
        (maximumf (mulf (broadcastInDim S10 ![] bcast_S_S10 (constant (F := F) S_ .f32 0x3F666666#32)) (countsB a b))
          (broadcastInDim S10 ![] bcast_S_S10 (constant (F := F) S_ .f32 0x0DA24260#32))))
      (broadcastInDim S10 ![] bcast_S_S10 (id (constant (F := F) S_ .f32 0x00000000#32))))
    (broadcastInDim S10 ![] bcast_S_S10 (maximumf (usedB a b) (constant (F := F) S_ .f32 0x3F800000#32)))

/-- The look-up index: the bin, a negative one wrapped by ten. -/
def wrapB : (⟨S16x3x512x512, .i32⟩ : BufTy).Contents (Elt F) :=
  select (cmpi .slt (binB a b) (broadcastInDim S16x3x512x512 ![] bcast_S_S16x3x512x512 (constantI S_ 32 0#32)))
    (addi (binB a b) (broadcastInDim S16x3x512x512 ![] bcast_S_S16x3x512x512 (constantI S_ 32 10#32)))
    (binB a b)

/-- The look-up indices with a trailing unit axis, as the gather takes them. -/
def idxB : (⟨S16x3x512x512x1, .i32⟩ : BufTy).Contents (Elt F) :=
  broadcastInDim S16x3x512x512x1 ![0, 1, 2, 3] bcast_S16x3x512x512_S16x3x512x512x1_0_1_2_3 (wrapB a b)

/-- The elements' weights: the table read at each element's look-up index, kept where the gap is in range, else 0. -/
def elemWeightB : (⟨S16x3x512x512, .f32⟩ : BufTy).Contents (Elt F) :=
  select (validB a b)
    (Host.gather gather_S10_S16x3x512x512x1_S16x3x512x512_n_0_n_n_0_4_1 (tableB a b) (idxB a b))
    (broadcastInDim S16x3x512x512 ![] bcast_S_S16x3x512x512 (id (constant (F := F) S_ .f32 0x00000000#32)))

/-- The elements' terms sqrt (weight · (a − b)² + 1e-12). -/
def termsB : (⟨S16x3x512x512, .f32⟩ : BufTy).Contents (Elt F) :=
  Host.sqrt (addf (mulf (elemWeightB a b) (mulf (subf a b) (subf a b)))
    (broadcastInDim S16x3x512x512 ![] bcast_S_S16x3x512x512 (constant (F := F) S_ .f32 0x2B8CBCCC#32)))

/-- The loss: the sum of the terms over all elements, over the number of elements. -/
def stageB : (⟨S_, .f32⟩ : BufTy).Contents (Elt F) :=
  Host.divf
    (Host.reduceAdd (termsB a b) (constant (F := F) S_ .f32 0x00000000#32) reducesTo_S16x3x512x512_S_d0_1_2_3 h_S_)
    (constant (F := F) S_ .f32 0x4B400000#32)

end B

/-- The mean of the two losses. -/
def stageMean (l1 l2 : (⟨S_, .f32⟩ : BufTy).Contents (Elt F)) : (⟨S_, .f32⟩ : BufTy).Contents (Elt F) :=
  mulf (addf l1 l2) (constant (F := F) S_ .f32 0x3F000000#32)

end Cert.RefSide

end
-- ==== Proof.RefReadA.lean ====
/-
  The first tensor's seventy operations folded over any contents: the loss buffer ends at the chain's loss of the
  first two arguments' contents, and the four argument buffers are not written.
-/
import proofs.«176825_j1932735283876_1_alg».proof.Proof.RefOps
import proofs.«176825_j1932735283876_1_alg».proof.Proof.RefStage

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- After the first tensor's operations its loss buffer holds the chain's loss of the first two arguments. -/
theorem afterA_v47 (V : Valuation τ sig (Elt F)) :
    after opsA V (Proc.devRef (τ := τ) .tc main_v47)
      = stageA (V (Proc.devRef (τ := τ) .tc main_arg0)) (V (Proc.devRef (τ := τ) .tc main_arg1)) := by
  after_results_simp
  simp only [TRef.toBuf, TRef.ofBuf, cast_eq]
  rfl

set_option maxRecDepth 8192 in
set_option maxHeartbeats 4000000 in
theorem afterA_arg0 (V : Valuation τ sig (Elt F)) :
    after opsA V (Proc.devRef (τ := τ) .tc main_arg0) = V (Proc.devRef (τ := τ) .tc main_arg0) := by
  after_results_simp

set_option maxRecDepth 8192 in
set_option maxHeartbeats 4000000 in
theorem afterA_arg1 (V : Valuation τ sig (Elt F)) :
    after opsA V (Proc.devRef (τ := τ) .tc main_arg1) = V (Proc.devRef (τ := τ) .tc main_arg1) := by
  after_results_simp

set_option maxRecDepth 8192 in
set_option maxHeartbeats 4000000 in
theorem afterA_arg2 (V : Valuation τ sig (Elt F)) :
    after opsA V (Proc.devRef (τ := τ) .tc main_arg2) = V (Proc.devRef (τ := τ) .tc main_arg2) := by
  after_results_simp

set_option maxRecDepth 8192 in
set_option maxHeartbeats 4000000 in
theorem afterA_arg3 (V : Valuation τ sig (Elt F)) :
    after opsA V (Proc.devRef (τ := τ) .tc main_arg3) = V (Proc.devRef (τ := τ) .tc main_arg3) := by
  after_results_simp

end Cert.RefSide

end
-- ==== Proof.RefReadB.lean ====
/-
  The second tensor's seventy operations folded over any contents: the loss buffer ends at the chain's loss of the
  last two arguments' contents; the four argument buffers and the first loss's buffer are not written.
-/
import proofs.«176825_j1932735283876_1_alg».proof.Proof.RefOps
import proofs.«176825_j1932735283876_1_alg».proof.Proof.RefStage

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- After the second tensor's operations its loss buffer holds the chain's loss of the last two arguments. -/
theorem afterB_v95 (V : Valuation τ sig (Elt F)) :
    after opsB V (Proc.devRef (τ := τ) .tc main_v95)
      = stageB (V (Proc.devRef (τ := τ) .tc main_arg2)) (V (Proc.devRef (τ := τ) .tc main_arg3)) := by
  after_results_simp
  simp only [TRef.toBuf, TRef.ofBuf, cast_eq]
  rfl

set_option maxRecDepth 8192 in
set_option maxHeartbeats 4000000 in
theorem afterB_arg0 (V : Valuation τ sig (Elt F)) :
    after opsB V (Proc.devRef (τ := τ) .tc main_arg0) = V (Proc.devRef (τ := τ) .tc main_arg0) := by
  after_results_simp

set_option maxRecDepth 8192 in
set_option maxHeartbeats 4000000 in
theorem afterB_arg1 (V : Valuation τ sig (Elt F)) :
    after opsB V (Proc.devRef (τ := τ) .tc main_arg1) = V (Proc.devRef (τ := τ) .tc main_arg1) := by
  after_results_simp

set_option maxRecDepth 8192 in
set_option maxHeartbeats 4000000 in
theorem afterB_arg2 (V : Valuation τ sig (Elt F)) :
    after opsB V (Proc.devRef (τ := τ) .tc main_arg2) = V (Proc.devRef (τ := τ) .tc main_arg2) := by
  after_results_simp

set_option maxRecDepth 8192 in
set_option maxHeartbeats 4000000 in
theorem afterB_arg3 (V : Valuation τ sig (Elt F)) :
    after opsB V (Proc.devRef (τ := τ) .tc main_arg3) = V (Proc.devRef (τ := τ) .tc main_arg3) := by
  after_results_simp

set_option maxRecDepth 8192 in
set_option maxHeartbeats 4000000 in
theorem afterB_v47 (V : Valuation τ sig (Elt F)) :
    after opsB V (Proc.devRef (τ := τ) .tc main_v47) = V (Proc.devRef (τ := τ) .tc main_v47) := by
  after_results_simp

end Cert.RefSide

end
-- ==== Proof.RefDefs.lean ====
/-
  The two losses the reference returns, as the specification's loss of the argument arrays: the first tensor's over
  its 16·1·512·512 = 2^22 elements, the second's over its 16·3·512·512 = 3·2^22 elements (each count given by the
  word of its float).
-/
import proofs.«176825_j1932735283876_1_alg».proof.Proof.Spec
import proofs.«176825_j1932735283876_1_alg».proof.ReferenceIdeal

noncomputable section

namespace Cert.RefSide

open Idealize.ShloMosaic

/-- The first tensor's loss. -/
def L1 (a b : Cert.ReferenceIdeal.S16x1x512x512.Idx → Ideal .f32) : Ideal .f32 := Cert.BinLoss.loss a b 0x4A800000#32

/-- The second tensor's loss. -/
def L2 (a b : Cert.ReferenceIdeal.S16x3x512x512.Idx → Ideal .f32) : Ideal .f32 := Cert.BinLoss.loss a b 0x4B400000#32

end Cert.RefSide

end
-- ==== Proof.RefLaws.lean ====
/-
  Scalar facts behind the reference's side of the comparison, all on extended reals and machine words:
  the gap |p − q| is never negative, so ten times it truncates to a non-negative integer and the bin
  min (trunc (10 g)) 9 is one of the ten words 0 … 9; the indicator "in range and in bin b" is the in-range bit
  where the bin is b and 0 elsewhere; looking a bin word up among ten nested choices returns that bin's entry;
  and w · (d · d) = (w · |d|) · |d|, because |d| · |d| = d · d.
-/
import proofs.«176825_j1932735283876_1_alg».proof.Proof.Spec

noncomputable section

namespace Cert.RefSide

open Idealize.ShloMosaic Cert.BinLoss

/-! ## The gap -/

/-- 0 ≤ −d when d ≤ 0. -/
theorem neg_nonneg_of_nonpos {d : EReal} (h : d ≤ 0) : (0 : EReal) ≤ -d := by
  have := EReal.neg_le_neg_iff.mpr h
  simpa using this

/-- −d ≤ 0 when 0 ≤ d. -/
theorem neg_nonpos_of_nonneg {d : EReal} (h : 0 ≤ d) : -d ≤ (0 : EReal) := by
  have := EReal.neg_le_neg_iff.mpr h
  simpa using this

/-- The gap |p − q| = max (p − q) (−(p − q)) is never negative. -/
theorem gap_nonneg (p q : R) : (0 : EReal) ≤ gap p q := by
  show (0 : EReal) ≤ max (p - q) (-(p - q))
  rcases le_total (0 : EReal) (p - q) with h | h
  · exact le_max_of_le_left h
  · exact le_max_of_le_right (neg_nonneg_of_nonpos h)

/-- |d| · |d| = d · d. -/
theorem abs_mul_abs (d : EReal) : max d (-d) * max d (-d) = d * d := by
  rcases le_total d 0 with h | h
  · rw [max_eq_right (h.trans (neg_nonneg_of_nonpos h)), neg_mul_neg]
  · rw [max_eq_left ((neg_nonpos_of_nonneg h).trans h)]

/-- The reference's product w · (d · d) is the specification's (w · |d|) · |d|. -/
theorem mul_sq_eq (w p q : R) :
    FloatOps.mulf w (FloatOps.mulf (FloatOps.subf p q) (FloatOps.subf p q))
      = FloatOps.mulf (FloatOps.mulf w (gap p q)) (gap p q) := by
  show w * ((p - q) * (p - q)) = (w * max (p - q) (-(p - q))) * max (p - q) (-(p - q))
  rw [mul_assoc, abs_mul_abs]

/-! ## The bin -/

/-- The literal 10.0 is not negative. -/
theorem ten_nonneg : (0 : EReal) ≤ lit 0x41200000#32 := by
  show (0 : EReal) ≤ Ideal.ofBits .f32 0x41200000#32
  simp [Ideal.ofBits, Ideal.ieee]
  first
    | positivity
    | exact mul_nonneg (by positivity) (by positivity)
    | exact mul_nonneg (by exact_mod_cast (by norm_num : (0:ℝ) ≤ 10485760)) (by exact_mod_cast (by positivity : (0:ℝ) ≤ (2 ^ 20)⁻¹))

/-- Truncation toward zero, clamped to [lo, hi] with lo ≤ 0 ≤ hi, sends a non-negative extended real into [0, hi]. -/
theorem toIntClamped_nonneg {lo hi : Int} (hlo : lo ≤ 0) (hhi : 0 ≤ hi) {x : EReal} (hx : 0 ≤ x) :
    0 ≤ Ideal.toIntClamped lo hi x ∧ Ideal.toIntClamped lo hi x ≤ hi := by
  induction x using EReal.rec with
  | bot => exact absurd hx (by simp)
  | top => exact ⟨hhi, le_refl _⟩
  | coe r =>
    have hr : 0 ≤ r := by exact_mod_cast hx
    show 0 ≤ max lo (min hi (if 0 ≤ r then ⌊r⌋ else ⌈r⌉)) ∧ max lo (min hi (if 0 ≤ r then ⌊r⌋ else ⌈r⌉)) ≤ hi
    rw [if_pos hr]
    have : 0 ≤ ⌊r⌋ := Int.floor_nonneg.mpr hr
    constructor <;> omega

/-- A non-negative extended real converts to a 32-bit word that is non-negative read signed. -/
theorem fptosi_toInt_nonneg {x : EReal} (hx : 0 ≤ x) : 0 ≤ (Ideal.fptosi 32 x).toInt := by
  unfold Ideal.fptosi
  obtain ⟨h0, h1⟩ := toIntClamped_nonneg (lo := -((2 ^ (32 - 1) : Nat) : Int)) (hi := ((2 ^ (32 - 1) : Nat) : Int) - 1)
    (by norm_num) (by norm_num) hx
  generalize Ideal.toIntClamped _ _ x = n at h0 h1 ⊢
  norm_num at h1
  rw [BitVec.toInt_ofInt_eq_self (by decide) (by norm_num; omega) (by norm_num; omega)]
  exact h0

/-- The bin of a non-negative gap, read signed, is between 0 and 9. -/
theorem bin_range (g : R) (hg : (0 : EReal) ≤ g) : 0 ≤ (bin g).toInt ∧ (bin g).toInt ≤ 9 := by
  have hx : (0 : EReal) ≤ g * lit 0x41200000#32 := mul_nonneg hg ten_nonneg
  have h0 := fptosi_toInt_nonneg hx
  show 0 ≤ (IntOp.minsi (Ideal.fptosi 32 (g * lit 0x41200000#32)) 9#32).toInt
    ∧ (IntOp.minsi (Ideal.fptosi 32 (g * lit 0x41200000#32)) 9#32).toInt ≤ 9
  generalize Ideal.fptosi 32 (g * lit 0x41200000#32) = k at h0 ⊢
  unfold IntOp.minsi
  have h9 : (9#32 : BitVec 32).toInt = 9 := by decide
  by_cases h : k.slt 9#32
  · rw [if_pos h]
    have := BitVec.slt_iff_toInt_lt.mp h
    omega
  · rw [if_neg h]
    omega

/-- The bin word b, read signed, is b. -/
theorem binWord_toInt (b : Fin 10) : (binWord b).toInt = (b.val : Int) := by
  fin_cases b <;> rfl

/-- A word whose signed reading is b is the bin word b, and conversely. -/
theorem toInt_eq_iff (k : BitVec 32) (b : Fin 10) : k.toInt = (b.val : Int) ↔ k = binWord b := by
  constructor
  · intro h
    exact BitVec.eq_of_toInt_eq (h.trans (binWord_toInt b).symm)
  · rintro rfl
    exact binWord_toInt b

/-- The bin of a non-negative gap is one of the ten bin words. -/
theorem bin_eq_binWord (g : R) (hg : (0 : EReal) ≤ g) : ∃ b : Fin 10, bin g = binWord b := by
  obtain ⟨h0, h9⟩ := bin_range g hg
  refine ⟨⟨(bin g).toInt.toNat, by omega⟩, (toInt_eq_iff _ _).mp ?_⟩
  show (bin g).toInt = (((bin g).toInt.toNat : Nat) : Int)
  omega

/-! ## The indicator -/

/-- On one-bit words: (c and v), widened to 32 bits and read signed, is v's value where c is set and 0 elsewhere. -/
theorem andi_setWidth_toInt : ∀ c v : BitVec 1,
    ((IntOp.andi c v).setWidth 32).toInt = if c = 1#1 then (v.toNat : Int) else 0 := by decide

/-- The comparison "k = j" is the bit 1 exactly when the words are equal. -/
theorem cmpi_eq_one_iff (k j : BitVec 32) : IntOp.cmpi .eq k j = 1#1 ↔ k = j := by
  show BitVec.ofBool (k == j) = 1#1 ↔ k = j
  by_cases h : k = j
  · subst h
    simp
  · have hb : (k == j) = false := beq_eq_false_iff_ne.mpr h
    rw [hb]
    exact ⟨fun e => absurd e (by decide), fun e => absurd e h⟩

/-- "In range and in bin b" is the in-range bit, as a number, where the bin is b, and 0 elsewhere. -/
theorem hit_eq (b : BitVec 32) (g : R) :
    hit b g = if bin g = b then FloatOps.uitofp .f32 (inRange g) else 0 := by
  show (((((IntOp.andi (IntOp.cmpi .eq (bin g) b) (inRange g)).setWidth 32).toInt : Int) : ℝ) : EReal) = _
  rw [andi_setWidth_toInt]
  by_cases h : bin g = b
  · rw [if_pos ((cmpi_eq_one_iff _ _).mpr h), if_pos h]
    show ((((inRange g).toNat : Int) : ℝ) : EReal) = ((((inRange g).toNat : Nat) : ℝ) : EReal)
    norm_cast
  · rw [if_neg (fun e => h ((cmpi_eq_one_iff _ _).mp e)), if_neg h]
    norm_cast

/-- The reference's histogram entry — the sum of the in-range bits over the elements whose bin word, read signed, is
    b — is the specification's count at the bin word b. -/
theorem count_ref {ι : Type} [Fintype ι] (p q : ι → R) (b : Fin 10) :
    (∑ e, if (bin (gap (p e) (q e))).toInt = (b.val : Int) then FloatOps.uitofp .f32 (inRange (gap (p e) (q e))) else 0)
      = count p q (binWord b) := by
  unfold count
  refine Finset.sum_congr rfl fun e _ => ?_
  rw [hit_eq]
  by_cases h : bin (gap (p e) (q e)) = binWord b
  · rw [if_pos h, if_pos ((toInt_eq_iff _ _).mpr h)]
  · rw [if_neg h, if_neg (fun e' => h ((toInt_eq_iff _ _).mp e'))]

/-! ## The look-up -/

/-- A choice on the comparison "k = j" is the choice on the equation. -/
theorem select_cmpi_eq {α : Type} (k j : BitVec 32) (a b : α) :
    Scalar.select (IntOp.cmpi .eq k j) a b = if k = j then a else b := by
  by_cases h : k = j
  · rw [if_pos h]
    exact if_pos ((cmpi_eq_one_iff k j).mpr h)
  · rw [if_neg h]
    exact if_neg (fun e => h ((cmpi_eq_one_iff k j).mp e))

/-- Looking the bin word b up among the ten nested choices returns the table's entry at b. -/
theorem pick_binWord (pb : BitVec 32 → R) (b : Fin 10) : pick pb (binWord b) = pb (binWord b) := by
  unfold pick
  simp only [select_cmpi_eq]
  fin_cases b <;> simp [binWord]

/-- A bin word is not negative, so the wrap-around of a negative index leaves it alone. -/
theorem wrap_binWord (b : Fin 10) :
    Scalar.select (IntOp.cmpi .slt (binWord b) 0#32) (IntOp.addi (binWord b) 10#32) (binWord b) = binWord b := by
  fin_cases b <;> rfl

/-- A bin word, read signed as a natural number and clamped to 9, is b. -/
theorem binWord_clamp (b : Fin 10) : min (binWord b).toInt.toNat (10 - 1) = b.val := by
  fin_cases b <;> rfl

/-- THE ELEMENT'S WEIGHT: the reference reads the ten-entry table w10 at the element's (wrapped, clamped) bin and
    keeps it where the gap is in range; that is the specification's weight when the table's entry b is pb at the bin
    word b. -/
theorem weight_ref (pb : BitVec 32 → R) (w10 : Fin 10 → R) (hw : ∀ b, w10 b = pb (binWord b)) (p q : R) (n : Fin 10)
    (hn : n.val = min (Scalar.select (IntOp.cmpi .slt (bin (gap p q)) 0#32) (IntOp.addi (bin (gap p q)) 10#32)
      (bin (gap p q))).toInt.toNat (10 - 1)) :
    Scalar.select (inRange (gap p q)) (w10 n) (lit 0x00000000#32) = weight pb (gap p q) := by
  obtain ⟨b, hb⟩ := bin_eq_binWord _ (gap_nonneg p q)
  rw [hb, wrap_binWord, binWord_clamp] at hn
  obtain rfl : n = b := Fin.ext hn
  unfold weight
  rw [hb, pick_binWord, hw]

/-- THE ELEMENT'S TERM: sqrt (w · (d · d) + 1e-12) with the reference's weight is the specification's term. -/
theorem term_ref (pb : BitVec 32 → R) (w p q : R) (hw : w = weight pb (gap p q)) :
    FloatOps.hostUnary .sqrt (FloatOps.addf (FloatOps.mulf w (FloatOps.mulf (FloatOps.subf p q) (FloatOps.subf p q)))
      (lit 0x2B8CBCCC#32)) = term pb p q := by
  subst hw
  unfold term
  rw [mul_sq_eq]
  rfl

end Cert.RefSide

end
-- ==== Proof.RefScatter.lean ====
/-
  The histogram's scatter read at a bin. For an operand of ten entries, scatter indices [M, 1] and updates [M]
  (no window axes; the one operand axis inserted and named by the one index component) update j lands on entry b
  exactly when its index word idx[j, 0], read signed, is b; an index word outside 0 … 9 drops the update. So entry b
  of the result is the operand's entry plus the sum, over ALL updates, of the update where its index word is b and
  0 elsewhere.
-/
import Idealize.ShloMosaic.PureOps.Ideal
import Idealize.ShloMosaic.Lib.ValueIdx

noncomputable section

open scoped BigOperators

namespace Cert.RefSide

open Idealize.ShloMosaic Idealize.ShloMosaic.ValueIdx

/-- Those dimension numbers for an operand [10], scatter indices [M, 1] and updates [M]. -/
abbrev binDims (M : Nat) (wf : ScatterDims.WF ⟨1, ![10]⟩ ⟨2, ![M, 1]⟩ ⟨1, ![M]⟩ [] [0] [0] 1) :
    ScatterDims ⟨1, ![10]⟩ ⟨2, ![M, 1]⟩ ⟨1, ![M]⟩ where
  updateWindowDims := []
  insertedWindowDims := [0]
  scatterDimsToOperandDims := [0]
  indexVectorDim := 1
  wf := wf

/-- The scatter-indices index [j, 0] of update j. -/
abbrev binIdx {M : Nat} (j : (⟨1, ![M]⟩ : Shape).Idx) : (⟨2, ![M, 1]⟩ : Shape).Idx :=
  fun a => match a with | ⟨0, _⟩ => ⟨(j 0).val, (j 0).isLt⟩ | ⟨1, _⟩ => ⟨0, Nat.one_pos⟩

/-- Update j lands on entry b exactly when its index word, read signed, is b. -/
theorem binDims_resultIdx_iff {M w : Nat} (wf : ScatterDims.WF ⟨1, ![10]⟩ ⟨2, ![M, 1]⟩ ⟨1, ![M]⟩ [] [0] [0] 1)
    (idx : IVec ⟨2, ![M, 1]⟩ w) (j : (⟨1, ![M]⟩ : Shape).Idx) (b : Fin 10) :
    (binDims M wf).resultIdx? j idx = some (ix1 b) ↔ (idx (binIdx j)).toInt = (b.val : Int) := by
  have hsi : (binDims M wf).siIdx j ⟨List.idxOf (0 : Fin 1) (binDims M wf).scatterDimsToOperandDims,
      List.idxOf_lt_length_iff.2 (List.mem_singleton.mpr rfl)⟩ = binIdx j := by
    funext a; refine Fin.ext ?_
    match a with
    | ⟨0, _⟩ => rfl
    | ⟨1, _⟩ => rfl
  have hstart : (binDims M wf).start j idx 0 = (idx (binIdx j)).toInt := by
    unfold ScatterDims.start
    rw [dif_pos (show (0 : Fin 1) ∈ (binDims M wf).scatterDimsToOperandDims from List.mem_singleton.mpr rfl), hsi]
  have hwin : (binDims M wf).window j 0 = 0 := by
    unfold ScatterDims.window
    rw [dif_neg (fun h => by have h2 := (List.mem_filter.1 h).2; simp at h2)]
  unfold ScatterDims.resultIdx?
  split
  · rename_i h
    rw [Option.some.injEq]
    constructor
    · intro e
      have e0 := congrArg (fun f => (f 0).val) e
      have h0 := (h 0).1
      simp only [hstart, hwin] at e0 h0
      change ((idx (binIdx j)).toInt + ((0 : Nat) : Int)).toNat = b.val at e0
      omega
    · intro hk
      funext a
      obtain rfl : a = 0 := Subsingleton.elim _ _
      refine Fin.ext ?_
      show ((binDims M wf).start j idx 0 + ((binDims M wf).window j 0 : Int)).toNat = b.val
      rw [hstart, hwin, hk]
      simp
  · rename_i h
    constructor
    · intro e; exact absurd e (by simp)
    · intro hk
      exfalso
      apply h
      intro a
      obtain rfl : a = 0 := Subsingleton.elim _ _
      rw [hstart, hwin, hk]
      have := b.isLt
      constructor
      · simp
      · show (b.val : Int) + ((0 : Nat) : Int) < ((10 : Nat) : Int)
        omega

/-- THE SCATTER READ AT ENTRY b: the operand's entry plus the sum over all updates of the update where its index
    word is b. -/
theorem scatter_bins_apply {M w : Nat} (wf : ScatterDims.WF ⟨1, ![10]⟩ ⟨2, ![M, 1]⟩ ⟨1, ![M]⟩ [] [0] [0] 1)
    (x : (⟨1, ![10]⟩ : Shape).Idx → EReal) (idx : IVec ⟨2, ![M, 1]⟩ w) (upd : (⟨1, ![M]⟩ : Shape).Idx → EReal) (b : Fin 10) :
    Ideal.hostScatterAdd (binDims M wf) x idx upd (ix1 b)
      = x (ix1 b) + ∑ j : (⟨1, ![M]⟩ : Shape).Idx, if (idx (binIdx j)).toInt = (b.val : Int) then upd j else 0 := by
  unfold Ideal.hostScatterAdd
  rw [Finset.sum_filter]
  refine congrArg (x (ix1 b) + ·) (Finset.sum_congr rfl fun j _ => ?_)
  by_cases hk : (idx (binIdx j)).toInt = (b.val : Int)
  · rw [if_pos ((binDims_resultIdx_iff wf idx j b).mpr hk), if_pos hk]
  · rw [if_neg (fun h => hk ((binDims_resultIdx_iff wf idx j b).mp h)), if_neg hk]

/-- The same sum re-indexed: when the updates and their index words are functions uf, kf of another index e = σ j
    (σ a bijection: the tensor before it was flattened), entry b is the operand's entry plus the sum over e of uf e where
    kf e, read signed, is b. -/
theorem scatter_bins_reindex {M w : Nat} (wf : ScatterDims.WF ⟨1, ![10]⟩ ⟨2, ![M, 1]⟩ ⟨1, ![M]⟩ [] [0] [0] 1)
    {ι : Type} [Fintype ι] (σ : (⟨1, ![M]⟩ : Shape).Idx ≃ ι)
    (x : (⟨1, ![10]⟩ : Shape).Idx → EReal) (idx : IVec ⟨2, ![M, 1]⟩ w) (upd : (⟨1, ![M]⟩ : Shape).Idx → EReal)
    (kf : ι → BitVec w) (uf : ι → EReal) (hidx : ∀ j, idx (binIdx j) = kf (σ j)) (hupd : ∀ j, upd j = uf (σ j))
    (b : Fin 10) :
    Ideal.hostScatterAdd (binDims M wf) x idx upd (ix1 b)
      = x (ix1 b) + ∑ e : ι, if (kf e).toInt = (b.val : Int) then uf e else 0 := by
  rw [scatter_bins_apply]
  refine congrArg (x (ix1 b) + ·) ?_
  rw [← Equiv.sum_comp σ]
  refine Finset.sum_congr rfl fun j _ => ?_
  rw [hidx, hupd]

end Cert.RefSide

end
-- ==== Proof.RefGather.lean ====
/-
  The weight look-up's gather read at an element. For an operand of N entries, start indices [A, B, C, D, 1] and a
  result [A, B, C, D] (no offset axes; the operand's one axis collapsed and named by the one index component, slice
  size 1) the result's element (a, b, c, d) is the operand's entry at the start index idx[a, b, c, d, 0], read signed
  and clamped into 0 … N − 1.
-/
import Idealize.ShloMosaic.PureOps.Ideal
import Idealize.ShloMosaic.Lib.ValueIdx

noncomputable section

namespace Cert.RefSide

open Idealize.ShloMosaic Idealize.ShloMosaic.ValueIdx

/-- Those dimension numbers for an operand [N], start indices [A, B, C, D, 1] and a result [A, B, C, D]. -/
abbrev take4Dims (N A B C D : Nat)
    (wf : GatherDims.WF ⟨1, ![N]⟩ ⟨5, ![A, B, C, D, 1]⟩ ⟨4, ![A, B, C, D]⟩ [] [0] [] [0] [] 4 ![1]) :
    GatherDims ⟨1, ![N]⟩ ⟨5, ![A, B, C, D, 1]⟩ ⟨4, ![A, B, C, D]⟩ where
  offsetDims := []
  collapsedSliceDims := [0]
  operandBatchingDims := []
  startIndicesBatchingDims := []
  startIndexMap := [0]
  indexVectorDim := 4
  sliceSizes := ![1]
  wf := wf

/-- The start-indices index [a, b, c, d, 0] of the result's element (a, b, c, d). -/
abbrev take4Idx {A B C D : Nat} (y : (⟨4, ![A, B, C, D]⟩ : Shape).Idx) : (⟨5, ![A, B, C, D, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => ⟨0, Nat.one_pos⟩

/-- THE GATHER READ AT (a, b, c, d): the operand at the start index idx[a, b, c, d, 0], read signed and clamped into
    0 … N − 1. -/
theorem gather_take4_apply {α : Type} {N A B C D w : Nat} (hN : 0 < N)
    (wf : GatherDims.WF ⟨1, ![N]⟩ ⟨5, ![A, B, C, D, 1]⟩ ⟨4, ![A, B, C, D]⟩ [] [0] [] [0] [] 4 ![1])
    (x : (⟨1, ![N]⟩ : Shape).Idx → α) (idx : IVec ⟨5, ![A, B, C, D, 1]⟩ w) (y : (⟨4, ![A, B, C, D]⟩ : Shape).Idx) :
    Host.gather (take4Dims N A B C D wf) x idx y = x (ix1 ⟨min (idx (take4Idx y)).toInt.toNat (N - 1), by omega⟩) := by
  unfold Host.gather
  congr 1
  funext a
  obtain rfl : a = 0 := Subsingleton.elim _ _
  refine Fin.ext ?_
  show (take4Dims N A B C D wf).start y idx 0 + (take4Dims N A B C D wf).batchCoord y 0
    + (take4Dims N A B C D wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take4Dims N A B C D wf).startIndexMap from List.mem_singleton.mpr rfl)]
  have hsi : (take4Dims N A B C D wf).siIdx y ⟨List.idxOf (0 : Fin 1) (take4Dims N A B C D wf).startIndexMap,
      List.idxOf_lt_length_iff.2 (List.mem_singleton.mpr rfl)⟩ = take4Idx y := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

end Cert.RefSide

end
-- ==== Proof.RefReduce.lean ====
/-
  Counting the bins in use. The reference adds ten one-bit words, widened to 32 bits, in 32-bit integer arithmetic and
  converts the total to a float; ten ones cannot wrap a 32-bit word, so the total read signed is the number of set
  bits, and the converted total is the sum of the bits as numbers. Also here: an integer sum over every axis into
  rank 0 is the initial word plus the sum of all the words, and a sum over a rank-1 index set is the sum over its
  coordinate.
-/
import Mathlib.Data.BitVec
import Idealize.ShloMosaic.PureOps.Reduce
import Idealize.ShloMosaic.PureOps.Ideal
import Idealize.ShloMosaic.Lib.ValueIdx

noncomputable section

open scoped BigOperators

namespace Cert.RefSide

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An integer sum over every axis into rank 0 is the initial word plus the sum of all the words. -/
theorem reduce_addi_total {s : Shape} {axes : List (Fin s.rank)} (h : s.ReducesTo axes ⟨0, ![]⟩)
    (hu : 0 < (⟨0, ![]⟩ : Shape).numel) (x : s.Idx → BitVec 32) (init : (⟨0, ![]⟩ : Shape).Idx → BitVec 32)
    (j : (⟨0, ![]⟩ : Shape).Idx) :
    Host.reduce IntOp.addi x init h hu j = init (Shape.Idx.first hu) + ∑ i, x i := by
  rw [Host.reduce_eq_fold, Finset.filter_true_of_mem (fun i _ => funext fun b => b.elim0)]
  induction (Finset.univ : Finset s.Idx) using Finset.cons_induction with
  | empty => simp
  | cons a S ha ih =>
    rw [Finset.fold_cons, Finset.sum_cons, ih]
    show x a + (_ + _) = _ + (x a + _)
    rw [add_left_comm]

/-- Fewer than 2^31 one-bit words, widened and added in 32 bits, total the number of set bits. -/
theorem bits_sum {ι : Type} (S : Finset ι) (f : ι → BitVec 1) (hS : S.card < 2 ^ 31) :
    (∑ b ∈ S, (f b).setWidth 32 : BitVec 32).toNat = ∑ b ∈ S, (f b).toNat ∧ (∑ b ∈ S, (f b).toNat) ≤ S.card := by
  induction S using Finset.cons_induction with
  | empty => simp
  | cons a S ha ih =>
    rw [Finset.card_cons] at hS
    obtain ⟨e, le⟩ := ih (by omega)
    rw [Finset.sum_cons, Finset.sum_cons, Finset.card_cons, BitVec.toNat_add, e,
      BitVec.toNat_setWidth_of_le (by decide)]
    have := (f a).isLt
    constructor
    · rw [Nat.mod_eq_of_lt]; omega
    · omega

/-- Ten such words total, read signed, the number of set bits. -/
theorem ten_bits_toInt (f : Fin 10 → BitVec 1) :
    ((∑ b, (f b).setWidth 32 : BitVec 32).toInt : Int) = ((∑ b, (f b).toNat : Nat) : Int) := by
  obtain ⟨e, le⟩ := bits_sum Finset.univ f (by simp)
  have hc : (Finset.univ : Finset (Fin 10)).card = 10 := by simp
  rw [BitVec.toInt_eq_toNat_of_lt (by rw [e]; omega), e]

/-- The coercion of a finite real sum is the sum of the coercions. -/
theorem coe_sum {ι : Type} (S : Finset ι) (g : ι → ℝ) : ((∑ b ∈ S, g b : ℝ) : EReal) = ∑ b ∈ S, (g b : EReal) := by
  induction S using Finset.cons_induction with
  | empty => simp
  | cons a S ha ih => rw [Finset.sum_cons, Finset.sum_cons, EReal.coe_add, ih]

/-- THE NUMBER OF BINS IN USE: the converted integer total of the ten widened bits is the sum of the bits as
    numbers. -/
theorem nBins_ref (f : Fin 10 → BitVec 1) :
    FloatOps.sitofp (F := Ideal) .f32 (∑ b, (f b).setWidth 32 : BitVec 32)
      = ∑ b, FloatOps.uitofp (F := Ideal) .f32 (f b) := by
  show ((((∑ b, (f b).setWidth 32 : BitVec 32).toInt : Int) : ℝ) : EReal) = ∑ b, ((((f b).toNat : Nat) : ℝ) : EReal)
  rw [ten_bits_toInt, ← coe_sum]
  norm_cast

end Cert.RefSide

end
-- ==== Proof.RefTen.lean ====
/-
  The ten-entry stages read at an entry, for any float values: the widened bit "count > 0" at entry k is the
  comparison of the count at k with zero, widened; the weight at entry k is the scalar chain — the choice on
  "count > 0" between 2^18 / max (0.9 · count) 1e-30 and 0, over max n 1 — of the count at k and the number n of
  bins in use. Each is the vector operations unfolded at one index.
-/
import proofs.«176825_j1932735283876_1_alg».proof.Proof.Gen.ReferenceIdeal
import Idealize.ShloMosaic.Lib.ValueIdx

noncomputable section

namespace Cert.RefSide

open Cert.ReferenceIdeal Cert.ReferenceIdeal.Gen Idealize.ShloMosaic Idealize.ShloMosaic.ValueIdx

variable {F : FTy → Type} [FloatOps F]

/-- The widened bit "count > 0" at entry k. -/
theorem usedBits_at (C : (⟨S10, .f32⟩ : BufTy).Contents (Elt F)) (k : Fin 10) :
    extui 32 (cmpf .ogt C (broadcastInDim S10 ![] bcast_S_S10 (constant (F := F) S_ .f32 0x00000000#32))) natLt_1_32 (ix1 k)
      = (FloatOps.cmpf .ogt (C (ix1 k)) (FloatOps.ofBits .f32 0x00000000#32)).setWidth 32 := rfl

/-- The weight at entry k, when the number of bins in use is n at its one index. -/
theorem table_at (C : (⟨S10, .f32⟩ : BufTy).Contents (Elt F)) (U : (⟨S_, .f32⟩ : BufTy).Contents (Elt F)) (n : F .f32)
    (hU : ∀ i, U i = n) (k : Fin 10) :
    Host.divf
      (select (cmpf .ogt C (broadcastInDim S10 ![] bcast_S_S10 (constant (F := F) S_ .f32 0x00000000#32)))
        (Host.divf (broadcastInDim S10 ![] bcast_S_S10 (constant (F := F) S_ .f32 0x48800000#32))
          (maximumf (mulf (broadcastInDim S10 ![] bcast_S_S10 (constant (F := F) S_ .f32 0x3F666666#32)) C)
            (broadcastInDim S10 ![] bcast_S_S10 (constant (F := F) S_ .f32 0x0DA24260#32))))
        (broadcastInDim S10 ![] bcast_S_S10 (id (constant (F := F) S_ .f32 0x00000000#32))))
      (broadcastInDim S10 ![] bcast_S_S10 (maximumf U (constant (F := F) S_ .f32 0x3F800000#32))) (ix1 k)
      = FloatOps.hostDivf
          (Scalar.select (FloatOps.cmpf .ogt (C (ix1 k)) (FloatOps.ofBits .f32 0x00000000#32))
            (FloatOps.hostDivf (FloatOps.ofBits .f32 0x48800000#32)
              (FloatOps.maximumf (FloatOps.mulf (FloatOps.ofBits .f32 0x3F666666#32) (C (ix1 k))) (FloatOps.ofBits .f32 0x0DA24260#32)))
            (FloatOps.ofBits .f32 0x00000000#32))
          (FloatOps.maximumf n (FloatOps.ofBits .f32 0x3F800000#32)) := by
  obtain rfl : U = fun _ => n := funext hU
  rfl

end Cert.RefSide

end
-- ==== Proof.RefValA.lean ====
/-
  The reference's chain for the tensor of shape [16, 1, 512, 512], read element by element against the
  specification: the histogram is the specification's count (an update lands on bin b exactly when the element's bin
  word is b; flattening the tensor re-indexes the sum and changes nothing), the number of bins in use its nBins, the
  ten weights its weights, an element's weight its weight (the gap is never negative, so the bin is one of 0 … 9, the
  wrap-around never happens and the clamped look-up reads that bin's weight), an element's term its term
  (w · (d · d) = (w · |d|) · |d|), and the loss its loss.
-/
import proofs.«176825_j1932735283876_1_alg».proof.Proof.RefStage
import proofs.«176825_j1932735283876_1_alg».proof.Proof.RefDefs
import proofs.«176825_j1932735283876_1_alg».proof.Proof.RefLaws
import proofs.«176825_j1932735283876_1_alg».proof.Proof.RefScatter
import proofs.«176825_j1932735283876_1_alg».proof.Proof.RefGather
import proofs.«176825_j1932735283876_1_alg».proof.Proof.RefReduce
import proofs.«176825_j1932735283876_1_alg».proof.Proof.RefTen
import Idealize.ShloMosaic.Lib.Pipeline.Value
import Idealize.ShloMosaic.PureOps.Ideal.Laws

noncomputable section

open scoped BigOperators

namespace Cert.RefSide

open Cert.ReferenceIdeal Cert.ReferenceIdeal.Gen Idealize.ShloMosaic Idealize.ShloMosaic.ValueIdx Cert.BinLoss

section A
variable (a b : S16x1x512x512.Idx → Ideal .f32)

/-- The gap at an element. -/
theorem gapA_apply (e : S16x1x512x512.Idx) : gapA (F := Ideal) a b e = gap (a e) (b e) := rfl

/-- The bin at an element. -/
theorem binA_apply (e : S16x1x512x512.Idx) : binA (F := Ideal) a b e = bin (gap (a e) (b e)) := rfl

/-- The in-range bit at an element. -/
theorem validA_apply (e : S16x1x512x512.Idx) : validA (F := Ideal) a b e = inRange (gap (a e) (b e)) := rfl

/-- The printed scatter record is the ten-bin one. -/
theorem scatterA_eq : scatter_S10_S4194304x1_S4194304_n_0_0_1 = binDims 4194304 scatter_S10_S4194304x1_S4194304_n_0_0_1_wf := rfl

/-- The column of index words at update j is the bin of the element j flattens. -/
theorem binColA_apply (j : S4194304.Idx) :
    (broadcastInDim S4194304x1 ![0] bcast_S4194304_S4194304x1_0 (shapeCast _ (binA (F := Ideal) a b) shapeCasts_S16x1x512x512_S4194304)) (binIdx j)
      = bin (gap (a (Shape.reshapeEquiv shapeCasts_S16x1x512x512_S4194304 j)) (b (Shape.reshapeEquiv shapeCasts_S16x1x512x512_S4194304 j))) :=
  (broadcastInDim_apply _ bcast_S4194304_S4194304x1_0 _ (binIdx j) j (fun ax => match ax with
    | ⟨0, _⟩ => by show (j 0).val = if (4194304 : Nat) = 1 then 0 else (j 0).val; rw [if_neg (by decide)])).trans rfl

/-- The flattened in-range floats at update j are the in-range bit, as a number, of the element j flattens. -/
theorem validFlatA_apply (j : S4194304.Idx) :
    (shapeCast _ (uitofp .f32 (validA (F := Ideal) a b)) shapeCasts_S16x1x512x512_S4194304) j
      = FloatOps.uitofp (F := Ideal) .f32 (inRange (gap (a (Shape.reshapeEquiv shapeCasts_S16x1x512x512_S4194304 j)) (b (Shape.reshapeEquiv shapeCasts_S16x1x512x512_S4194304 j)))) :=
  rfl

/-- At the extended reals the host's accumulating scatter is the exact sum, whatever the record and the operands. -/
theorem hostScatterAddA_eq {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-- THE HISTOGRAM at bin k is the specification's count at the bin word k. -/
theorem countsA_apply (k : Fin 10) : countsA (F := Ideal) a b (ix1 k) = count a b (binWord k) := by
  unfold countsA
  rw [hostScatterAddA_eq, scatterA_eq]
  have key := scatter_bins_reindex (M := 4194304) (w := 32) (ι := S16x1x512x512.Idx) scatter_S10_S4194304x1_S4194304_n_0_0_1_wf
    (Shape.reshapeEquiv shapeCasts_S16x1x512x512_S4194304)
    (broadcastInDim S10 ![] bcast_S_S10 (constant (F := Ideal) S_ .f32 0x00000000#32))
    (broadcastInDim S4194304x1 ![0] bcast_S4194304_S4194304x1_0 (shapeCast _ (binA (F := Ideal) a b) shapeCasts_S16x1x512x512_S4194304))
    (shapeCast _ (uitofp (F := Ideal) .f32 (validA (F := Ideal) a b)) shapeCasts_S16x1x512x512_S4194304)
    (fun e => bin (gap (a e) (b e))) (fun e => FloatOps.uitofp (F := Ideal) .f32 (inRange (gap (a e) (b e))))
  have key2 := key (binColA_apply a b)
  have key3 := key2 (validFlatA_apply a b) k
  rw [key3]
  have hz : (broadcastInDim S10 ![] bcast_S_S10 (constant (F := Ideal) S_ .f32 0x00000000#32)) (ix1 k) = (0 : EReal) :=
    Ideal.ofBits_zero_f32
  rw [hz, zero_add]
  exact count_ref a b k

/-- The widened bit "count > 0" at bin k. -/
theorem usedBitsA_apply (k : Fin 10) : usedBitsA (F := Ideal) a b (ix1 k) = (nonEmpty (count a b (binWord k))).setWidth 32 := by
  have h := countsA_apply a b k
  unfold usedBitsA
  generalize countsA (F := Ideal) a b = C at h ⊢
  generalize count a b (binWord k) = c at h ⊢
  subst h
  refine (usedBits_at (F := Ideal) C k).trans ?_
  rfl

/-- THE NUMBER OF BINS IN USE is the specification's nBins of the counts. -/
theorem usedA_apply (i : S_.Idx) : usedA (F := Ideal) a b i = nBins (count a b) := by
  have h : ∀ k : Fin 10, usedBitsA (F := Ideal) a b (ix1 k) = (nonEmpty (count a b (binWord k))).setWidth 32 :=
    usedBitsA_apply a b
  unfold usedA
  generalize usedBitsA (F := Ideal) a b = B at h ⊢
  generalize count a b = cnt at h ⊢
  show FloatOps.sitofp (F := Ideal) .f32 (Host.reduce IntOp.addi B (constantI S_ 32 0#32) reducesTo_S10_S_d0 h_S_ i) = _
  rw [reduce_addi_total, sum_idx1, Finset.sum_congr rfl fun k _ => h k]
  show FloatOps.sitofp (F := Ideal) .f32 (0#32 + ∑ k : Fin 10, (nonEmpty (cnt (binWord k))).setWidth 32) = _
  rw [BitVec.zero_add]
  exact nBins_ref fun k => nonEmpty (cnt (binWord k))

/-- THE TEN WEIGHTS at bin k are the specification's weights of the counts at the bin word k. -/
theorem tableA_apply (k : Fin 10) : tableA (F := Ideal) a b (ix1 k) = weights (count a b) (binWord k) := by
  have h := countsA_apply a b k
  have hu : ∀ i, usedA (F := Ideal) a b i = nBins (count a b) := usedA_apply a b
  unfold tableA
  generalize countsA (F := Ideal) a b = C at h ⊢
  generalize usedA (F := Ideal) a b = U at hu ⊢
  generalize count a b = cnt at h hu ⊢
  refine (table_at (F := Ideal) C U (nBins cnt) hu k).trans ?_
  rw [h]
  show _ = binWeight (cnt (binWord k)) (nBins cnt)
  generalize cnt (binWord k) = c
  generalize nBins cnt = n
  rfl

/-- The look-up index at an element, read at the gather's start-index position. -/
theorem idxA_apply (e : S16x1x512x512.Idx) : idxA (F := Ideal) a b (take4Idx e)
    = Scalar.select (IntOp.cmpi .slt (bin (gap (a e) (b e))) 0#32) (IntOp.addi (bin (gap (a e) (b e))) 10#32)
        (bin (gap (a e) (b e))) := by
  unfold idxA
  refine (broadcastInDim_apply _ bcast_S16x1x512x512_S16x1x512x512x1_0_1_2_3 (wrapA (F := Ideal) a b) (take4Idx e) e (fun ax => match ax with
    | ⟨0, _⟩ => by show (e 0).val = if (16 : Nat) = 1 then 0 else (e 0).val; rw [if_neg (by decide)]
    | ⟨1, _⟩ => by show (e 1).val = if (1 : Nat) = 1 then 0 else (e 1).val; rw [if_pos rfl]; have h1 : (e 1).val < 1 := (e 1).isLt; omega
    | ⟨2, _⟩ => by show (e 2).val = if (512 : Nat) = 1 then 0 else (e 2).val; rw [if_neg (by decide)]
    | ⟨3, _⟩ => by show (e 3).val = if (512 : Nat) = 1 then 0 else (e 3).val; rw [if_neg (by decide)])).trans ?_
  rfl

/-- AN ELEMENT'S WEIGHT is the specification's weight of its gap under the weights of the counts. -/
theorem elemWeightA_apply (e : S16x1x512x512.Idx) :
    elemWeightA (F := Ideal) a b e = weight (weights (count a b)) (gap (a e) (b e)) := by
  have hg : Host.gather gather_S10_S16x1x512x512x1_S16x1x512x512_n_0_n_n_0_4_1 (tableA (F := Ideal) a b) (idxA (F := Ideal) a b) e
      = tableA (F := Ideal) a b (ix1 ⟨min (idxA (F := Ideal) a b (take4Idx e)).toInt.toNat (10 - 1), by omega⟩) :=
    gather_take4_apply (N := 10) (by decide) gather_S10_S16x1x512x512x1_S16x1x512x512_n_0_n_n_0_4_1_wf (tableA (F := Ideal) a b) (idxA (F := Ideal) a b) e
  show Scalar.select (validA (F := Ideal) a b e) (Host.gather gather_S10_S16x1x512x512x1_S16x1x512x512_n_0_n_n_0_4_1 (tableA (F := Ideal) a b) (idxA (F := Ideal) a b) e) _ = _
  rw [hg]
  exact weight_ref (weights (count a b)) (fun n => tableA (F := Ideal) a b (ix1 n)) (fun k => tableA_apply a b k) (a e) (b e)
    ⟨min (idxA (F := Ideal) a b (take4Idx e)).toInt.toNat (10 - 1), by omega⟩
    (by show min (idxA (F := Ideal) a b (take4Idx e)).toInt.toNat (10 - 1) = _; rw [idxA_apply])

/-- AN ELEMENT'S TERM is the specification's term under the weights of the counts. -/
theorem termsA_apply (e : S16x1x512x512.Idx) : termsA (F := Ideal) a b e = term (weights (count a b)) (a e) (b e) := by
  show FloatOps.hostUnary .sqrt (FloatOps.addf (FloatOps.mulf (elemWeightA (F := Ideal) a b e)
    (FloatOps.mulf (FloatOps.subf (a e) (b e)) (FloatOps.subf (a e) (b e)))) (lit 0x2B8CBCCC#32)) = _
  exact term_ref _ _ _ _ (elemWeightA_apply a b e)

/-- THE LOSS the chain ends in is the specification's loss of the two arrays. -/
theorem stageA_eq : stageA (F := Ideal) a b = fun _ => L1 a b := by
  funext i
  have hsum : Host.reduceAdd (F := Ideal) (termsA (F := Ideal) a b) (constant (F := Ideal) S_ .f32 0x00000000#32)
      reducesTo_S16x1x512x512_S_d0_1_2_3 h_S_ i
      = Ideal.ofBits .f32 0x00000000#32 + ∑ e : S16x1x512x512.Idx, termsA (F := Ideal) a b e :=
    Ideal.hostReduceAdd_total reducesTo_S16x1x512x512_S_d0_1_2_3 (fun ax => ax.elim0) (termsA (F := Ideal) a b) _ i
  show FloatOps.hostDivf (Host.reduceAdd (F := Ideal) (termsA (F := Ideal) a b) (constant (F := Ideal) S_ .f32 0x00000000#32)
      reducesTo_S16x1x512x512_S_d0_1_2_3 h_S_ i) (lit 0x4A800000#32) = _
  rw [hsum, Ideal.ofBits_zero_f32, zero_add, Finset.sum_congr rfl fun e _ => termsA_apply a b e]
  rfl

end A

end Cert.RefSide

end
-- ==== Proof.RefValB.lean ====
/-
  The reference's chain for the tensor of shape [16, 3, 512, 512], read element by element against the
  specification: the histogram is the specification's count (an update lands on bin b exactly when the element's bin
  word is b; flattening the tensor re-indexes the sum and changes nothing), the number of bins in use its nBins, the
  ten weights its weights, an element's weight its weight (the gap is never negative, so the bin is one of 0 … 9, the
  wrap-around never happens and the clamped look-up reads that bin's weight), an element's term its term
  (w · (d · d) = (w · |d|) · |d|), and the loss its loss.
-/
import proofs.«176825_j1932735283876_1_alg».proof.Proof.RefStage
import proofs.«176825_j1932735283876_1_alg».proof.Proof.RefDefs
import proofs.«176825_j1932735283876_1_alg».proof.Proof.RefLaws
import proofs.«176825_j1932735283876_1_alg».proof.Proof.RefScatter
import proofs.«176825_j1932735283876_1_alg».proof.Proof.RefGather
import proofs.«176825_j1932735283876_1_alg».proof.Proof.RefReduce
import proofs.«176825_j1932735283876_1_alg».proof.Proof.RefTen
import Idealize.ShloMosaic.Lib.Pipeline.Value
import Idealize.ShloMosaic.PureOps.Ideal.Laws

noncomputable section

open scoped BigOperators

namespace Cert.RefSide

open Cert.ReferenceIdeal Cert.ReferenceIdeal.Gen Idealize.ShloMosaic Idealize.ShloMosaic.ValueIdx Cert.BinLoss

section B
variable (a b : S16x3x512x512.Idx → Ideal .f32)

/-- The gap at an element. -/
theorem gapB_apply (e : S16x3x512x512.Idx) : gapB (F := Ideal) a b e = gap (a e) (b e) := rfl

/-- The bin at an element. -/
theorem binB_apply (e : S16x3x512x512.Idx) : binB (F := Ideal) a b e = bin (gap (a e) (b e)) := rfl

/-- The in-range bit at an element. -/
theorem validB_apply (e : S16x3x512x512.Idx) : validB (F := Ideal) a b e = inRange (gap (a e) (b e)) := rfl

/-- The printed scatter record is the ten-bin one. -/
theorem scatterB_eq : scatter_S10_S12582912x1_S12582912_n_0_0_1 = binDims 12582912 scatter_S10_S12582912x1_S12582912_n_0_0_1_wf := rfl

/-- The column of index words at update j is the bin of the element j flattens. -/
theorem binColB_apply (j : S12582912.Idx) :
    (broadcastInDim S12582912x1 ![0] bcast_S12582912_S12582912x1_0 (shapeCast _ (binB (F := Ideal) a b) shapeCasts_S16x3x512x512_S12582912)) (binIdx j)
      = bin (gap (a (Shape.reshapeEquiv shapeCasts_S16x3x512x512_S12582912 j)) (b (Shape.reshapeEquiv shapeCasts_S16x3x512x512_S12582912 j))) :=
  (broadcastInDim_apply _ bcast_S12582912_S12582912x1_0 _ (binIdx j) j (fun ax => match ax with
    | ⟨0, _⟩ => by show (j 0).val = if (12582912 : Nat) = 1 then 0 else (j 0).val; rw [if_neg (by decide)])).trans rfl

/-- The flattened in-range floats at update j are the in-range bit, as a number, of the element j flattens. -/
theorem validFlatB_apply (j : S12582912.Idx) :
    (shapeCast _ (uitofp .f32 (validB (F := Ideal) a b)) shapeCasts_S16x3x512x512_S12582912) j
      = FloatOps.uitofp (F := Ideal) .f32 (inRange (gap (a (Shape.reshapeEquiv shapeCasts_S16x3x512x512_S12582912 j)) (b (Shape.reshapeEquiv shapeCasts_S16x3x512x512_S12582912 j)))) :=
  rfl

/-- At the extended reals the host's accumulating scatter is the exact sum, whatever the record and the operands. -/
theorem hostScatterAddB_eq {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-- THE HISTOGRAM at bin k is the specification's count at the bin word k. -/
theorem countsB_apply (k : Fin 10) : countsB (F := Ideal) a b (ix1 k) = count a b (binWord k) := by
  unfold countsB
  rw [hostScatterAddB_eq, scatterB_eq]
  have key := scatter_bins_reindex (M := 12582912) (w := 32) (ι := S16x3x512x512.Idx) scatter_S10_S12582912x1_S12582912_n_0_0_1_wf
    (Shape.reshapeEquiv shapeCasts_S16x3x512x512_S12582912)
    (broadcastInDim S10 ![] bcast_S_S10 (constant (F := Ideal) S_ .f32 0x00000000#32))
    (broadcastInDim S12582912x1 ![0] bcast_S12582912_S12582912x1_0 (shapeCast _ (binB (F := Ideal) a b) shapeCasts_S16x3x512x512_S12582912))
    (shapeCast _ (uitofp (F := Ideal) .f32 (validB (F := Ideal) a b)) shapeCasts_S16x3x512x512_S12582912)
    (fun e => bin (gap (a e) (b e))) (fun e => FloatOps.uitofp (F := Ideal) .f32 (inRange (gap (a e) (b e))))
  have key2 := key (binColB_apply a b)
  have key3 := key2 (validFlatB_apply a b) k
  rw [key3]
  have hz : (broadcastInDim S10 ![] bcast_S_S10 (constant (F := Ideal) S_ .f32 0x00000000#32)) (ix1 k) = (0 : EReal) :=
    Ideal.ofBits_zero_f32
  rw [hz, zero_add]
  exact count_ref a b k

/-- The widened bit "count > 0" at bin k. -/
theorem usedBitsB_apply (k : Fin 10) : usedBitsB (F := Ideal) a b (ix1 k) = (nonEmpty (count a b (binWord k))).setWidth 32 := by
  have h := countsB_apply a b k
  unfold usedBitsB
  generalize countsB (F := Ideal) a b = C at h ⊢
  generalize count a b (binWord k) = c at h ⊢
  subst h
  refine (usedBits_at (F := Ideal) C k).trans ?_
  rfl

/-- THE NUMBER OF BINS IN USE is the specification's nBins of the counts. -/
theorem usedB_apply (i : S_.Idx) : usedB (F := Ideal) a b i = nBins (count a b) := by
  have h : ∀ k : Fin 10, usedBitsB (F := Ideal) a b (ix1 k) = (nonEmpty (count a b (binWord k))).setWidth 32 :=
    usedBitsB_apply a b
  unfold usedB
  generalize usedBitsB (F := Ideal) a b = B at h ⊢
  generalize count a b = cnt at h ⊢
  show FloatOps.sitofp (F := Ideal) .f32 (Host.reduce IntOp.addi B (constantI S_ 32 0#32) reducesTo_S10_S_d0 h_S_ i) = _
  rw [reduce_addi_total, sum_idx1, Finset.sum_congr rfl fun k _ => h k]
  show FloatOps.sitofp (F := Ideal) .f32 (0#32 + ∑ k : Fin 10, (nonEmpty (cnt (binWord k))).setWidth 32) = _
  rw [BitVec.zero_add]
  exact nBins_ref fun k => nonEmpty (cnt (binWord k))

/-- THE TEN WEIGHTS at bin k are the specification's weights of the counts at the bin word k. -/
theorem tableB_apply (k : Fin 10) : tableB (F := Ideal) a b (ix1 k) = weights (count a b) (binWord k) := by
  have h := countsB_apply a b k
  have hu : ∀ i, usedB (F := Ideal) a b i = nBins (count a b) := usedB_apply a b
  unfold tableB
  generalize countsB (F := Ideal) a b = C at h ⊢
  generalize usedB (F := Ideal) a b = U at hu ⊢
  generalize count a b = cnt at h hu ⊢
  refine (table_at (F := Ideal) C U (nBins cnt) hu k).trans ?_
  rw [h]
  show _ = binWeight (cnt (binWord k)) (nBins cnt)
  generalize cnt (binWord k) = c
  generalize nBins cnt = n
  rfl

/-- The look-up index at an element, read at the gather's start-index position. -/
theorem idxB_apply (e : S16x3x512x512.Idx) : idxB (F := Ideal) a b (take4Idx e)
    = Scalar.select (IntOp.cmpi .slt (bin (gap (a e) (b e))) 0#32) (IntOp.addi (bin (gap (a e) (b e))) 10#32)
        (bin (gap (a e) (b e))) := by
  unfold idxB
  refine (broadcastInDim_apply _ bcast_S16x3x512x512_S16x3x512x512x1_0_1_2_3 (wrapB (F := Ideal) a b) (take4Idx e) e (fun ax => match ax with
    | ⟨0, _⟩ => by show (e 0).val = if (16 : Nat) = 1 then 0 else (e 0).val; rw [if_neg (by decide)]
    | ⟨1, _⟩ => by show (e 1).val = if (3 : Nat) = 1 then 0 else (e 1).val; rw [if_neg (by decide)]
    | ⟨2, _⟩ => by show (e 2).val = if (512 : Nat) = 1 then 0 else (e 2).val; rw [if_neg (by decide)]
    | ⟨3, _⟩ => by show (e 3).val = if (512 : Nat) = 1 then 0 else (e 3).val; rw [if_neg (by decide)])).trans ?_
  rfl

/-- AN ELEMENT'S WEIGHT is the specification's weight of its gap under the weights of the counts. -/
theorem elemWeightB_apply (e : S16x3x512x512.Idx) :
    elemWeightB (F := Ideal) a b e = weight (weights (count a b)) (gap (a e) (b e)) := by
  have hg : Host.gather gather_S10_S16x3x512x512x1_S16x3x512x512_n_0_n_n_0_4_1 (tableB (F := Ideal) a b) (idxB (F := Ideal) a b) e
      = tableB (F := Ideal) a b (ix1 ⟨min (idxB (F := Ideal) a b (take4Idx e)).toInt.toNat (10 - 1), by omega⟩) :=
    gather_take4_apply (N := 10) (by decide) gather_S10_S16x3x512x512x1_S16x3x512x512_n_0_n_n_0_4_1_wf (tableB (F := Ideal) a b) (idxB (F := Ideal) a b) e
  show Scalar.select (validB (F := Ideal) a b e) (Host.gather gather_S10_S16x3x512x512x1_S16x3x512x512_n_0_n_n_0_4_1 (tableB (F := Ideal) a b) (idxB (F := Ideal) a b) e) _ = _
  rw [hg]
  exact weight_ref (weights (count a b)) (fun n => tableB (F := Ideal) a b (ix1 n)) (fun k => tableB_apply a b k) (a e) (b e)
    ⟨min (idxB (F := Ideal) a b (take4Idx e)).toInt.toNat (10 - 1), by omega⟩
    (by show min (idxB (F := Ideal) a b (take4Idx e)).toInt.toNat (10 - 1) = _; rw [idxB_apply])

/-- AN ELEMENT'S TERM is the specification's term under the weights of the counts. -/
theorem termsB_apply (e : S16x3x512x512.Idx) : termsB (F := Ideal) a b e = term (weights (count a b)) (a e) (b e) := by
  show FloatOps.hostUnary .sqrt (FloatOps.addf (FloatOps.mulf (elemWeightB (F := Ideal) a b e)
    (FloatOps.mulf (FloatOps.subf (a e) (b e)) (FloatOps.subf (a e) (b e)))) (lit 0x2B8CBCCC#32)) = _
  exact term_ref _ _ _ _ (elemWeightB_apply a b e)

/-- THE LOSS the chain ends in is the specification's loss of the two arrays. -/
theorem stageB_eq : stageB (F := Ideal) a b = fun _ => L2 a b := by
  funext i
  have hsum : Host.reduceAdd (F := Ideal) (termsB (F := Ideal) a b) (constant (F := Ideal) S_ .f32 0x00000000#32)
      reducesTo_S16x3x512x512_S_d0_1_2_3 h_S_ i
      = Ideal.ofBits .f32 0x00000000#32 + ∑ e : S16x3x512x512.Idx, termsB (F := Ideal) a b e :=
    Ideal.hostReduceAdd_total reducesTo_S16x3x512x512_S_d0_1_2_3 (fun ax => ax.elim0) (termsB (F := Ideal) a b) _ i
  show FloatOps.hostDivf (Host.reduceAdd (F := Ideal) (termsB (F := Ideal) a b) (constant (F := Ideal) S_ .f32 0x00000000#32)
      reducesTo_S16x3x512x512_S_d0_1_2_3 h_S_ i) (lit 0x4B400000#32) = _
  rw [hsum, Ideal.ofBits_zero_f32, zero_add, Finset.sum_congr rfl fun e _ => termsB_apply a b e]
  rfl

end B

end Cert.RefSide

end
-- ==== Proof.RefRun.lean ====
/-
  The reference's run, read back against the specification. The fold of the 143 operations over the launch contents
  leaves the first loss's buffer at the first chain's loss of the first two arguments (the later operations do not
  write it), the second's at the second chain's loss of the last two (the earlier operations do not write those
  arguments), the mean's at their mean, and the arguments as they were; and each chain's loss is the specification's
  loss of its two arrays. So every weakly fair execution terminates with the three results at the specification's
  values and the arguments unchanged.
-/
import proofs.«176825_j1932735283876_1_alg».proof.Proof.RefOps
import proofs.«176825_j1932735283876_1_alg».proof.Proof.RefStage
import proofs.«176825_j1932735283876_1_alg».proof.Proof.RefReadA
import proofs.«176825_j1932735283876_1_alg».proof.Proof.RefReadB
import proofs.«176825_j1932735283876_1_alg».proof.Proof.RefValA
import proofs.«176825_j1932735283876_1_alg».proof.Proof.RefValB

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- After the last three operations the mean's buffer holds the mean of the two losses' buffers. -/
theorem afterC_v97 (W : Valuation τ sig (Elt F)) :
    after opsC W (Proc.devRef (τ := τ) .tc main_v97) = stageMean (W (Proc.devRef (τ := τ) .tc main_v47)) (W (Proc.devRef (τ := τ) .tc main_v95)) := by
  after_results_simp
  rfl

theorem afterC_arg0 (W : Valuation τ sig (Elt F)) :
    after opsC W (Proc.devRef (τ := τ) .tc main_arg0) = W (Proc.devRef (τ := τ) .tc main_arg0) := by
  after_results_simp

theorem afterC_arg1 (W : Valuation τ sig (Elt F)) :
    after opsC W (Proc.devRef (τ := τ) .tc main_arg1) = W (Proc.devRef (τ := τ) .tc main_arg1) := by
  after_results_simp

theorem afterC_arg2 (W : Valuation τ sig (Elt F)) :
    after opsC W (Proc.devRef (τ := τ) .tc main_arg2) = W (Proc.devRef (τ := τ) .tc main_arg2) := by
  after_results_simp

theorem afterC_arg3 (W : Valuation τ sig (Elt F)) :
    after opsC W (Proc.devRef (τ := τ) .tc main_arg3) = W (Proc.devRef (τ := τ) .tc main_arg3) := by
  after_results_simp

theorem afterC_v47 (W : Valuation τ sig (Elt F)) :
    after opsC W (Proc.devRef (τ := τ) .tc main_v47) = W (Proc.devRef (τ := τ) .tc main_v47) := by
  after_results_simp

theorem afterC_v95 (W : Valuation τ sig (Elt F)) :
    after opsC W (Proc.devRef (τ := τ) .tc main_v95) = W (Proc.devRef (τ := τ) .tc main_v95) := by
  after_results_simp

/-- The whole fold at the first loss's buffer. -/
theorem fold_v47 (V : Valuation τ sig (Elt F)) :
    after opsC (after opsB (after opsA V)) (Proc.devRef (τ := τ) .tc main_v47) = stageA (V (Proc.devRef (τ := τ) .tc main_arg0)) (V (Proc.devRef (τ := τ) .tc main_arg1)) := by
  rw [afterC_v47, afterB_v47, afterA_v47]

/-- The whole fold at the second loss's buffer. -/
theorem fold_v95 (V : Valuation τ sig (Elt F)) :
    after opsC (after opsB (after opsA V)) (Proc.devRef (τ := τ) .tc main_v95) = stageB (V (Proc.devRef (τ := τ) .tc main_arg2)) (V (Proc.devRef (τ := τ) .tc main_arg3)) := by
  rw [afterC_v95, afterB_v95, afterA_arg2, afterA_arg3]

/-- The whole fold at the mean's buffer. -/
theorem fold_v97 (V : Valuation τ sig (Elt F)) :
    after opsC (after opsB (after opsA V)) (Proc.devRef (τ := τ) .tc main_v97)
      = stageMean (stageA (V (Proc.devRef (τ := τ) .tc main_arg0)) (V (Proc.devRef (τ := τ) .tc main_arg1))) (stageB (V (Proc.devRef (τ := τ) .tc main_arg2)) (V (Proc.devRef (τ := τ) .tc main_arg3))) := by
  rw [afterC_v97, afterB_v47, afterA_v47, afterB_v95, afterA_arg2, afterA_arg3]

theorem fold_arg0 (V : Valuation τ sig (Elt F)) :
    after opsC (after opsB (after opsA V)) (Proc.devRef (τ := τ) .tc main_arg0) = V (Proc.devRef (τ := τ) .tc main_arg0) := by
  rw [afterC_arg0, afterB_arg0, afterA_arg0]

theorem fold_arg1 (V : Valuation τ sig (Elt F)) :
    after opsC (after opsB (after opsA V)) (Proc.devRef (τ := τ) .tc main_arg1) = V (Proc.devRef (τ := τ) .tc main_arg1) := by
  rw [afterC_arg1, afterB_arg1, afterA_arg1]

theorem fold_arg2 (V : Valuation τ sig (Elt F)) :
    after opsC (after opsB (after opsA V)) (Proc.devRef (τ := τ) .tc main_arg2) = V (Proc.devRef (τ := τ) .tc main_arg2) := by
  rw [afterC_arg2, afterB_arg2, afterA_arg2]

theorem fold_arg3 (V : Valuation τ sig (Elt F)) :
    after opsC (after opsB (after opsA V)) (Proc.devRef (τ := τ) .tc main_arg3) = V (Proc.devRef (τ := τ) .tc main_arg3) := by
  rw [afterC_arg3, afterB_arg3, afterA_arg3]

/-- THE REFERENCE'S RUN: every weakly fair execution of @main terminates with the mean's buffer at the mean of the
    two specified losses, each loss's buffer at its specified loss, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = (fun _ => Cert.BinLoss.mean
          (L1 (m ((c.tc : Thread nD τ).loc main_arg0)) (m ((c.tc : Thread nD τ).loc main_arg1))) (L2 (m ((c.tc : Thread nD τ).loc main_arg2)) (m ((c.tc : Thread nD τ).loc main_arg3))))
      ∧ r.2.mem ((c.tc : Thread nD τ).loc main_v47) = (fun _ => L1 (m ((c.tc : Thread nD τ).loc main_arg0)) (m ((c.tc : Thread nD τ).loc main_arg1)))
      ∧ r.2.mem ((c.tc : Thread nD τ).loc main_v95) = (fun _ => L2 (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v97).trans ((fold_v97 _).trans (by
        rw [stageA_eq, stageB_eq]
        rfl)),
      (h c main_v47).trans ((fold_v47 _).trans (stageA_eq _ _)),
      (h c main_v95).trans ((fold_v95 _).trans (stageB_eq _ _)),
      (h c main_arg0).trans (fold_arg0 _),
      (h c main_arg1).trans (fold_arg1 _),
      (h c main_arg2).trans (fold_arg2 _),
      (h c main_arg3).trans (fold_arg3 _)⟩)
    (run_fold m ρ)

end Cert.RefSide

end
-- ==== Proof.lean ====
/-
  The certificate: a gradient-harmonized weighted L1 loss, computed by two Pallas kernels launched twice each, against
  its plain jnp reference.

  For each of two pairs of arrays (prediction, target) the programs compute the gaps g = |p − q|, the histogram of the
  gaps in range over ten bins, a weight per bin from the histogram (2^18 / (0.9 · count), over the number of bins in
  use), each element's weight (its bin's, when its gap is in range) and the mean of sqrt (w · g · g + 1e-12) over
  the elements; the third result is the mean of the two losses. The kernel builds the histogram block by block into a
  128-lane row and looks the weights up by ten comparisons; the reference scatters into ten bins and gathers. At the
  ideal instance both are one function of the arguments (Spec.lean): sums regroup freely over the extended reals,
  (w · |d|) · |d| = w · (d · d), and an element in range has one of the ten bin words, where lookup and gather agree.

  The idealized kernel's run with its results named is KernelValue.lean (over the generated frame's segments); the
  reference's is RefRun.lean. The two frames of the kernel are the generated ones; the reference's frame is its run
  with the results dropped; the ideal pass rewrote nothing.
-/
import proofs.«176825_j1932735283876_1_alg».proof.Defs
import proofs.«176825_j1932735283876_1_alg».proof.Proof.Gen.Kernel
import proofs.«176825_j1932735283876_1_alg».proof.Proof.Gen.Kernel.Frame
import proofs.«176825_j1932735283876_1_alg».proof.Proof.Gen.KernelIdeal
import proofs.«176825_j1932735283876_1_alg».proof.Proof.Gen.KernelIdeal.Frame
import proofs.«176825_j1932735283876_1_alg».proof.Proof.Gen.ReferenceIdeal
import proofs.«176825_j1932735283876_1_alg».proof.Proof.Gen.Pre_finite_inputs
import proofs.«176825_j1932735283876_1_alg».proof.Proof.KernelValue
import proofs.«176825_j1932735283876_1_alg».proof.Proof.RefRun
import Idealize.ShloMosaic.Adequacy
import Idealize.ShloMosaic.Init

noncomputable section

namespace Cert.Proof

open Idealize.ShloMosaic Idealize.SL.Sem Cert.BinLoss

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.RefSide.run m ρ)

theorem preserves : Cert.preserves_Kernel_KernelIdeal := trivial

/-- Both idealized programs end with the specification's mean and two losses of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Value.run m ρ, ?_⟩
  refine (θ_run Cert.ReferenceIdeal.defs _ _).mono (fun _ h c => ?_) (Cert.RefSide.run m' ρ')
  obtain ⟨h0, h1, h2, ha⟩ := h c
  obtain ⟨e0, e1, e2, e3⟩ := hagree c
  refine ⟨h0.trans ?_, h1.trans ?_, h2.trans ?_, ha⟩
  · rw [e0, e1, e2, e3]; rfl
  · rw [e0, e1]; rfl
  · rw [e2, e3]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
